-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x6400000 : Shape := ⟨2, ![2, 6400000]⟩
abbrev S32x240 : Shape := ⟨2, ![32, 240]⟩
abbrev S240 : Shape := ⟨1, ![240]⟩
abbrev S240x24 : Shape := ⟨2, ![240, 24]⟩
abbrev S24 : Shape := ⟨1, ![24]⟩
abbrev S24x24 : Shape := ⟨2, ![24, 24]⟩
abbrev S24x120 : Shape := ⟨2, ![24, 120]⟩
abbrev S120 : Shape := ⟨1, ![120]⟩
abbrev S120x12 : Shape := ⟨2, ![120, 12]⟩
abbrev S12 : Shape := ⟨1, ![12]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x240 : S_.BroadcastsInDim S32x240 (![] : Fin 0 → Fin S32x240.rank)
  reducesTo_S32x240_S_d0_1 : S32x240.ReducesTo [0, 1] S_
  bcast_S_S240 : S_.BroadcastsInDim S240 (![] : Fin 0 → Fin S240.rank)
  reducesTo_S240_S_d0 : S240.ReducesTo [0] S_
  bcast_S_S240x24 : S_.BroadcastsInDim S240x24 (![] : Fin 0 → Fin S240x24.rank)
  reducesTo_S240x24_S_d0_1 : S240x24.ReducesTo [0, 1] S_
  bcast_S_S24 : S_.BroadcastsInDim S24 (![] : Fin 0 → Fin S24.rank)
  reducesTo_S24_S_d0 : S24.ReducesTo [0] S_
  bcast_S_S24x24 : S_.BroadcastsInDim S24x24 (![] : Fin 0 → Fin S24x24.rank)
  reducesTo_S24x24_S_d0_1 : S24x24.ReducesTo [0, 1] S_
  bcast_S_S24x120 : S_.BroadcastsInDim S24x120 (![] : Fin 0 → Fin S24x120.rank)
  reducesTo_S24x120_S_d0_1 : S24x120.ReducesTo [0, 1] S_
  bcast_S_S120 : S_.BroadcastsInDim S120 (![] : Fin 0 → Fin S120.rank)
  reducesTo_S120_S_d0 : S120.ReducesTo [0] S_
  bcast_S_S120x12 : S_.BroadcastsInDim S120x12 (![] : Fin 0 → Fin S120x12.rank)
  reducesTo_S120x12_S_d0_1 : S120x12.ReducesTo [0, 1] S_
  bcast_S_S12 : S_.BroadcastsInDim S12 (![] : Fin 0 → Fin S12.rank)
  reducesTo_S12_S_d0 : S12.ReducesTo [0] S_

variable [Facts]

def fn_part5 {F : FTy → Type} [FloatOps F] (main_v83 : IVec S_ 1) (main_v84 : FVec F S12 .f32) (main_cst_32 : FVec F S_ .f32) : IVec S_ 1 :=
  let main_v85 : FVec F S12 .f32 := broadcastInDim S12 ![] bcast_S_S12 main_cst_32
  let main_v86 : IVec S12 1 := cmpf .olt main_v84 main_v85
  let main_c_33 : IVec S_ 1 := constantI S_ 1 1#1
  let main_v87 : IVec S_ 1 := (fun x v => Host.reduce IntOp.andi x v reducesTo_S12_S_d0 h_S_) main_v86 main_c_33
  let main_v88 : IVec S_ 1 := andi main_v83 main_v87
  main_v88

def fn_part4 {F : FTy → Type} [FloatOps F] (main_arg15 : FVec F S24x120 .f32) (main_arg16 : FVec F S120 .f32) (main_arg17 : FVec F S120x12 .f32) (main_arg18 : FVec F S12 .f32) (main_v63 : IVec S_ 1) (main_v67 : IVec S_ 1) : IVec S_ 1 :=
  let main_v68 : IVec S_ 1 := andi main_v63 main_v67
  let main_v69 : FVec F S24x120 .f32 := Host.absf main_arg15
  let main_cst_26 : FVec F S_ .f32 := constant S_ .f32 0x7F800000#32
  let main_v70 : FVec F S24x120 .f32 := broadcastInDim S24x120 ![] bcast_S_S24x120 main_cst_26
  let main_v71 : IVec S24x120 1 := cmpf .olt main_v69 main_v70
  let main_c_27 : IVec S_ 1 := constantI S_ 1 1#1
  let main_v72 : IVec S_ 1 := (fun x v => Host.reduce IntOp.andi x v reducesTo_S24x120_S_d0_1 h_S_) main_v71 main_c_27
  let main_v73 : IVec S_ 1 := andi main_v68 main_v72
  let main_v74 : FVec F S120 .f32 := Host.absf main_arg16
  let main_cst_28 : FVec F S_ .f32 := constant S_ .f32 0x7F800000#32
  let main_v75 : FVec F S120 .f32 := broadcastInDim S120 ![] bcast_S_S120 main_cst_28
  let main_v76 : IVec S120 1 := cmpf .olt main_v74 main_v75
  let main_c_29 : IVec S_ 1 := constantI S_ 1 1#1
  let main_v77 : IVec S_ 1 := (fun x v => Host.reduce IntOp.andi x v reducesTo_S120_S_d0 h_S_) main_v76 main_c_29
  let main_v78 : IVec S_ 1 := andi main_v73 main_v77
  let main_v79 : FVec F S120x12 .f32 := Host.absf main_arg17
  let main_cst_30 : FVec F S_ .f32 := constant S_ .f32 0x7F800000#32
  let main_v80 : FVec F S120x12 .f32 := broadcastInDim S120x12 ![] bcast_S_S120x12 main_cst_30
  let main_v81 : IVec S120x12 1 := cmpf .olt main_v79 main_v80
  let main_c_31 : IVec S_ 1 := constantI S_ 1 1#1
  let main_v82 : IVec S_ 1 := (fun x v => Host.reduce IntOp.andi x v reducesTo_S120x12_S_d0_1 h_S_) main_v81 main_c_31
  let main_v83 : IVec S_ 1 := andi main_v78 main_v82
  let main_v84 : FVec F S12 .f32 := Host.absf main_arg18
  let main_cst_32 : FVec F S_ .f32 := constant S_ .f32 0x7F800000#32
  fn_part5 (F := F) main_v83 main_v84 main_cst_32

def fn_part3 {F : FTy → Type} [FloatOps F] (main_arg12 : FVec F S24x24 .f32) (main_arg13 : FVec F S24 .f32) (main_arg14 : FVec F S24x24 .f32) (main_arg15 : FVec F S24x120 .f32) (main_arg16 : FVec F S120 .f32) (main_arg17 : FVec F S120x12 .f32) (main_arg18 : FVec F S12 .f32) (main_v48 : IVec S_ 1) (main_v49 : FVec F S24x24 .f32) (main_v50 : FVec F S24x24 .f32) : IVec S_ 1 :=
  let main_v51 : IVec S24x24 1 := cmpf .olt main_v49 main_v50
  let main_c_19 : IVec S_ 1 := constantI S_ 1 1#1
  let main_v52 : IVec S_ 1 := (fun x v => Host.reduce IntOp.andi x v reducesTo_S24x24_S_d0_1 h_S_) main_v51 main_c_19
  let main_v53 : IVec S_ 1 := andi main_v48 main_v52
  let main_v54 : FVec F S24x24 .f32 := Host.absf main_arg12
  let main_cst_20 : FVec F S_ .f32 := constant S_ .f32 0x7F800000#32
  let main_v55 : FVec F S24x24 .f32 := broadcastInDim S24x24 ![] bcast_S_S24x24 main_cst_20
  let main_v56 : IVec S24x24 1 := cmpf .olt main_v54 main_v55
  let main_c_21 : IVec S_ 1 := constantI S_ 1 1#1
  let main_v57 : IVec S_ 1 := (fun x v => Host.reduce IntOp.andi x v reducesTo_S24x24_S_d0_1 h_S_) main_v56 main_c_21
  let main_v58 : IVec S_ 1 := andi main_v53 main_v57
  let main_v59 : FVec F S24 .f32 := Host.absf main_arg13
  let main_cst_22 : FVec F S_ .f32 := constant S_ .f32 0x7F800000#32
  let main_v60 : FVec F S24 .f32 := broadcastInDim S24 ![] bcast_S_S24 main_cst_22
  let main_v61 : IVec S24 1 := cmpf .olt main_v59 main_v60
  let main_c_23 : IVec S_ 1 := constantI S_ 1 1#1
  let main_v62 : IVec S_ 1 := (fun x v => Host.reduce IntOp.andi x v reducesTo_S24_S_d0 h_S_) main_v61 main_c_23
  let main_v63 : IVec S_ 1 := andi main_v58 main_v62
  let main_v64 : FVec F S24x24 .f32 := Host.absf main_arg14
  let main_cst_24 : FVec F S_ .f32 := constant S_ .f32 0x7F800000#32
  let main_v65 : FVec F S24x24 .f32 := broadcastInDim S24x24 ![] bcast_S_S24x24 main_cst_24
  let main_v66 : IVec S24x24 1 := cmpf .olt main_v64 main_v65
  let main_c_25 : IVec S_ 1 := constantI S_ 1 1#1
  let main_v67 : IVec S_ 1 := (fun x v => Host.reduce IntOp.andi x v reducesTo_S24x24_S_d0_1 h_S_) main_v66 main_c_25
  fn_part4 (F := F) main_arg15 main_arg16 main_arg17 main_arg18 main_v63 main_v67

def fn_part2 {F : FTy → Type} [FloatOps F] (main_arg8 : FVec F S24x24 .f32) (main_arg9 : FVec F S24x24 .f32) (main_arg10 : FVec F S24 .f32) (main_arg11 : FVec F S24x24 .f32) (main_arg12 : FVec F S24x24 .f32) (main_arg13 : FVec F S24 .f32) (main_arg14 : FVec F S24x24 .f32) (main_arg15 : FVec F S24x120 .f32) (main_arg16 : FVec F S120 .f32) (main_arg17 : FVec F S120x12 .f32) (main_arg18 : FVec F S12 .f32) (main_v33 : IVec S_ 1) : IVec S_ 1 :=
  let main_v34 : FVec F S24x24 .f32 := Host.absf main_arg8
  let main_cst_12 : FVec F S_ .f32 := constant S_ .f32 0x7F800000#32
  let main_v35 : FVec F S24x24 .f32 := broadcastInDim S24x24 ![] bcast_S_S24x24 main_cst_12
  let main_v36 : IVec S24x24 1 := cmpf .olt main_v34 main_v35
  let main_c_13 : IVec S_ 1 := constantI S_ 1 1#1
  let main_v37 : IVec S_ 1 := (fun x v => Host.reduce IntOp.andi x v reducesTo_S24x24_S_d0_1 h_S_) main_v36 main_c_13
  let main_v38 : IVec S_ 1 := andi main_v33 main_v37
  let main_v39 : FVec F S24x24 .f32 := Host.absf main_arg9
  let main_cst_14 : FVec F S_ .f32 := constant S_ .f32 0x7F800000#32
  let main_v40 : FVec F S24x24 .f32 := broadcastInDim S24x24 ![] bcast_S_S24x24 main_cst_14
  let main_v41 : IVec S24x24 1 := cmpf .olt main_v39 main_v40
  let main_c_15 : IVec S_ 1 := constantI S_ 1 1#1
  let main_v42 : IVec S_ 1 := (fun x v => Host.reduce IntOp.andi x v reducesTo_S24x24_S_d0_1 h_S_) main_v41 main_c_15
  let main_v43 : IVec S_ 1 := andi main_v38 main_v42
  let main_v44 : FVec F S24 .f32 := Host.absf main_arg10
  let main_cst_16 : FVec F S_ .f32 := constant S_ .f32 0x7F800000#32
  let main_v45 : FVec F S24 .f32 := broadcastInDim S24 ![] bcast_S_S24 main_cst_16
  let main_v46 : IVec S24 1 := cmpf .olt main_v44 main_v45
  let main_c_17 : IVec S_ 1 := constantI S_ 1 1#1
  let main_v47 : IVec S_ 1 := (fun x v => Host.reduce IntOp.andi x v reducesTo_S24_S_d0 h_S_) main_v46 main_c_17
  let main_v48 : IVec S_ 1 := andi main_v43 main_v47
  let main_v49 : FVec F S24x24 .f32 := Host.absf main_arg11
  let main_cst_18 : FVec F S_ .f32 := constant S_ .f32 0x7F800000#32
  let main_v50 : FVec F S24x24 .f32 := broadcastInDim S24x24 ![] bcast_S_S24x24 main_cst_18
  fn_part3 (F := F) main_arg12 main_arg13 main_arg14 main_arg15 main_arg16 main_arg17 main_arg18 main_v48 main_v49 main_v50

def fn_part1 {F : FTy → Type} [FloatOps F] (main_arg5 : FVec F S24 .f32) (main_arg6 : FVec F S24x24 .f32) (main_arg7 : FVec F S24 .f32) (main_arg8 : FVec F S24x24 .f32) (main_arg9 : FVec F S24x24 .f32) (main_arg10 : FVec F S24 .f32) (main_arg11 : FVec F S24x24 .f32) (main_arg12 : FVec F S24x24 .f32) (main_arg13 : FVec F S24 .f32) (main_arg14 : FVec F S24x24 .f32) (main_arg15 : FVec F S24x120 .f32) (main_arg16 : FVec F S120 .f32) (main_arg17 : FVec F S120x12 .f32) (main_arg18 : FVec F S12 .f32) (main_v13 : IVec S_ 1) (main_v16 : IVec S240x24 1) : IVec S_ 1 :=
  let main_c_5 : IVec S_ 1 := constantI S_ 1 1#1
  let main_v17 : IVec S_ 1 := (fun x v => Host.reduce IntOp.andi x v reducesTo_S240x24_S_d0_1 h_S_) main_v16 main_c_5
  let main_v18 : IVec S_ 1 := andi main_v13 main_v17
  let main_v19 : FVec F S24 .f32 := Host.absf main_arg5
  let main_cst_6 : FVec F S_ .f32 := constant S_ .f32 0x7F800000#32
  let main_v20 : FVec F S24 .f32 := broadcastInDim S24 ![] bcast_S_S24 main_cst_6
  let main_v21 : IVec S24 1 := cmpf .olt main_v19 main_v20
  let main_c_7 : IVec S_ 1 := constantI S_ 1 1#1
  let main_v22 : IVec S_ 1 := (fun x v => Host.reduce IntOp.andi x v reducesTo_S24_S_d0 h_S_) main_v21 main_c_7
  let main_v23 : IVec S_ 1 := andi main_v18 main_v22
  let main_v24 : FVec F S24x24 .f32 := Host.absf main_arg6
  let main_cst_8 : FVec F S_ .f32 := constant S_ .f32 0x7F800000#32
  let main_v25 : FVec F S24x24 .f32 := broadcastInDim S24x24 ![] bcast_S_S24x24 main_cst_8
  let main_v26 : IVec S24x24 1 := cmpf .olt main_v24 main_v25
  let main_c_9 : IVec S_ 1 := constantI S_ 1 1#1
  let main_v27 : IVec S_ 1 := (fun x v => Host.reduce IntOp.andi x v reducesTo_S24x24_S_d0_1 h_S_) main_v26 main_c_9
  let main_v28 : IVec S_ 1 := andi main_v23 main_v27
  let main_v29 : FVec F S24 .f32 := Host.absf main_arg7
  let main_cst_10 : FVec F S_ .f32 := constant S_ .f32 0x7F800000#32
  let main_v30 : FVec F S24 .f32 := broadcastInDim S24 ![] bcast_S_S24 main_cst_10
  let main_v31 : IVec S24 1 := cmpf .olt main_v29 main_v30
  let main_c_11 : IVec S_ 1 := constantI S_ 1 1#1
  let main_v32 : IVec S_ 1 := (fun x v => Host.reduce IntOp.andi x v reducesTo_S24_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S100000x32 .f32) (main_arg1 : IVec S2x6400000 32) (main_arg2 : FVec F S32x240 .f32) (main_arg3 : FVec F S240 .f32) (main_arg4 : FVec F S240x24 .f32) (main_arg5 : FVec F S24 .f32) (main_arg6 : FVec F S24x24 .f32) (main_arg7 : FVec F S24 .f32) (main_arg8 : FVec F S24x24 .f32) (main_arg9 : FVec F S24x24 .f32) (main_arg10 : FVec F S24 .f32) (main_arg11 : FVec F S24x24 .f32) (main_arg12 : FVec F S24x24 .f32) (main_arg13 : FVec F S24 .f32) (main_arg14 : FVec F S24x24 .f32) (main_arg15 : FVec F S24x120 .f32) (main_arg16 : FVec F S120 .f32) (main_arg17 : FVec F S120x12 .f32) (main_arg18 : FVec F S12 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x240 .f32 := Host.absf main_arg2
  let main_cst_0 : FVec F S_ .f32 := constant S_ .f32 0x7F800000#32
  let main_v5 : FVec F S32x240 .f32 := broadcastInDim S32x240 ![] bcast_S_S32x240 main_cst_0
  let main_v6 : IVec S32x240 1 := cmpf .olt main_v4 main_v5
  let main_c_1 : IVec S_ 1 := constantI S_ 1 1#1
  let main_v7 : IVec S_ 1 := (fun x v => Host.reduce IntOp.andi x v reducesTo_S32x240_S_d0_1 h_S_) main_v6 main_c_1
  let main_v8 : IVec S_ 1 := andi main_v3 main_v7
  let main_v9 : FVec F S240 .f32 := Host.absf main_arg3
  let main_cst_2 : FVec F S_ .f32 := constant S_ .f32 0x7F800000#32
  let main_v10 : FVec F S240 .f32 := broadcastInDim S240 ![] bcast_S_S240 main_cst_2
  let main_v11 : IVec S240 1 := cmpf .olt main_v9 main_v10
  let main_c_3 : IVec S_ 1 := constantI S_ 1 1#1
  let main_v12 : IVec S_ 1 := (fun x v => Host.reduce IntOp.andi x v reducesTo_S240_S_d0 h_S_) main_v11 main_c_3
  let main_v13 : IVec S_ 1 := andi main_v8 main_v12
  let main_v14 : FVec F S240x24 .f32 := Host.absf main_arg4
  let main_cst_4 : FVec F S_ .f32 := constant S_ .f32 0x7F800000#32
  let main_v15 : FVec F S240x24 .f32 := broadcastInDim S240x24 ![] bcast_S_S240x24 main_cst_4
  let main_v16 : IVec S240x24 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S100000x32 : Shape := ⟨2, ![100000, 32]⟩
abbrev S2x6400000 : Shape := ⟨2, ![2, 6400000]⟩
abbrev S32x240 : Shape := ⟨2, ![32, 240]⟩
abbrev S240 : Shape := ⟨1, ![240]⟩
abbrev S240x24 : Shape := ⟨2, ![240, 24]⟩
abbrev S24 : Shape := ⟨1, ![24]⟩
abbrev S24x24 : Shape := ⟨2, ![24, 24]⟩
abbrev S24x120 : Shape := ⟨2, ![24, 120]⟩
abbrev S120 : Shape := ⟨1, ![120]⟩
abbrev S120x12 : Shape := ⟨2, ![120, 12]⟩
abbrev S12 : Shape := ⟨1, ![12]⟩
abbrev S1x6400000 : Shape := ⟨2, ![1, 6400000]⟩
abbrev S6400000 : Shape := ⟨1, ![6400000]⟩
abbrev S_ : Shape := ⟨0, ![]⟩
abbrev S100000 : Shape := ⟨1, ![100000]⟩
abbrev S6400000x1 : Shape := ⟨2, ![6400000, 1]⟩
abbrev S1x240 : Shape := ⟨2, ![1, 240]⟩
abbrev S1x24 : Shape := ⟨2, ![1, 24]⟩
abbrev S100000x24 : Shape := ⟨2, ![100000, 24]⟩
abbrev S10000x32 : Shape := ⟨2, ![10000, 32]⟩
abbrev S10000x24 : Shape := ⟨2, ![10000, 24]⟩
abbrev S10000x240 : Shape := ⟨2, ![10000, 240]⟩
abbrev S6400000x24 : Shape := ⟨2, ![6400000, 24]⟩
abbrev S100000x1 : Shape := ⟨2, ![100000, 1]⟩
abbrev S1x120 : Shape := ⟨2, ![1, 120]⟩
abbrev S1x12 : Shape := ⟨2, ![1, 12]⟩
abbrev S100000x12 : Shape := ⟨2, ![100000, 12]⟩
abbrev S10000x12 : Shape := ⟨2, ![10000, 12]⟩
abbrev S10000x120 : Shape := ⟨2, ![10000, 120]⟩

abbrev nBuf : Space → Nat
  | .hbm => 95
  | .vmem => 43
  | .smem => 0
  | _ => 0

abbrev bufTy : (tb : Table) → Fin (tcTables nBuf tb) → BufTy
  | .hbm, ⟨0, _⟩ => ⟨S100000x32, .f32⟩
  | .hbm, ⟨1, _⟩ => ⟨S2x6400000, .i32⟩
  | .hbm, ⟨2, _⟩ => ⟨S32x240, .f32⟩
  | .hbm, ⟨3, _⟩ => ⟨S240, .f32⟩
  | .hbm, ⟨4, _⟩ => ⟨S240x24, .f32⟩
  | .hbm, ⟨5, _⟩ => ⟨S24, .f32⟩
  | .hbm, ⟨6, _⟩ => ⟨S24x24, .f32⟩
  | .hbm, ⟨7, _⟩ => ⟨S24, .f32⟩
  | .hbm, ⟨8, _⟩ => ⟨S24x24, .f32⟩
  | .hbm, ⟨9, _⟩ => ⟨S24x24, .f32⟩
  | .hbm, ⟨10, _⟩ => ⟨S24, .f32⟩
  | .hbm, ⟨11, _⟩ => ⟨S24x24, .f32⟩
  | .hbm, ⟨12, _⟩ => ⟨S24x24, .f32⟩
  | .hbm, ⟨13, _⟩ => ⟨S24, .f32⟩
  | .hbm, ⟨14, _⟩ => ⟨S24x24, .f32⟩
  | .hbm, ⟨15, _⟩ => ⟨S24x120, .f32⟩
  | .hbm, ⟨16, _⟩ => ⟨S120, .f32⟩
  | .hbm, ⟨17, _⟩ => ⟨S120x12, .f32⟩
  | .hbm, ⟨18, _⟩ => ⟨S12, .f32⟩
  | .hbm, ⟨19, _⟩ => ⟨S1x6400000, .i32⟩
  | .hbm, ⟨20, _⟩ => ⟨S6400000, .i32⟩
  | .hbm, ⟨21, _⟩ => ⟨S1x6400000, .i32⟩
  | .hbm, ⟨22, _⟩ => ⟨S6400000, .i32⟩
  | .hbm, ⟨23, _⟩ => ⟨S_, .f32⟩
  | .hbm, ⟨24, _⟩ => ⟨S6400000, .f32⟩
  | .hbm, ⟨25, _⟩ => ⟨S_, .f32⟩
  | .hbm, ⟨26, _⟩ => ⟨S100000, .f32⟩
  | .hbm, ⟨27, _⟩ => ⟨S6400000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S1x240, .f32⟩
  | .hbm, ⟨36, _⟩ => ⟨S1x24, .f32⟩
  | .hbm, ⟨37, _⟩ => ⟨S100000x24, .f32⟩
  | .hbm, ⟨38, _⟩ => ⟨S_, .i32⟩
  | .hbm, ⟨39, _⟩ => ⟨S6400000, .i32⟩
  | .hbm, ⟨40, _⟩ => ⟨S6400000, .i1⟩
  | .hbm, ⟨41, _⟩ => ⟨S_, .i32⟩
  | .hbm, ⟨42, _⟩ => ⟨S6400000, .i32⟩
  | .hbm, ⟨43, _⟩ => ⟨S6400000, .i32⟩
  | .hbm, ⟨44, _⟩ => ⟨S6400000, .i32⟩
  | .hbm, ⟨45, _⟩ => ⟨S6400000x1, .i32⟩
  | .hbm, ⟨46, _⟩ => ⟨S6400000x24, .f32⟩
  | .hbm, ⟨47, _⟩ => ⟨S_, .f32⟩
  | .hbm, ⟨48, _⟩ => ⟨S100000x24, .f32⟩
  | .hbm, ⟨49, _⟩ => ⟨S6400000x1, .i32⟩
  | .hbm, ⟨50, _⟩ => ⟨S100000x24, .f32⟩
  | .hbm, ⟨51, _⟩ => ⟨S100000x1, .f32⟩
  | .hbm, ⟨52, _⟩ => ⟨S100000x24, .f32⟩
  | .hbm, ⟨53, _⟩ => ⟨S100000x24, .f32⟩
  | .hbm, ⟨54, _⟩ => ⟨S1x24, .f32⟩
  | .hbm, ⟨55, _⟩ => ⟨S100000x24, .f32⟩
  | .hbm, ⟨56, _⟩ => ⟨S_, .i32⟩
  | .hbm, ⟨57, _⟩ => ⟨S6400000, .i32⟩
  | .hbm, ⟨58, _⟩ => ⟨S6400000, .i1⟩
  | .hbm, ⟨59, _⟩ => ⟨S_, .i32⟩
  | .hbm, ⟨60, _⟩ => ⟨S6400000, .i32⟩
  | .hbm, ⟨61, _⟩ => ⟨S6400000, .i32⟩
  | .hbm, ⟨62, _⟩ => ⟨S6400000, .i32⟩
  | .hbm, ⟨63, _⟩ => ⟨S6400000x1, .i32⟩
  | .hbm, ⟨64, _⟩ => ⟨S6400000x24, .f32⟩
  | .hbm, ⟨65, _⟩ => ⟨S_, .f32⟩
  | .hbm, ⟨66, _⟩ => ⟨S100000x24, .f32⟩
  | .hbm, ⟨67, _⟩ => ⟨S6400000x1, .i32⟩
  | .hbm, ⟨68, _⟩ => ⟨S100000x24, .f32⟩
  | .hbm, ⟨69, _⟩ => ⟨S100000x1, .f32⟩
  | .hbm, ⟨70, _⟩ => ⟨S100000x24, .f32⟩
  | .hbm, ⟨71, _⟩ => ⟨S100000x24, .f32⟩
  | .hbm, ⟨72, _⟩ => ⟨S1x24, .f32⟩
  | .hbm, ⟨73, _⟩ => ⟨S100000x24, .f32⟩
  | .hbm, ⟨74, _⟩ => ⟨S_, .i32⟩
  | .hbm, ⟨75, _⟩ => ⟨S6400000, .i32⟩
  | .hbm, ⟨76, _⟩ => ⟨S6400000, .i1⟩
  | .hbm, ⟨77, _⟩ => ⟨S_, .i32⟩
  | .hbm, ⟨78, _⟩ => ⟨S6400000, .i32⟩
  | .hbm, ⟨79, _⟩ => ⟨S6400000, .i32⟩
  | .hbm, ⟨80, _⟩ => ⟨S6400000, .i32⟩
  | .hbm, ⟨81, _⟩ => ⟨S6400000x1, .i32⟩
  | .hbm, ⟨82, _⟩ => ⟨S6400000x24, .f32⟩
  | .hbm, ⟨83, _⟩ => ⟨S_, .f32⟩
  | .hbm, ⟨84, _⟩ => ⟨S100000x24, .f32⟩
  | .hbm, ⟨85, _⟩ => ⟨S6400000x1, .i32⟩
  | .hbm, ⟨86, _⟩ => ⟨S100000x24, .f32⟩
  | .hbm, ⟨87, _⟩ => ⟨S100000x1, .f32⟩
  | .hbm, ⟨88, _⟩ => ⟨S100000x24, .f32⟩
  | .hbm, ⟨89, _⟩ => ⟨S100000x24, .f32⟩
  | .hbm, ⟨90, _⟩ => ⟨S1x24, .f32⟩
  | .hbm, ⟨91, _⟩ => ⟨S100000x24, .f32⟩
  | .hbm, ⟨92, _⟩ => ⟨S1x120, .f32⟩
  | .hbm, ⟨93, _⟩ => ⟨S1x12, .f32⟩
  | .hbm, ⟨94, _⟩ => ⟨S100000x12, .f32⟩
  | .local _ .vmem, ⟨0, _⟩ => ⟨S10000x32, .f32⟩
  | .local _ .vmem, ⟨1, _⟩ => ⟨S10000x32, .f32⟩
  | .local _ .vmem, ⟨2, _⟩ => ⟨S32x240, .f32⟩
  | .local _ .vmem, ⟨3, _⟩ => ⟨S1x240, .f32⟩
  | .local _ .vmem, ⟨4, _⟩ => ⟨S240x24, .f32⟩
  | .local _ .vmem, ⟨5, _⟩ => ⟨S1x24, .f32⟩
  | .local _ .vmem, ⟨6, _⟩ => ⟨S10000x24, .f32⟩
  | .local _ .vmem, ⟨7, _⟩ => ⟨S10000x24, .f32⟩
  | .local _ .vmem, ⟨8, _⟩ => ⟨S10000x24, .f32⟩
  | .local _ .vmem, ⟨9, _⟩ => ⟨S10000x24, .f32⟩
  | .local _ .vmem, ⟨10, _⟩ => ⟨S10000x24, .f32⟩
  | .local _ .vmem, ⟨11, _⟩ => ⟨S10000x24, .f32⟩
  | .local _ .vmem, ⟨12, _⟩ => ⟨S24x24, .f32⟩
  | .local _ .vmem, ⟨13, _⟩ => ⟨S1x24, .f32⟩
  | .local _ .vmem, ⟨14, _⟩ => ⟨S24x24, .f32⟩
  | .local _ .vmem, ⟨15, _⟩ => ⟨S10000x24, .f32⟩
  | .local _ .vmem, ⟨16, _⟩ => ⟨S10000x24, .f32⟩
  | .local _ .vmem, ⟨17, _⟩ => ⟨S10000x24, .f32⟩
  | .local _ .vmem, ⟨18, _⟩ => ⟨S10000x24, .f32⟩
  | .local _ .vmem, ⟨19, _⟩ => ⟨S10000x24, .f32⟩
  | .local _ .vmem, ⟨20, _⟩ => ⟨S10000x24, .f32⟩
  | .local _ .vmem, ⟨21, _⟩ => ⟨S24x24, .f32⟩
  | .local _ .vmem, ⟨22, _⟩ => ⟨S1x24, .f32⟩
  | .local _ .vmem, ⟨23, _⟩ => ⟨S24x24, .f32⟩
  | .local _ .vmem, ⟨24, _⟩ => ⟨S10000x24, .f32⟩
  | .local _ .vmem, ⟨25, _⟩ => ⟨S10000x24, .f32⟩
  | .local _ .vmem, ⟨26, _⟩ => ⟨S10000x24, .f32⟩
  | .local _ .vmem, ⟨27, _⟩ => ⟨S10000x24, .f32⟩
  | .local _ .vmem, ⟨28, _⟩ => ⟨S10000x24, .f32⟩
  | .local _ .vmem, ⟨29, _⟩ => ⟨S10000x24, .f32⟩
  | .local _ .vmem, ⟨30, _⟩ => ⟨S24x24, .f32⟩
  | .local _ .vmem, ⟨31, _⟩ => ⟨S1x24, .f32⟩
  | .local _ .vmem, ⟨32, _⟩ => ⟨S24x24, .f32⟩
  | .local _ .vmem, ⟨33, _⟩ => ⟨S10000x24, .f32⟩
  | .local _ .vmem, ⟨34, _⟩ => ⟨S10000x24, .f32⟩
  | .local _ .vmem, ⟨35, _⟩ => ⟨S10000x24, .f32⟩
  | .local _ .vmem, ⟨36, _⟩ => ⟨S10000x24, .f32⟩
  | .local _ .vmem, ⟨37, _⟩ => ⟨S24x120, .f32⟩
  | .local _ .vmem, ⟨38, _⟩ => ⟨S1x120, .f32⟩
  | .local _ .vmem, ⟨39, _⟩ => ⟨S120x12, .f32⟩
  | .local _ .vmem, ⟨40, _⟩ => ⟨S1x12, .f32⟩
  | .local _ .vmem, ⟨41, _⟩ => ⟨S10000x12, .f32⟩
  | .local _ .vmem, ⟨42, _⟩ => ⟨S10000x12, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_cst_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_4 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_5 : Ref sig .tc := ⟨.hbm, 56, rfl⟩
abbrev main_v30 : Ref sig .tc := ⟨.hbm, 57, rfl⟩
abbrev main_v31 : Ref sig .tc := ⟨.hbm, 58, rfl⟩
abbrev main_c_6 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_8 : Ref sig .tc := ⟨.hbm, 74, rfl⟩
abbrev main_v45 : Ref sig .tc := ⟨.hbm, 75, rfl⟩
abbrev main_v46 : Ref sig .tc := ⟨.hbm, 76, rfl⟩
abbrev main_c_9 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_10 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg5_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34
abbrev cc4_sem0_0 : DmaSem sig := 35
abbrev cc4_sem0_1 : DmaSem sig := 36
abbrev cc4_sem1_0 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem5_1 : DmaSem sig := 42

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S240x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x24 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x24 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x24 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S24x24 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x24 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S24x24 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x24 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x24 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x24 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S24x24 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x24 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S24x24 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x24 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x24 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x24 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S24x24 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x24 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S24x24 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x24 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x24 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S24x120 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x120 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S120x12 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x12 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x12 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S100000 : S_.BroadcastsInDim S100000 (![] : Fin 0 → Fin S100000.rank)
  bcast_S6400000_S6400000x1_0 : S6400000.BroadcastsInDim S6400000x1 (![0] : Fin 1 → Fin S6400000x1.rank)
  shapeCasts_S240_S1x240 : S240.ShapeCasts S1x240
  shapeCasts_S24_S1x24 : S24.ShapeCasts S1x24
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x240_S32x240_0_0 : ∀ a, (![0, 0] : Fin 2 → Nat) a + S32x240.size a ≤ S32x240.size a
  h_S32x240 : 0 < S32x240.numel
  inb_S1x240_S1x240_0_0 : ∀ a, (![0, 0] : Fin 2 → Nat) a + S1x240.size a ≤ S1x240.size a
  h_S1x240 : 0 < S1x240.numel
  shapeCasts_S1x240_S1x240 : S1x240.ShapeCasts S1x240
  broadcasts_S1x240_S10000x240 : S1x240.Broadcasts S10000x240
  inb_S240x24_S240x24_0_0 : ∀ a, (![0, 0] : Fin 2 → Nat) a + S240x24.size a ≤ S240x24.size a
  h_S240x24 : 0 < S240x24.numel
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S10000x24 : S1x24.Broadcasts S10000x24
  inb_S10000x24_S10000x24_0_0 : ∀ a, (![0, 0] : Fin 2 → Nat) a + S10000x24.size a ≤ S10000x24.size a
  h_S10000x24 : 0 < S10000x24.numel
  bcast_S_S100000x24 : S_.BroadcastsInDim S100000x24 (![] : Fin 0 → Fin S100000x24.rank)
  bcast_S100000_S100000x1_0 : S100000.BroadcastsInDim S100000x1 (![0] : Fin 1 → Fin S100000x1.rank)
  bcast_S100000x1_S100000x24_0_1 : S100000x1.BroadcastsInDim S100000x24 (![0, 1] : Fin 2 → Fin S100000x24.rank)
  shapeCasts_S10000x24_S10000x24 : S10000x24.ShapeCasts S10000x24
  inb_S24x24_S24x24_0_0 : ∀ a, (![0, 0] : Fin 2 → Nat) a + S24x24.size a ≤ S24x24.size a
  h_S24x24 : 0 < S24x24.numel
  shapeCasts_S120_S1x120 : S120.ShapeCasts S1x120
  shapeCasts_S12_S1x12 : S12.ShapeCasts S1x12
  inb_S24x120_S24x120_0_0 : ∀ a, (![0, 0] : Fin 2 → Nat) a + S24x120.size a ≤ S24x120.size a
  h_S24x120 : 0 < S24x120.numel
  inb_S1x120_S1x120_0_0 : ∀ a, (![0, 0] : Fin 2 → Nat) a + S1x120.size a ≤ S1x120.size a
  h_S1x120 : 0 < S1x120.numel
  shapeCasts_S1x120_S1x120 : S1x120.ShapeCasts S1x120
  broadcasts_S1x120_S10000x120 : S1x120.Broadcasts S10000x120
  inb_S120x12_S120x12_0_0 : ∀ a, (![0, 0] : Fin 2 → Nat) a + S120x12.size a ≤ S120x12.size a
  h_S120x12 : 0 < S120x12.numel
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S10000x12 : S1x12.Broadcasts S10000x12
  inb_S10000x12_S10000x12_0_0 : ∀ a, (![0, 0] : Fin 2 → Nat) a + S10000x12.size a ≤ S10000x12.size a
  h_S10000x12 : 0 < S10000x12.numel
  scatter_S100000_S6400000x1_S6400000_n_0_0_1_wf : ScatterDims.WF S100000 S6400000x1 S6400000 [] [0] [0] 1
  dot_S10000x32_S32x240_S10000x240_1_0_0_1_n_n_wf : DotDims.WF S10000x32 S32x240 S10000x240 [1] [0] [0] [1] [] []
  dot_S10000x240_S240x24_S10000x24_1_0_0_1_n_n_wf : DotDims.WF S10000x240 S240x24 S10000x24 [1] [0] [0] [1] [] []
  gather_S100000x24_S6400000x1_S6400000x24_1_0_n_n_0_1_124_wf : GatherDims.WF S100000x24 S6400000x1 S6400000x24 [1] [0] [] [0] [] 1 ![1, 24]
  scatter_S100000x24_S6400000x1_S6400000x24_1_0_0_1_wf : ScatterDims.WF S100000x24 S6400000x1 S6400000x24 [1] [0] [0] 1
  dot_S10000x24_S24x24_S10000x24_1_0_0_1_n_n_wf : DotDims.WF S10000x24 S24x24 S10000x24 [1] [0] [0] [1] [] []
  dot_S10000x24_S24x120_S10000x120_1_0_0_1_n_n_wf : DotDims.WF S10000x24 S24x120 S10000x120 [1] [0] [0] [1] [] []
  dot_S10000x120_S120x12_S10000x12_1_0_0_1_n_n_wf : DotDims.WF S10000x120 S120x12 S10000x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x240.size a ≤ S32x240.size a
  hwx0_1 : ∀ i : grid0.Coords, EltTy.bits .f32 = 32 ∨ (Rect.block (s := S32x240) S32x240.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x240.size a ≤ S1x240.size a
  hwx0_2 : ∀ i : grid0.Coords, EltTy.bits .f32 = 32 ∨ (Rect.block (s := S1x240) S1x240.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S240x24.size a ≤ S240x24.size a
  hwx0_3 : ∀ i : grid0.Coords, EltTy.bits .f32 = 32 ∨ (Rect.block (s := S240x24) S240x24.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x24.size a ≤ S1x24.size a
  hwx0_4 : ∀ i : grid0.Coords, EltTy.bits .f32 = 32 ∨ (Rect.block (s := S1x24) S1x24.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x24.size a ≤ S100000x24.size a
  hwx0_5 : ∀ i : grid0.Coords, EltTy.bits .f32 = 32 ∨ (Rect.block (s := S100000x24) S10000x24.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x24.size a ≤ S100000x24.size a
  hwx1_0 : ∀ i : grid1.Coords, EltTy.bits .f32 = 32 ∨ (Rect.block (s := S100000x24) S10000x24.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x24.size a ≤ S100000x24.size a
  hwx1_1 : ∀ i : grid1.Coords, EltTy.bits .f32 = 32 ∨ (Rect.block (s := S100000x24) S10000x24.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S24x24.size a ≤ S24x24.size a
  hwx1_2 : ∀ i : grid1.Coords, EltTy.bits .f32 = 32 ∨ (Rect.block (s := S24x24) S24x24.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x24.size a ≤ S1x24.size a
  hwx1_3 : ∀ i : grid1.Coords, EltTy.bits .f32 = 32 ∨ (Rect.block (s := S1x24) S1x24.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S24x24.size a ≤ S24x24.size a
  hwx1_4 : ∀ i : grid1.Coords, EltTy.bits .f32 = 32 ∨ (Rect.block (s := S24x24) S24x24.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x24.size a ≤ S100000x24.size a
  hwx1_5 : ∀ i : grid1.Coords, EltTy.bits .f32 = 32 ∨ (Rect.block (s := S100000x24) S10000x24.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x24.size a ≤ S100000x24.size a
  hwx2_0 : ∀ i : grid2.Coords, EltTy.bits .f32 = 32 ∨ (Rect.block (s := S100000x24) S10000x24.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x24.size a ≤ S100000x24.size a
  hwx2_1 : ∀ i : grid2.Coords, EltTy.bits .f32 = 32 ∨ (Rect.block (s := S100000x24) S10000x24.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S24x24.size a ≤ S24x24.size a
  hwx2_2 : ∀ i : grid2.Coords, EltTy.bits .f32 = 32 ∨ (Rect.block (s := S24x24) S24x24.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x24.size a ≤ S1x24.size a
  hwx2_3 : ∀ i : grid2.Coords, EltTy.bits .f32 = 32 ∨ (Rect.block (s := S1x24) S1x24.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S24x24.size a ≤ S24x24.size a
  hwx2_4 : ∀ i : grid2.Coords, EltTy.bits .f32 = 32 ∨ (Rect.block (s := S24x24) S24x24.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x24.size a ≤ S100000x24.size a
  hwx2_5 : ∀ i : grid2.Coords, EltTy.bits .f32 = 32 ∨ (Rect.block (s := S100000x24) S10000x24.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x24.size a ≤ S100000x24.size a
  hwx3_0 : ∀ i : grid3.Coords, EltTy.bits .f32 = 32 ∨ (Rect.block (s := S100000x24) S10000x24.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x24.size a ≤ S100000x24.size a
  hwx3_1 : ∀ i : grid3.Coords, EltTy.bits .f32 = 32 ∨ (Rect.block (s := S100000x24) S10000x24.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S24x24.size a ≤ S24x24.size a
  hwx3_2 : ∀ i : grid3.Coords, EltTy.bits .f32 = 32 ∨ (Rect.block (s := S24x24) S24x24.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x24.size a ≤ S1x24.size a
  hwx3_3 : ∀ i : grid3.Coords, EltTy.bits .f32 = 32 ∨ (Rect.block (s := S1x24) S1x24.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S24x24.size a ≤ S24x24.size a
  hwx3_4 : ∀ i : grid3.Coords, EltTy.bits .f32 = 32 ∨ (Rect.block (s := S24x24) S24x24.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x24.size a ≤ S100000x24.size a
  hwx3_5 : ∀ i : grid3.Coords, EltTy.bits .f32 = 32 ∨ (Rect.block (s := S100000x24) S10000x24.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x24.size a ≤ S100000x24.size a
  hwx4_0 : ∀ i : grid4.Coords, EltTy.bits .f32 = 32 ∨ (Rect.block (s := S100000x24) S10000x24.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S24x120.size a ≤ S24x120.size a
  hwx4_1 : ∀ i : grid4.Coords, EltTy.bits .f32 = 32 ∨ (Rect.block (s := S24x120) S24x120.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x120.size a ≤ S1x120.size a
  hwx4_2 : ∀ i : grid4.Coords, EltTy.bits .f32 = 32 ∨ (Rect.block (s := S1x120) S1x120.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S120x12.size a ≤ S120x12.size a
  hwx4_3 : ∀ i : grid4.Coords, EltTy.bits .f32 = 32 ∨ (Rect.block (s := S120x12) S120x12.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x12.size a ≤ S1x12.size a
  hwx4_4 : ∀ i : grid4.Coords, EltTy.bits .f32 = 32 ∨ (Rect.block (s := S1x12) S1x12.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x12.size a ≤ S100000x12.size a
  hwx4_5 : ∀ i : grid4.Coords, EltTy.bits .f32 = 32 ∨ (Rect.block (s := S100000x12) S10000x12.size (cc4_transform_5 i) (hinb4_5 i)).WholeWords (EltTy.packing .f32)

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def dot_S10000x32_S32x240_S10000x240_1_0_0_1_n_n : DotDims S10000x32 S32x240 S10000x240 where
  lhsContracting := [1]
  rhsContracting := [0]
  lhsNonContracting := [0]
  rhsNonContracting := [1]
  lhsBatch := []
  rhsBatch := []
  wf := dot_S10000x32_S32x240_S10000x240_1_0_0_1_n_n_wf
def dot_S10000x240_S240x24_S10000x24_1_0_0_1_n_n : DotDims S10000x240 S240x24 S10000x24 where
  lhsContracting := [1]
  rhsContracting := [0]
  lhsNonContracting := [0]
  rhsNonContracting := [1]
  lhsBatch := []
  rhsBatch := []
  wf := dot_S10000x240_S240x24_S10000x24_1_0_0_1_n_n_wf
def gather_S100000x24_S6400000x1_S6400000x24_1_0_n_n_0_1_124 : GatherDims S100000x24 S6400000x1 S6400000x24 where
  offsetDims := [1]
  collapsedSliceDims := [0]
  operandBatchingDims := []
  startIndicesBatchingDims := []
  startIndexMap := [0]
  indexVectorDim := 1
  sliceSizes := ![1, 24]
  wf := gather_S100000x24_S6400000x1_S6400000x24_1_0_n_n_0_1_124_wf
def scatter_S100000x24_S6400000x1_S6400000x24_1_0_0_1 : ScatterDims S100000x24 S6400000x1 S6400000x24 where
  updateWindowDims := [1]
  insertedWindowDims := [0]
  scatterDimsToOperandDims := [0]
  indexVectorDim := 1
  wf := scatter_S100000x24_S6400000x1_S6400000x24_1_0_0_1_wf
def dot_S10000x24_S24x24_S10000x24_1_0_0_1_n_n : DotDims S10000x24 S24x24 S10000x24 where
  lhsContracting := [1]
  rhsContracting := [0]
  lhsNonContracting := [0]
  rhsNonContracting := [1]
  lhsBatch := []
  rhsBatch := []
  wf := dot_S10000x24_S24x24_S10000x24_1_0_0_1_n_n_wf
def dot_S10000x24_S24x120_S10000x120_1_0_0_1_n_n : DotDims S10000x24 S24x120 S10000x120 where
  lhsContracting := [1]
  rhsContracting := [0]
  lhsNonContracting := [0]
  rhsNonContracting := [1]
  lhsBatch := []
  rhsBatch := []
  wf := dot_S10000x24_S24x120_S10000x120_1_0_0_1_n_n_wf
def dot_S10000x120_S120x12_S10000x12_1_0_0_1_n_n : DotDims S10000x120 S120x12 S10000x12 where
  lhsContracting := [1]
  rhsContracting := [0]
  lhsNonContracting := [0]
  rhsNonContracting := [1]
  lhsBatch := []
  rhsBatch := []
  wf := dot_S10000x120_S120x12_S10000x12_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x240.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x240.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S240x24.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x24.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S10000x24.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S10000x24.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x24.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S24x24.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x24.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S24x24.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S10000x24.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S10000x24.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S10000x24.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S24x24.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x24.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S24x24.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S10000x24.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v57) S10000x24.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x24.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S24x24.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x24.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S24x24.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S10000x24.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v59) S10000x24.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S24x120.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S1x120.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg17) S120x12.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v61) S1x12.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v62) S10000x12.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x32 : Shape := ⟨2, ![100000, 32]⟩
abbrev S2x6400000 : Shape := ⟨2, ![2, 6400000]⟩
abbrev S32x240 : Shape := ⟨2, ![32, 240]⟩
abbrev S240 : Shape := ⟨1, ![240]⟩
abbrev S240x24 : Shape := ⟨2, ![240, 24]⟩
abbrev S24 : Shape := ⟨1, ![24]⟩
abbrev S24x24 : Shape := ⟨2, ![24, 24]⟩
abbrev S24x120 : Shape := ⟨2, ![24, 120]⟩
abbrev S120 : Shape := ⟨1, ![120]⟩
abbrev S120x12 : Shape := ⟨2, ![120, 12]⟩
abbrev S12 : Shape := ⟨1, ![12]⟩
abbrev S1x6400000 : Shape := ⟨2, ![1, 6400000]⟩
abbrev S6400000 : Shape := ⟨1, ![6400000]⟩
abbrev S100000x240 : Shape := ⟨2, ![100000, 240]⟩
abbrev S1x240 : Shape := ⟨2, ![1, 240]⟩
abbrev S_ : Shape := ⟨0, ![]⟩
abbrev S100000x24 : Shape := ⟨2, ![100000, 24]⟩
abbrev S1x24 : Shape := ⟨2, ![1, 24]⟩
abbrev S6400000x1 : Shape := ⟨2, ![6400000, 1]⟩
abbrev S6400000x24 : Shape := ⟨2, ![6400000, 24]⟩
abbrev S100000 : Shape := ⟨1, ![100000]⟩
abbrev S100000x1 : Shape := ⟨2, ![100000, 1]⟩
abbrev S100000x120 : Shape := ⟨2, ![100000, 120]⟩
abbrev S1x120 : Shape := ⟨2, ![1, 120]⟩
abbrev S100000x12 : Shape := ⟨2, ![100000, 12]⟩
abbrev S1x12 : Shape := ⟨2, ![1, 12]⟩

abbrev nBuf : Space → Nat
  | .hbm => 147
  | .vmem => 0
  | .smem => 0
  | _ => 0

abbrev hbmTy0_0 (i : Nat) : BufTy := match i % 128 with
  | 0 => ⟨S100000x32, .f32⟩
  | 1 => ⟨S2x6400000, .i32⟩
  | 2 => ⟨S32x240, .f32⟩
  | 3 => ⟨S240, .f32⟩
  | 4 => ⟨S240x24, .f32⟩
  | 5 => ⟨S24, .f32⟩
  | 6 => ⟨S24x24, .f32⟩
  | 7 => ⟨S24, .f32⟩
  | 8 => ⟨S24x24, .f32⟩
  | 9 => ⟨S24x24, .f32⟩
  | 10 => ⟨S24, .f32⟩
  | 11 => ⟨S24x24, .f32⟩
  | 12 => ⟨S24x24, .f32⟩
  | 13 => ⟨S24, .f32⟩
  | 14 => ⟨S24x24, .f32⟩
  | 15 => ⟨S24x120, .f32⟩
  | 16 => ⟨S120, .f32⟩
  | 17 => ⟨S120x12, .f32⟩
  | 18 => ⟨S12, .f32⟩
  | 19 => ⟨S1x6400000, .i32⟩
  | 20 => ⟨S6400000, .i32⟩
  | 21 => ⟨S1x6400000, .i32⟩
  | 22 => ⟨S6400000, .i32⟩
  | 23 => ⟨S100000x240, .f32⟩
  | 24 => ⟨S1x240, .f32⟩
  | 25 => ⟨S100000x240, .f32⟩
  | 26 => ⟨S100000x240, .f32⟩
  | 27 => ⟨S_, .f32⟩
  | 28 => ⟨S100000x240, .f32⟩
  | 29 => ⟨S100000x240, .f32⟩
  | 30 => ⟨S100000x24, .f32⟩
  | 31 => ⟨S1x24, .f32⟩
  | 32 => ⟨S100000x24, .f32⟩
  | 33 => ⟨S100000x24, .f32⟩
  | 34 => ⟨S_, .f32⟩
  | 35 => ⟨S100000x24, .f32⟩
  | 36 => ⟨S100000x24, .f32⟩
  | 37 => ⟨S_, .i32⟩
  | 38 => ⟨S6400000, .i32⟩
  | 39 => ⟨S6400000, .i1⟩
  | 40 => ⟨S_, .i32⟩
  | 41 => ⟨S6400000, .i32⟩
  | 42 => ⟨S6400000, .i32⟩
  | 43 => ⟨S6400000, .i32⟩
  | 44 => ⟨S6400000x1, .i32⟩
  | 45 => ⟨S6400000x24, .f32⟩
  | 46 => ⟨S_, .f32⟩
  | 47 => ⟨S100000x24, .f32⟩
  | 48 => ⟨S6400000x1, .i32⟩
  | 49 => ⟨S100000x24, .f32⟩
  | 50 => ⟨S_, .f32⟩
  | 51 => ⟨S6400000, .f32⟩
  | 52 => ⟨S_, .f32⟩
  | 53 => ⟨S100000, .f32⟩
  | 54 => ⟨S6400000x1, .i32⟩
  | 55 => ⟨S100000, .f32⟩
  | 56 => ⟨S_, .f32⟩
  | 57 => ⟨S100000, .f32⟩
  | 58 => ⟨S100000, .f32⟩
  | 59 => ⟨S100000x1, .f32⟩
  | 60 => ⟨S100000x24, .f32⟩
  | 61 => ⟨S100000x24, .f32⟩
  | 62 => ⟨S100000x24, .f32⟩
  | 63 => ⟨S1x24, .f32⟩
  | 64 => ⟨S100000x24, .f32⟩
  | 65 => ⟨S100000x24, .f32⟩
  | 66 => ⟨S100000x24, .f32⟩
  | 67 => ⟨S100000x24, .f32⟩
  | 68 => ⟨S_, .f32⟩
  | 69 => ⟨S100000x24, .f32⟩
  | 70 => ⟨S100000x24, .f32⟩
  | 71 => ⟨S_, .i32⟩
  | 72 => ⟨S6400000, .i32⟩
  | 73 => ⟨S6400000, .i1⟩
  | 74 => ⟨S_, .i32⟩
  | 75 => ⟨S6400000, .i32⟩
  | 76 => ⟨S6400000, .i32⟩
  | 77 => ⟨S6400000, .i32⟩
  | 78 => ⟨S6400000x1, .i32⟩
  | 79 => ⟨S6400000x24, .f32⟩
  | 80 => ⟨S_, .f32⟩
  | 81 => ⟨S100000x24, .f32⟩
  | 82 => ⟨S6400000x1, .i32⟩
  | 83 => ⟨S100000x24, .f32⟩
  | 84 => ⟨S_, .f32⟩
  | 85 => ⟨S6400000, .f32⟩
  | 86 => ⟨S_, .f32⟩
  | 87 => ⟨S100000, .f32⟩
  | 88 => ⟨S6400000x1, .i32⟩
  | 89 => ⟨S100000, .f32⟩
  | 90 => ⟨S_, .f32⟩
  | 91 => ⟨S100000, .f32⟩
  | 92 => ⟨S100000, .f32⟩
  | 93 => ⟨S100000x1, .f32⟩
  | 94 => ⟨S100000x24, .f32⟩
  | 95 => ⟨S100000x24, .f32⟩
  | 96 => ⟨S100000x24, .f32⟩
  | 97 => ⟨S1x24, .f32⟩
  | 98 => ⟨S100000x24, .f32⟩
  | 99 => ⟨S100000x24, .f32⟩
  | 100 => ⟨S100000x24, .f32⟩
  | 101 => ⟨S100000x24, .f32⟩
  | 102 => ⟨S_, .f32⟩
  | 103 => ⟨S100000x24, .f32⟩
  | 104 => ⟨S100000x24, .f32⟩
  | 105 => ⟨S_, .i32⟩
  | 106 => ⟨S6400000, .i32⟩
  | 107 => ⟨S6400000, .i1⟩
  | 108 => ⟨S_, .i32⟩
  | 109 => ⟨S6400000, .i32⟩
  | 110 => ⟨S6400000, .i32⟩
  | 111 => ⟨S6400000, .i32⟩
  | 112 => ⟨S6400000x1, .i32⟩
  | 113 => ⟨S6400000x24, .f32⟩
  | 114 => ⟨S_, .f32⟩
  | 115 => ⟨S100000x24, .f32⟩
  | 116 => ⟨S6400000x1, .i32⟩
  | 117 => ⟨S100000x24, .f32⟩
  | 118 => ⟨S_, .f32⟩
  | 119 => ⟨S6400000, .f32⟩
  | 120 => ⟨S_, .f32⟩
  | 121 => ⟨S100000, .f32⟩
  | 122 => ⟨S6400000x1, .i32⟩
  | 123 => ⟨S100000, .f32⟩
  | 124 => ⟨S_, .f32⟩
  | 125 => ⟨S100000, .f32⟩
  | 126 => ⟨S100000, .f32⟩
  | 127 => ⟨S100000x1, .f32⟩
  | _ => ⟨S100000x32, .f32⟩

abbrev hbmTy0_1 (i : Nat) : BufTy := match i % 128 with
  | 0 => ⟨S100000x24, .f32⟩
  | 1 => ⟨S100000x24, .f32⟩
  | 2 => ⟨S100000x24, .f32⟩
  | 3 => ⟨S1x24, .f32⟩
  | 4 => ⟨S100000x24, .f32⟩
  | 5 => ⟨S100000x24, .f32⟩
  | 6 => ⟨S100000x24, .f32⟩
  | 7 => ⟨S100000x24, .f32⟩
  | 8 => ⟨S100000x120, .f32⟩
  | 9 => ⟨S1x120, .f32⟩
  | 10 => ⟨S100000x120, .f32⟩
  | 11 => ⟨S100000x120, .f32⟩
  | 12 => ⟨S_, .f32⟩
  | 13 => ⟨S100000x120, .f32⟩
  | 14 => ⟨S100000x120, .f32⟩
  | 15 => ⟨S100000x12, .f32⟩
  | 16 => ⟨S1x12, .f32⟩
  | 17 => ⟨S100000x12, .f32⟩
  | 18 => ⟨S100000x12, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_call0_cst : Ref sig .tc := ⟨.hbm, 27, rfl⟩
abbrev main_call0_v0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_call1_cst : Ref sig .tc := ⟨.hbm, 34, rfl⟩
abbrev main_call1_v0 : Ref sig .tc := ⟨.hbm, 35, rfl⟩
abbrev main_v13 : Ref sig .tc := ⟨.hbm, 36, rfl⟩
abbrev main_c : Ref sig .tc := ⟨.hbm, 37, rfl⟩
abbrev main_v14 : Ref sig .tc := ⟨.hbm, 38, rfl⟩
abbrev main_v15 : Ref sig .tc := ⟨.hbm, 39, rfl⟩
abbrev main_c_0 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_1 : Ref sig .tc := ⟨.hbm, 50, rfl⟩
abbrev main_v24 : Ref sig .tc := ⟨.hbm, 51, rfl⟩
abbrev main_cst_2 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_3 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_call2_cst : Ref sig .tc := ⟨.hbm, 68, rfl⟩
abbrev main_call2_v0 : Ref sig .tc := ⟨.hbm, 69, rfl⟩
abbrev main_v39 : Ref sig .tc := ⟨.hbm, 70, rfl⟩
abbrev main_c_4 : Ref sig .tc := ⟨.hbm, 71, rfl⟩
abbrev main_v40 : Ref sig .tc := ⟨.hbm, 72, rfl⟩
abbrev main_v41 : Ref sig .tc := ⟨.hbm, 73, rfl⟩
abbrev main_c_5 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_6 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_7 : Ref sig .tc := ⟨.hbm, 84, rfl⟩
abbrev main_v50 : Ref sig .tc := ⟨.hbm, 85, rfl⟩
abbrev main_cst_8 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_9 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_call3_cst : Ref sig .tc := ⟨.hbm, 102, rfl⟩
abbrev main_call3_v0 : Ref sig .tc := ⟨.hbm, 103, rfl⟩
abbrev main_v65 : Ref sig .tc := ⟨.hbm, 104, rfl⟩
abbrev main_c_10 : Ref sig .tc := ⟨.hbm, 105, rfl⟩
abbrev main_v66 : Ref sig .tc := ⟨.hbm, 106, rfl⟩
abbrev main_v67 : Ref sig .tc := ⟨.hbm, 107, rfl⟩
abbrev main_c_11 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_12 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_13 : Ref sig .tc := ⟨.hbm, 118, rfl⟩
abbrev main_v76 : Ref sig .tc := ⟨.hbm, 119, rfl⟩
abbrev main_cst_14 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_15 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_call4_cst : Ref sig .tc := ⟨.hbm, 140, rfl⟩
abbrev main_call4_v0 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S240_S1x240_1 : S240.BroadcastsInDim S1x240 (![1] : Fin 1 → Fin S1x240.rank)
  bcast_S1x240_S100000x240_0_1 : S1x240.BroadcastsInDim S100000x240 (![0, 1] : Fin 2 → Fin S100000x240.rank)
  bcast_S_S100000x240 : S_.BroadcastsInDim S100000x240 (![] : Fin 0 → Fin S100000x240.rank)
  bcast_S24_S1x24_1 : S24.BroadcastsInDim S1x24 (![1] : Fin 1 → Fin S1x24.rank)
  bcast_S1x24_S100000x24_0_1 : S1x24.BroadcastsInDim S100000x24 (![0, 1] : Fin 2 → Fin S100000x24.rank)
  bcast_S_S100000x24 : S_.BroadcastsInDim S100000x24 (![] : Fin 0 → Fin S100000x24.rank)
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x24_0_1 : S100000x1.BroadcastsInDim S100000x24 (![0, 1] : Fin 2 → Fin S100000x24.rank)
  bcast_S120_S1x120_1 : S120.BroadcastsInDim S1x120 (![1] : Fin 1 → Fin S1x120.rank)
  bcast_S1x120_S100000x120_0_1 : S1x120.BroadcastsInDim S100000x120 (![0, 1] : Fin 2 → Fin S100000x120.rank)
  bcast_S_S100000x120 : S_.BroadcastsInDim S100000x120 (![] : Fin 0 → Fin S100000x120.rank)
  bcast_S12_S1x12_1 : S12.BroadcastsInDim S1x12 (![1] : Fin 1 → Fin S1x12.rank)
  bcast_S1x12_S100000x12_0_1 : S1x12.BroadcastsInDim S100000x12 (![0, 1] : Fin 2 → Fin S100000x12.rank)
  dot_S100000x32_S32x240_S100000x240_1_0_0_1_n_n_wf : DotDims.WF S100000x32 S32x240 S100000x240 [1] [0] [0] [1] [] []
  dot_S100000x240_S240x24_S100000x24_1_0_0_1_n_n_wf : DotDims.WF S100000x240 S240x24 S100000x24 [1] [0] [0] [1] [] []
  gather_S100000x24_S6400000x1_S6400000x24_1_0_n_n_0_1_124_wf : GatherDims.WF S100000x24 S6400000x1 S6400000x24 [1] [0] [] [0] [] 1 ![1, 24]
  scatter_S100000x24_S6400000x1_S6400000x24_1_0_0_1_wf : ScatterDims.WF S100000x24 S6400000x1 S6400000x24 [1] [0] [0] 1
  scatter_S100000_S6400000x1_S6400000_n_0_0_1_wf : ScatterDims.WF S100000 S6400000x1 S6400000 [] [0] [0] 1
  dot_S100000x24_S24x24_S100000x24_1_0_0_1_n_n_wf : DotDims.WF S100000x24 S24x24 S100000x24 [1] [0] [0] [1] [] []
  dot_S100000x24_S24x120_S100000x120_1_0_0_1_n_n_wf : DotDims.WF S100000x24 S24x120 S100000x120 [1] [0] [0] [1] [] []
  dot_S100000x120_S120x12_S100000x12_1_0_0_1_n_n_wf : DotDims.WF S100000x120 S120x12 S100000x12 [1] [0] [0] [1] [] []

variable [Facts₀]

def dot_S100000x32_S32x240_S100000x240_1_0_0_1_n_n : DotDims S100000x32 S32x240 S100000x240 where
  lhsContracting := [1]
  rhsContracting := [0]
  lhsNonContracting := [0]
  rhsNonContracting := [1]
  lhsBatch := []
  rhsBatch := []
  wf := dot_S100000x32_S32x240_S100000x240_1_0_0_1_n_n_wf
def dot_S100000x240_S240x24_S100000x24_1_0_0_1_n_n : DotDims S100000x240 S240x24 S100000x24 where
  lhsContracting := [1]
  rhsContracting := [0]
  lhsNonContracting := [0]
  rhsNonContracting := [1]
  lhsBatch := []
  rhsBatch := []
  wf := dot_S100000x240_S240x24_S100000x24_1_0_0_1_n_n_wf
def gather_S100000x24_S6400000x1_S6400000x24_1_0_n_n_0_1_124 : GatherDims S100000x24 S6400000x1 S6400000x24 where
  offsetDims := [1]
  collapsedSliceDims := [0]
  operandBatchingDims := []
  startIndicesBatchingDims := []
  startIndexMap := [0]
  indexVectorDim := 1
  sliceSizes := ![1, 24]
  wf := gather_S100000x24_S6400000x1_S6400000x24_1_0_n_n_0_1_124_wf
def scatter_S100000x24_S6400000x1_S6400000x24_1_0_0_1 : ScatterDims S100000x24 S6400000x1 S6400000x24 where
  updateWindowDims := [1]
  insertedWindowDims := [0]
  scatterDimsToOperandDims := [0]
  indexVectorDim := 1
  wf := scatter_S100000x24_S6400000x1_S6400000x24_1_0_0_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def dot_S100000x24_S24x24_S100000x24_1_0_0_1_n_n : DotDims S100000x24 S24x24 S100000x24 where
  lhsContracting := [1]
  rhsContracting := [0]
  lhsNonContracting := [0]
  rhsNonContracting := [1]
  lhsBatch := []
  rhsBatch := []
  wf := dot_S100000x24_S24x24_S100000x24_1_0_0_1_n_n_wf
def dot_S100000x24_S24x120_S100000x120_1_0_0_1_n_n : DotDims S100000x24 S24x120 S100000x120 where
  lhsContracting := [1]
  rhsContracting := [0]
  lhsNonContracting := [0]
  rhsNonContracting := [1]
  lhsBatch := []
  rhsBatch := []
  wf := dot_S100000x24_S24x120_S100000x120_1_0_0_1_n_n_wf
def dot_S100000x120_S120x12_S100000x12_1_0_0_1_n_n : DotDims S100000x120 S120x12 S100000x12 where
  lhsContracting := [1]
  rhsContracting := [0]
  lhsNonContracting := [0]
  rhsNonContracting := [1]
  lhsBatch := []
  rhsBatch := []
  wf := dot_S100000x120_S120x12_S100000x12_1_0_0_1_n_n_wf

class Facts : Prop extends Facts₀ where

variable [Facts]
-- ==== Proof.WholeRun.lean ====
/-
  The idealized kernel's whole run, with every buffer named at the end.

  @main is ten segments: a stretch of host operations, then a tiled region, five times over. The buffer
  contents at each boundary are a fold from the launch memory: after a stretch, the stretch's operations
  applied to what the previous boundary held; after a region, the region's arrays at what its ten row blocks
  wrote back and every other buffer as the region found it. Every weakly fair execution terminates, nothing
  faulting, with every buffer that is not scoped to a kernel body holding the last boundary's contents.
  The statement that the argument arrays end as launched is a weakening of this one; here nothing is
  forgotten, so the result array can be read off the last boundary.
-/
import proofs.«168279_j54984171323620_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and each buffer not scoped to a kernel
    body ends at the contents of the last segment boundary. -/
theorem run_last : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W10 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c b hb => h c _ (mem_uc b hb))

end Cert.KernelIdeal.Whole

end
-- ==== Proof.Carry.lean ====
/-
  What the buffers hold at each boundary between a stretch of whole-array operations and a blocked layer.

  The program alternates stretches of whole-array operations with five blocked layers. A stretch rewrites the
  buffers that are its operations' results and leaves every other buffer; a layer rewrites its output array and
  leaves every other buffer, its own inputs included. So what a buffer holds at a boundary is found by walking
  back to the last stretch that wrote it:
    * a weight matrix is an argument, never written: at every boundary it is as launched;
    * a bias row is the argument vector recast as a one-row matrix by the stretch just before the layer reading it;
    * the edge sources, the edge targets and the reciprocal in-degrees are computed once, by the first stretch, from
      the edge list, and kept through the graph layers;
    * each graph layer's aggregate is, of the previous layer's output: gather the rows at the edge sources (a
      negative source wrapped once by the row count), add them into zero at the edge targets, and scale every row
      by its node's reciprocal in-degree;
    * a layer's output passes the next stretch untouched, to be read again as the node's own features.
-/
import proofs.«168279_j54984171323620_1_alg».proof.Proof.Gen.KernelIdeal.Frame
import Idealize.ShloMosaic.Lib.StableHlo.Run

set_option maxRecDepth 16384

noncomputable section

namespace Cert.KernelIdeal.Carry

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- No operation of the five stretches has the buffer as its result: a conjunction of inequalities between buffer
    names, one per operation, each decided. -/
macro "no_result_here" : tactic =>
  `(tactic| (simp only [hostOps0, hostOps1, hostOps2, hostOps3, hostOps4, List.Forall, StableHlo.nullary_writes,
      StableHlo.unary_writes, StableHlo.binary_writes, StableHlo.ternary_writes, StableHlo.reshape_writes,
      Finset.mem_singleton]
             repeat' apply And.intro
             all_goals exact StableHlo.devRef_ne_of_ne (by decide)))

/-! ## The arguments, where a layer reads them

An argument is no operation's result and no layer's output: walking back from the boundary where it is read, every
stretch and every layer passed on the way leaves it, down to the launch. -/

theorem arg0_at_entry0 : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _
          (List.forall_iff_forall_mem.mp (by no_result_here))
    _ = m ((c : Thread nD τ).loc main_arg0) := rfl
theorem arg2_at_entry0 : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _
          (List.forall_iff_forall_mem.mp (by no_result_here))
    _ = m ((c : Thread nD τ).loc main_arg2) := rfl
theorem arg4_at_entry0 : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _
          (List.forall_iff_forall_mem.mp (by no_result_here))
    _ = m ((c : Thread nD τ).loc main_arg4) := rfl
theorem arg6_at_entry1 : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _
          (List.forall_iff_forall_mem.mp (by no_result_here))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _
          (List.forall_iff_forall_mem.mp (by no_result_here))
    _ = m ((c : Thread nD τ).loc main_arg6) := rfl
theorem arg8_at_entry1 : W3 m ρ c (Proc.devRef .tc main_arg8) = m ((c : Thread nD τ).loc main_arg8) :=
  calc W3 m ρ c (Proc.devRef .tc main_arg8)
    _ = W2 m ρ c (Proc.devRef .tc main_arg8) := StableHlo.after_of_forall_not_mem (b := Proc.devRef .tc main_arg8) _ _
          (List.forall_iff_forall_mem.mp (by no_result_here))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _
          (List.forall_iff_forall_mem.mp (by no_result_here))
    _ = m ((c : Thread nD τ).loc main_arg8) := rfl
theorem arg9_at_entry2 : W5 m ρ c (Proc.devRef .tc main_arg9) = m ((c : Thread nD τ).loc main_arg9) :=
  calc W5 m ρ c (Proc.devRef .tc main_arg9)
    _ = W4 m ρ c (Proc.devRef .tc main_arg9) := StableHlo.after_of_forall_not_mem (b := Proc.devRef .tc main_arg9) _ _
          (List.forall_iff_forall_mem.mp (by no_result_here))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _
          (List.forall_iff_forall_mem.mp (by no_result_here))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _
          (List.forall_iff_forall_mem.mp (by no_result_here))
    _ = m ((c : Thread nD τ).loc main_arg9) := rfl
theorem arg11_at_entry2 : W5 m ρ c (Proc.devRef .tc main_arg11) = m ((c : Thread nD τ).loc main_arg11) :=
  calc W5 m ρ c (Proc.devRef .tc main_arg11)
    _ = W4 m ρ c (Proc.devRef .tc main_arg11) := StableHlo.after_of_forall_not_mem (b := Proc.devRef .tc main_arg11) _ _
          (List.forall_iff_forall_mem.mp (by no_result_here))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _
          (List.forall_iff_forall_mem.mp (by no_result_here))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _
          (List.forall_iff_forall_mem.mp (by no_result_here))
    _ = m ((c : Thread nD τ).loc main_arg11) := rfl
theorem arg12_at_entry3 : W7 m ρ c (Proc.devRef .tc main_arg12) = m ((c : Thread nD τ).loc main_arg12) :=
  calc W7 m ρ c (Proc.devRef .tc main_arg12)
    _ = W6 m ρ c (Proc.devRef .tc main_arg12) := StableHlo.after_of_forall_not_mem (b := Proc.devRef .tc main_arg12) _ _
          (List.forall_iff_forall_mem.mp (by no_result_here))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _
          (List.forall_iff_forall_mem.mp (by no_result_here))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _
          (List.forall_iff_forall_mem.mp (by no_result_here))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _
          (List.forall_iff_forall_mem.mp (by no_result_here))
    _ = m ((c : Thread nD τ).loc main_arg12) := rfl
theorem arg14_at_entry3 : W7 m ρ c (Proc.devRef .tc main_arg14) = m ((c : Thread nD τ).loc main_arg14) :=
  calc W7 m ρ c (Proc.devRef .tc main_arg14)
    _ = W6 m ρ c (Proc.devRef .tc main_arg14) := StableHlo.after_of_forall_not_mem (b := Proc.devRef .tc main_arg14) _ _
          (List.forall_iff_forall_mem.mp (by no_result_here))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _
          (List.forall_iff_forall_mem.mp (by no_result_here))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _
          (List.forall_iff_forall_mem.mp (by no_result_here))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _
          (List.forall_iff_forall_mem.mp (by no_result_here))
    _ = m ((c : Thread nD τ).loc main_arg14) := rfl
theorem arg15_at_entry4 : W9 m ρ c (Proc.devRef .tc main_arg15) = m ((c : Thread nD τ).loc main_arg15) :=
  calc W9 m ρ c (Proc.devRef .tc main_arg15)
    _ = W8 m ρ c (Proc.devRef .tc main_arg15) := StableHlo.after_of_forall_not_mem (b := Proc.devRef .tc main_arg15) _ _
          (List.forall_iff_forall_mem.mp (by no_result_here))
    _ = W7 m ρ c (Proc.devRef .tc main_arg15) := W8_of_ne m ρ c main_arg15 (by decide)
    _ = W6 m ρ c (Proc.devRef .tc main_arg15) := StableHlo.after_of_forall_not_mem (b := Proc.devRef .tc main_arg15) _ _
          (List.forall_iff_forall_mem.mp (by no_result_here))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _
          (List.forall_iff_forall_mem.mp (by no_result_here))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _
          (List.forall_iff_forall_mem.mp (by no_result_here))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _
          (List.forall_iff_forall_mem.mp (by no_result_here))
    _ = m ((c : Thread nD τ).loc main_arg15) := rfl
theorem arg17_at_entry4 : W9 m ρ c (Proc.devRef .tc main_arg17) = m ((c : Thread nD τ).loc main_arg17) :=
  calc W9 m ρ c (Proc.devRef .tc main_arg17)
    _ = W8 m ρ c (Proc.devRef .tc main_arg17) := StableHlo.after_of_forall_not_mem (b := Proc.devRef .tc main_arg17) _ _
          (List.forall_iff_forall_mem.mp (by no_result_here))
    _ = W7 m ρ c (Proc.devRef .tc main_arg17) := W8_of_ne m ρ c main_arg17 (by decide)
    _ = W6 m ρ c (Proc.devRef .tc main_arg17) := StableHlo.after_of_forall_not_mem (b := Proc.devRef .tc main_arg17) _ _
          (List.forall_iff_forall_mem.mp (by no_result_here))
    _ = W5 m ρ c (Proc.devRef .tc main_arg17) := W6_of_ne m ρ c main_arg17 (by decide)
    _ = W4 m ρ c (Proc.devRef .tc main_arg17) := StableHlo.after_of_forall_not_mem (b := Proc.devRef .tc main_arg17) _ _
          (List.forall_iff_forall_mem.mp (by no_result_here))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _
          (List.forall_iff_forall_mem.mp (by no_result_here))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _
          (List.forall_iff_forall_mem.mp (by no_result_here))
    _ = m ((c : Thread nD τ).loc main_arg17) := rfl

/-! ## The bias rows

Each bias vector is recast as a one-row matrix by the stretch just before the layer that adds it; the vector itself
is an argument, as launched when that stretch reads it. -/

theorem arg7_at_exit0 : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _
          (List.forall_iff_forall_mem.mp (by no_result_here))
    _ = m ((c : Thread nD τ).loc main_arg7) := rfl
theorem arg10_at_exit1 : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _
          (List.forall_iff_forall_mem.mp (by no_result_here))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _
          (List.forall_iff_forall_mem.mp (by no_result_here))
    _ = m ((c : Thread nD τ).loc main_arg10) := rfl
theorem arg13_at_exit2 : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := StableHlo.after_of_forall_not_mem (b := Proc.devRef .tc main_arg13) _ _
          (List.forall_iff_forall_mem.mp (by no_result_here))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _
          (List.forall_iff_forall_mem.mp (by no_result_here))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _
          (List.forall_iff_forall_mem.mp (by no_result_here))
    _ = m ((c : Thread nD τ).loc main_arg13) := rfl
theorem arg16_at_exit3 : W8 m ρ c (Proc.devRef .tc main_arg16) = m ((c : Thread nD τ).loc main_arg16) :=
  calc W8 m ρ c (Proc.devRef .tc main_arg16)
    _ = W7 m ρ c (Proc.devRef .tc main_arg16) := W8_of_ne m ρ c main_arg16 (by decide)
    _ = W6 m ρ c (Proc.devRef .tc main_arg16) := StableHlo.after_of_forall_not_mem (b := Proc.devRef .tc main_arg16) _ _
          (List.forall_iff_forall_mem.mp (by no_result_here))
    _ = W5 m ρ c (Proc.devRef .tc main_arg16) := W6_of_ne m ρ c main_arg16 (by decide)
    _ = W4 m ρ c (Proc.devRef .tc main_arg16) := StableHlo.after_of_forall_not_mem (b := Proc.devRef .tc main_arg16) _ _
          (List.forall_iff_forall_mem.mp (by no_result_here))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _
          (List.forall_iff_forall_mem.mp (by no_result_here))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _
          (List.forall_iff_forall_mem.mp (by no_result_here))
    _ = m ((c : Thread nD τ).loc main_arg16) := rfl
theorem arg18_at_exit3 : W8 m ρ c (Proc.devRef .tc main_arg18) = m ((c : Thread nD τ).loc main_arg18) :=
  calc W8 m ρ c (Proc.devRef .tc main_arg18)
    _ = W7 m ρ c (Proc.devRef .tc main_arg18) := W8_of_ne m ρ c main_arg18 (by decide)
    _ = W6 m ρ c (Proc.devRef .tc main_arg18) := StableHlo.after_of_forall_not_mem (b := Proc.devRef .tc main_arg18) _ _
          (List.forall_iff_forall_mem.mp (by no_result_here))
    _ = W5 m ρ c (Proc.devRef .tc main_arg18) := W6_of_ne m ρ c main_arg18 (by decide)
    _ = W4 m ρ c (Proc.devRef .tc main_arg18) := StableHlo.after_of_forall_not_mem (b := Proc.devRef .tc main_arg18) _ _
          (List.forall_iff_forall_mem.mp (by no_result_here))
    _ = W3 m ρ c (Proc.devRef .tc main_arg18) := W4_of_ne m ρ c main_arg18 (by decide)
    _ = W2 m ρ c (Proc.devRef .tc main_arg18) := StableHlo.after_of_forall_not_mem (b := Proc.devRef .tc main_arg18) _ _
          (List.forall_iff_forall_mem.mp (by no_result_here))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _
          (List.forall_iff_forall_mem.mp (by no_result_here))
    _ = m ((c : Thread nD τ).loc main_arg18) := rfl

theorem bias_enc1 : W1 m ρ c (Proc.devRef .tc main_v12)
    = shapeCast _ (m ((c : Thread nD τ).loc main_arg3)) shapeCasts_S240_S1x240 := by
  show StableHlo.after hostOps0 _ (Proc.devRef .tc main_v12) = _
  after_results; rfl

theorem bias_enc2 : W1 m ρ c (Proc.devRef .tc main_v13)
    = shapeCast _ (m ((c : Thread nD τ).loc main_arg5)) shapeCasts_S24_S1x24 := by
  show StableHlo.after hostOps0 _ (Proc.devRef .tc main_v13) = _
  after_results; rfl

theorem bias_sage1 : W3 m ρ c (Proc.devRef .tc main_v28)
    = shapeCast _ (m ((c : Thread nD τ).loc main_arg7)) shapeCasts_S24_S1x24 := by
  rw [← arg7_at_exit0 m ρ c]
  show StableHlo.after hostOps1 (W2 m ρ c) (Proc.devRef .tc main_v28) = _
  generalize W2 m ρ c = V
  after_results; rfl

theorem bias_sage2 : W5 m ρ c (Proc.devRef .tc main_v43)
    = shapeCast _ (m ((c : Thread nD τ).loc main_arg10)) shapeCasts_S24_S1x24 := by
  rw [← arg10_at_exit1 m ρ c]
  show StableHlo.after hostOps2 (W4 m ρ c) (Proc.devRef .tc main_v43) = _
  generalize W4 m ρ c = V
  after_results; rfl

theorem bias_sage3 : W7 m ρ c (Proc.devRef .tc main_v58)
    = shapeCast _ (m ((c : Thread nD τ).loc main_arg13)) shapeCasts_S24_S1x24 := by
  rw [← arg13_at_exit2 m ρ c]
  show StableHlo.after hostOps3 (W6 m ρ c) (Proc.devRef .tc main_v58) = _
  generalize W6 m ρ c = V
  after_results; rfl

theorem bias_dec1 : W9 m ρ c (Proc.devRef .tc main_v60)
    = shapeCast _ (m ((c : Thread nD τ).loc main_arg16)) shapeCasts_S120_S1x120 := by
  rw [← arg16_at_exit3 m ρ c]
  show StableHlo.after hostOps4 (W8 m ρ c) (Proc.devRef .tc main_v60) = _
  generalize W8 m ρ c = V
  after_results; rfl

theorem bias_dec2 : W9 m ρ c (Proc.devRef .tc main_v61)
    = shapeCast _ (m ((c : Thread nD τ).loc main_arg18)) shapeCasts_S12_S1x12 := by
  rw [← arg18_at_exit3 m ρ c]
  show StableHlo.after hostOps4 (W8 m ρ c) (Proc.devRef .tc main_v61) = _
  generalize W8 m ρ c = V
  after_results; rfl

/-! ## The edge sources, the edge targets, the reciprocal in-degrees

The first stretch reads them off the edge list: the sources are its row 0 and the targets its row 1, each recast as a
vector; a node's in-degree is the sum of ones over the edges whose target it is, and the reciprocal is of the
in-degree raised to at least one. No later stretch and no layer writes any of the three. -/

/-- The edge sources, as the first layer's entry finds them. -/
abbrev src : (⟨S6400000, .i32⟩ : BufTy).Contents (Elt F) := W1 m ρ c (Proc.devRef .tc main_v1)
/-- The edge targets. -/
abbrev dst : (⟨S6400000, .i32⟩ : BufTy).Contents (Elt F) := W1 m ρ c (Proc.devRef .tc main_v3)
/-- The reciprocal in-degrees. -/
abbrev rdeg : (⟨S100000, .f32⟩ : BufTy).Contents (Elt F) := W1 m ρ c (Proc.devRef .tc main_v11)

theorem src_eq : src m ρ c
    = shapeCast _ (extractStridedSlice S1x6400000 ![0, 0] (m ((c : Thread nD τ).loc main_arg1)) slices_S2x6400000_S1x6400000_0_0) shapeCasts_S1x6400000_S6400000 := by
  show StableHlo.after hostOps0 _ (Proc.devRef .tc main_v1) = _
  after_results; rfl

theorem dst_eq : dst m ρ c
    = shapeCast _ (extractStridedSlice S1x6400000 ![1, 0] (m ((c : Thread nD τ).loc main_arg1)) slices_S2x6400000_S1x6400000_1_0) shapeCasts_S1x6400000_S6400000 := by
  show StableHlo.after hostOps0 _ (Proc.devRef .tc main_v3) = _
  after_results; rfl

theorem rdeg_eq : rdeg m ρ c
    = Host.divf (broadcastInDim S100000 ![] bcast_S_S100000 (constant S_ .f32 0x3F800000#32))
        (maximumf
          (Host.scatterAdd scatter_S100000_S6400000x1_S6400000_n_0_0_1
            (broadcastInDim S100000 ![] bcast_S_S100000 (constant S_ .f32 0x00000000#32))
            (broadcastInDim S6400000x1 ![0] bcast_S6400000_S6400000x1_0
              (shapeCast _ (extractStridedSlice S1x6400000 ![1, 0] (m ((c : Thread nD τ).loc main_arg1)) slices_S2x6400000_S1x6400000_1_0) shapeCasts_S1x6400000_S6400000))
            (broadcastInDim S6400000 ![] bcast_S_S6400000 (constant S_ .f32 0x3F800000#32)))
          (broadcastInDim S100000 ![] bcast_S_S100000 (constant S_ .f32 0x3F800000#32))) := by
  show StableHlo.after hostOps0 _ (Proc.devRef .tc main_v11) = _
  after_results; rfl

/-- The same, with the edge targets named. -/
theorem rdeg_eq_of_dst : rdeg m ρ c
    = Host.divf (broadcastInDim S100000 ![] bcast_S_S100000 (constant S_ .f32 0x3F800000#32))
        (maximumf
          (Host.scatterAdd scatter_S100000_S6400000x1_S6400000_n_0_0_1
            (broadcastInDim S100000 ![] bcast_S_S100000 (constant S_ .f32 0x00000000#32))
            (broadcastInDim S6400000x1 ![0] bcast_S6400000_S6400000x1_0 (dst m ρ c))
            (broadcastInDim S6400000 ![] bcast_S_S6400000 (constant S_ .f32 0x3F800000#32)))
          (broadcastInDim S100000 ![] bcast_S_S100000 (constant S_ .f32 0x3F800000#32))) := by
  rw [dst_eq, rdeg_eq]

theorem src_kept0 : W2 m ρ c (Proc.devRef .tc main_v1) = src m ρ c := W2_of_ne m ρ c main_v1 (by decide)
theorem src_kept1 : W4 m ρ c (Proc.devRef .tc main_v1) = src m ρ c :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _
          (List.forall_iff_forall_mem.mp (by no_result_here))
    _ = src m ρ c := src_kept0 m ρ c
theorem src_kept2 : W6 m ρ c (Proc.devRef .tc main_v1) = src m ρ c :=
  calc W6 m ρ c (Proc.devRef .tc main_v1)
    _ = W5 m ρ c (Proc.devRef .tc main_v1) := W6_of_ne m ρ c main_v1 (by decide)
    _ = W4 m ρ c (Proc.devRef .tc main_v1) := StableHlo.after_of_forall_not_mem (b := Proc.devRef .tc main_v1) _ _
          (List.forall_iff_forall_mem.mp (by no_result_here))
    _ = src m ρ c := src_kept1 m ρ c
theorem dst_kept0 : W2 m ρ c (Proc.devRef .tc main_v3) = dst m ρ c := W2_of_ne m ρ c main_v3 (by decide)
theorem dst_kept1 : W4 m ρ c (Proc.devRef .tc main_v3) = dst m ρ c :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _
          (List.forall_iff_forall_mem.mp (by no_result_here))
    _ = dst m ρ c := dst_kept0 m ρ c
theorem dst_kept2 : W6 m ρ c (Proc.devRef .tc main_v3) = dst m ρ c :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _
          (List.forall_iff_forall_mem.mp (by no_result_here))
    _ = dst m ρ c := dst_kept1 m ρ c
theorem rdeg_kept0 : W2 m ρ c (Proc.devRef .tc main_v11) = rdeg m ρ c := W2_of_ne m ρ c main_v11 (by decide)
theorem rdeg_kept1 : W4 m ρ c (Proc.devRef .tc main_v11) = rdeg m ρ c :=
  calc W4 m ρ c (Proc.devRef .tc main_v11)
    _ = W3 m ρ c (Proc.devRef .tc main_v11) := W4_of_ne m ρ c main_v11 (by decide)
    _ = W2 m ρ c (Proc.devRef .tc main_v11) := StableHlo.after_of_forall_not_mem (b := Proc.devRef .tc main_v11) _ _
          (List.forall_iff_forall_mem.mp (by no_result_here))
    _ = rdeg m ρ c := rdeg_kept0 m ρ c
theorem rdeg_kept2 : W6 m ρ c (Proc.devRef .tc main_v11) = rdeg m ρ c :=
  calc W6 m ρ c (Proc.devRef .tc main_v11)
    _ = W5 m ρ c (Proc.devRef .tc main_v11) := W6_of_ne m ρ c main_v11 (by decide)
    _ = W4 m ρ c (Proc.devRef .tc main_v11) := StableHlo.after_of_forall_not_mem (b := Proc.devRef .tc main_v11) _ _
          (List.forall_iff_forall_mem.mp (by no_result_here))
    _ = rdeg m ρ c := rdeg_kept1 m ρ c

/-! ## The aggregates

The stretch before graph layer `k` computes, from the previous layer's output `h`: the rows of `h` at the edge
sources (a negative source wrapped once by the row count 100000), added into a zero array at the edge targets, every
row then scaled by its node's reciprocal in-degree. The stretch reads `h`, the sources, the targets and the
reciprocals; everything else in the term is a constant. -/

/-- The aggregate of features `h` over edges `s → d` with reciprocal in-degrees `r`. -/
def aggregateOf (s d : (⟨S6400000, .i32⟩ : BufTy).Contents (Elt F)) (r : (⟨S100000, .f32⟩ : BufTy).Contents (Elt F))
    (h : (⟨S100000x24, .f32⟩ : BufTy).Contents (Elt F)) : (⟨S100000x24, .f32⟩ : BufTy).Contents (Elt F) :=
  mulf (Host.scatterAdd scatter_S100000x24_S6400000x1_S6400000x24_1_0_0_1
        (broadcastInDim S100000x24 ![] bcast_S_S100000x24 (constant S_ .f32 0x00000000#32))
        (broadcastInDim S6400000x1 ![0] bcast_S6400000_S6400000x1_0 d)
        (Host.gather gather_S100000x24_S6400000x1_S6400000x24_1_0_n_n_0_1_124 h
          (broadcastInDim S6400000x1 ![0] bcast_S6400000_S6400000x1_0
            (select (cmpi .slt s (broadcastInDim S6400000 ![] bcast_S_S6400000 (constantI S_ 32 0#32)))
              (addi s (broadcastInDim S6400000 ![] bcast_S_S6400000 (constantI S_ 32 100000#32)))
              s))))
      (broadcastInDim S100000x24 ![0, 1] bcast_S100000x1_S100000x24_0_1
        (broadcastInDim S100000x1 ![0] bcast_S100000_S100000x1_0 r))

theorem aggregate1 : W3 m ρ c (Proc.devRef .tc main_v27)
    = mulf (Host.scatterAdd scatter_S100000x24_S6400000x1_S6400000x24_1_0_0_1
        (broadcastInDim S100000x24 ![] bcast_S_S100000x24 (constant S_ .f32 0x00000000#32))
        (broadcastInDim S6400000x1 ![0] bcast_S6400000_S6400000x1_0 (W2 m ρ c (Proc.devRef .tc main_v3)))
        (Host.gather gather_S100000x24_S6400000x1_S6400000x24_1_0_n_n_0_1_124 (W2 m ρ c (Proc.devRef .tc main_v14))
          (broadcastInDim S6400000x1 ![0] bcast_S6400000_S6400000x1_0
            (select (cmpi .slt (W2 m ρ c (Proc.devRef .tc main_v1)) (broadcastInDim S6400000 ![] bcast_S_S6400000 (constantI S_ 32 0#32)))
              (addi (W2 m ρ c (Proc.devRef .tc main_v1)) (broadcastInDim S6400000 ![] bcast_S_S6400000 (constantI S_ 32 100000#32)))
              (W2 m ρ c (Proc.devRef .tc main_v1))))))
      (broadcastInDim S100000x24 ![0, 1] bcast_S100000x1_S100000x24_0_1
        (broadcastInDim S100000x1 ![0] bcast_S100000_S100000x1_0 (W2 m ρ c (Proc.devRef .tc main_v11)))) := by
  show StableHlo.after hostOps1 (W2 m ρ c) (Proc.devRef .tc main_v27) = _
  generalize W2 m ρ c = V
  after_results_simp

/-- The same with the edge data named: the aggregate of the previous layer's output. -/
theorem aggregate1_named : W3 m ρ c (Proc.devRef .tc main_v27)
    = aggregateOf (src m ρ c) (dst m ρ c) (rdeg m ρ c) (W2 m ρ c (Proc.devRef .tc main_v14)) := by
  rw [aggregate1, src_kept0, dst_kept0, rdeg_kept0]; rfl

theorem aggregate2 : W5 m ρ c (Proc.devRef .tc main_v42)
    = mulf (Host.scatterAdd scatter_S100000x24_S6400000x1_S6400000x24_1_0_0_1
        (broadcastInDim S100000x24 ![] bcast_S_S100000x24 (constant S_ .f32 0x00000000#32))
        (broadcastInDim S6400000x1 ![0] bcast_S6400000_S6400000x1_0 (W4 m ρ c (Proc.devRef .tc main_v3)))
        (Host.gather gather_S100000x24_S6400000x1_S6400000x24_1_0_n_n_0_1_124 (W4 m ρ c (Proc.devRef .tc main_v29))
          (broadcastInDim S6400000x1 ![0] bcast_S6400000_S6400000x1_0
            (select (cmpi .slt (W4 m ρ c (Proc.devRef .tc main_v1)) (broadcastInDim S6400000 ![] bcast_S_S6400000 (constantI S_ 32 0#32)))
              (addi (W4 m ρ c (Proc.devRef .tc main_v1)) (broadcastInDim S6400000 ![] bcast_S_S6400000 (constantI S_ 32 100000#32)))
              (W4 m ρ c (Proc.devRef .tc main_v1))))))
      (broadcastInDim S100000x24 ![0, 1] bcast_S100000x1_S100000x24_0_1
        (broadcastInDim S100000x1 ![0] bcast_S100000_S100000x1_0 (W4 m ρ c (Proc.devRef .tc main_v11)))) := by
  show StableHlo.after hostOps2 (W4 m ρ c) (Proc.devRef .tc main_v42) = _
  generalize W4 m ρ c = V
  after_results_simp

/-- The same with the edge data named: the aggregate of the previous layer's output. -/
theorem aggregate2_named : W5 m ρ c (Proc.devRef .tc main_v42)
    = aggregateOf (src m ρ c) (dst m ρ c) (rdeg m ρ c) (W4 m ρ c (Proc.devRef .tc main_v29)) := by
  rw [aggregate2, src_kept1, dst_kept1, rdeg_kept1]; rfl

theorem aggregate3 : W7 m ρ c (Proc.devRef .tc main_v57)
    = mulf (Host.scatterAdd scatter_S100000x24_S6400000x1_S6400000x24_1_0_0_1
        (broadcastInDim S100000x24 ![] bcast_S_S100000x24 (constant S_ .f32 0x00000000#32))
        (broadcastInDim S6400000x1 ![0] bcast_S6400000_S6400000x1_0 (W6 m ρ c (Proc.devRef .tc main_v3)))
        (Host.gather gather_S100000x24_S6400000x1_S6400000x24_1_0_n_n_0_1_124 (W6 m ρ c (Proc.devRef .tc main_v44))
          (broadcastInDim S6400000x1 ![0] bcast_S6400000_S6400000x1_0
            (select (cmpi .slt (W6 m ρ c (Proc.devRef .tc main_v1)) (broadcastInDim S6400000 ![] bcast_S_S6400000 (constantI S_ 32 0#32)))
              (addi (W6 m ρ c (Proc.devRef .tc main_v1)) (broadcastInDim S6400000 ![] bcast_S_S6400000 (constantI S_ 32 100000#32)))
              (W6 m ρ c (Proc.devRef .tc main_v1))))))
      (broadcastInDim S100000x24 ![0, 1] bcast_S100000x1_S100000x24_0_1
        (broadcastInDim S100000x1 ![0] bcast_S100000_S100000x1_0 (W6 m ρ c (Proc.devRef .tc main_v11)))) := by
  show StableHlo.after hostOps3 (W6 m ρ c) (Proc.devRef .tc main_v57) = _
  generalize W6 m ρ c = V
  after_results_simp

/-- The same with the edge data named: the aggregate of the previous layer's output. -/
theorem aggregate3_named : W7 m ρ c (Proc.devRef .tc main_v57)
    = aggregateOf (src m ρ c) (dst m ρ c) (rdeg m ρ c) (W6 m ρ c (Proc.devRef .tc main_v44)) := by
  rw [aggregate3, src_kept2, dst_kept2, rdeg_kept2]; rfl

/-! ## A layer's output passes the next stretch untouched -/

theorem own1_kept : W3 m ρ c (Proc.devRef .tc main_v14) = W2 m ρ c (Proc.devRef .tc main_v14) :=
  StableHlo.after_of_forall_not_mem (b := Proc.devRef .tc main_v14) _ _
          (List.forall_iff_forall_mem.mp (by no_result_here))
theorem own2_kept : W5 m ρ c (Proc.devRef .tc main_v29) = W4 m ρ c (Proc.devRef .tc main_v29) :=
  StableHlo.after_of_forall_not_mem (b := Proc.devRef .tc main_v29) _ _
          (List.forall_iff_forall_mem.mp (by no_result_here))
theorem own3_kept : W7 m ρ c (Proc.devRef .tc main_v44) = W6 m ρ c (Proc.devRef .tc main_v44) :=
  StableHlo.after_of_forall_not_mem (b := Proc.devRef .tc main_v44) _ _
          (List.forall_iff_forall_mem.mp (by no_result_here))
theorem own4_kept : W9 m ρ c (Proc.devRef .tc main_v59) = W8 m ρ c (Proc.devRef .tc main_v59) :=
  StableHlo.after_of_forall_not_mem (b := Proc.devRef .tc main_v59) _ _
          (List.forall_iff_forall_mem.mp (by no_result_here))

end Cert.KernelIdeal.Carry

end
-- ==== Proof.Spec.lean ====
/-
  The three node-wise maps of the network, index by index, on the extended reals.

  Each is a function of a row index `r` and a feature index `f`, of arrays whose row count `R` is left open: the
  same formula describes a block of 10000 rows and the whole array of 100000 rows.
    * `enc`: two dense layers, each followed by the rectifier `max · 0`:
        `max ((Σ_k max ((Σ_j x[r,j]·w1[j,k]) + b1[k]) 0 · w2[k,f]) + b2[f]) 0`.
    * `sage`: a graph layer's combination of the aggregated neighbours `a` and the node's own features `h`:
        `((Σ_k a[r,k]·wl[k,f]) + bl[f]) + Σ_k h[r,k]·wr[k,f]`; `sageRelu` rectifies it.
    * `dec`: a rectified dense layer followed by a plain one:
        `(Σ_k max ((Σ_j x[r,j]·w1[j,k]) + b1[k]) 0 · w2[k,f]) + b2[f]`.
  The zero the rectifier compares against is kept as the f32 word both programs spell, so it is never evaluated.
  Every map reads only row `r` of its row-indexed operands: a block's value at its row `p` is the array's value
  at the row the block's `p` sits on (`enc_rows`, `sage_rows`, `sageRelu_rows`, `dec_rows`).
-/
import Idealize.ShloMosaic.Lib.ValueIdx
import Idealize.ShloMosaic.PureOps.Ideal

noncomputable section

namespace Cert.Spec

open Idealize.ShloMosaic Idealize.ShloMosaic.ValueIdx

/-- A matrix of extended reals with `R` rows and `C` columns. -/
abbrev Mat (R C : Nat) : Type := (⟨2, ![R, C]⟩ : Shape).Idx → EReal

/-- The f32 word of zero at the exact values. -/
abbrev z32 : EReal := Ideal.ofBits .f32 0x00000000#32

/-- The encoder: Linear(32, 240), rectifier, Linear(240, 24), rectifier. -/
def enc {R : Nat} (x : Mat R 32) (w1 : Mat 32 240) (b1 : Fin 240 → EReal) (w2 : Mat 240 24) (b2 : Fin 24 → EReal)
    (r : Fin R) (f : Fin 24) : EReal :=
  max ((∑ k : Fin 240, max ((∑ j : Fin 32, x (ix2 r j) * w1 (ix2 j k)) + b1 k) z32 * w2 (ix2 k f)) + b2 f) z32

/-- A graph layer's combination: aggregated neighbours through `wl` with the bias, the node itself through `wr`. -/
def sage {R : Nat} (a h : Mat R 24) (wl wr : Mat 24 24) (bl : Fin 24 → EReal) (r : Fin R) (f : Fin 24) : EReal :=
  ((∑ k : Fin 24, a (ix2 r k) * wl (ix2 k f)) + bl f) + ∑ k : Fin 24, h (ix2 r k) * wr (ix2 k f)

/-- The same, rectified. -/
def sageRelu {R : Nat} (a h : Mat R 24) (wl wr : Mat 24 24) (bl : Fin 24 → EReal) (r : Fin R) (f : Fin 24) : EReal :=
  max (sage a h wl wr bl r f) z32

/-- The decoder: Linear(24, 120), rectifier, Linear(120, 12). -/
def dec {R : Nat} (x : Mat R 24) (w1 : Mat 24 120) (b1 : Fin 120 → EReal) (w2 : Mat 120 12) (b2 : Fin 12 → EReal)
    (r : Fin R) (f : Fin 12) : EReal :=
  (∑ k : Fin 120, max ((∑ j : Fin 24, x (ix2 r j) * w1 (ix2 j k)) + b1 k) z32 * w2 (ix2 k f)) + b2 f

variable {R R' : Nat}

/-- A block whose row `p` is the array's row `r` has the encoder's value of the array at `r`. -/
theorem enc_rows (x : Mat R 32) (x' : Mat R' 32) (w1 : Mat 32 240) (b1 : Fin 240 → EReal) (w2 : Mat 240 24)
    (b2 : Fin 24 → EReal) (p : Fin R) (r : Fin R') (hx : ∀ j, x (ix2 p j) = x' (ix2 r j)) (f : Fin 24) :
    enc x w1 b1 w2 b2 p f = enc x' w1 b1 w2 b2 r f := by
  simp only [enc, hx]

theorem sage_rows (a h : Mat R 24) (a' h' : Mat R' 24) (wl wr : Mat 24 24) (bl : Fin 24 → EReal) (p : Fin R) (r : Fin R')
    (ha : ∀ k, a (ix2 p k) = a' (ix2 r k)) (hh : ∀ k, h (ix2 p k) = h' (ix2 r k)) (f : Fin 24) :
    sage a h wl wr bl p f = sage a' h' wl wr bl r f := by
  simp only [sage, ha, hh]

theorem sageRelu_rows (a h : Mat R 24) (a' h' : Mat R' 24) (wl wr : Mat 24 24) (bl : Fin 24 → EReal) (p : Fin R) (r : Fin R')
    (ha : ∀ k, a (ix2 p k) = a' (ix2 r k)) (hh : ∀ k, h (ix2 p k) = h' (ix2 r k)) (f : Fin 24) :
    sageRelu a h wl wr bl p f = sageRelu a' h' wl wr bl r f := by
  simp only [sageRelu, sage, ha, hh]

theorem dec_rows (x : Mat R 24) (x' : Mat R' 24) (w1 : Mat 24 120) (b1 : Fin 120 → EReal) (w2 : Mat 120 12)
    (b2 : Fin 12 → EReal) (p : Fin R) (r : Fin R') (hx : ∀ j, x (ix2 p j) = x' (ix2 r j)) (f : Fin 12) :
    dec x w1 b1 w2 b2 p f = dec x' w1 b1 w2 b2 r f := by
  simp only [dec, hx]

end Cert.Spec

end
-- ==== Proof.RefStage.lean ====
/-
  The reference network's node-wise stages, read at a row `r` and a feature `f`.

  Each stage of the reference is a chain of matrix products, bias rows broadcast down the rows, sums and
  rectifiers. Read at the index `(r, f)`, a product `A · W` is `Σ_k A[r,k] · W[k,f]`, a broadcast bias is `b[f]`,
  a sum is the sum of the two values and a rectifier is `max · 0` with the zero kept as its f32 word. Composing
  these readings gives, for each stage, exactly the formula the specification states:
    * the encoder is `enc` of the node features and its two weight matrices and bias rows;
    * each of the first two graph layers is `sageRelu` of the aggregated neighbours and the previous layer;
    * the third graph layer is `sage` (no rectifier);
    * the decoder is `dec` of the third layer.
  The only work is to identify the index a product or a broadcast reads its operand at: the left operand of a
  product at `(r, f)`, `k` is read at `(r, k)`, the right one at `(k, f)`, and a bias row at `f`.
-/
import proofs.«168279_j54984171323620_1_alg».proof.Proof.Gen.ReferenceIdeal.Read
import proofs.«168279_j54984171323620_1_alg».proof.Proof.Spec

noncomputable section

namespace Cert.ReferenceIdeal.Stage

open Cert.ReferenceIdeal Cert.ReferenceIdeal.Read Idealize.ShloMosaic Idealize.ShloMosaic.ValueIdx

/-! ## The encoder -/

/-- The first product reads the node features at `(r, j)`. -/
theorem lidx_v4 (r : Fin 100000) (k : Fin 240) (j : Fin 32) : lidx_main_v4 (ix2 r k) j = ix2 r j :=
  funext fun a => Fin.ext (by match a with | ⟨0, _⟩ => rfl | ⟨1, _⟩ => rfl)

/-- The first product reads its weights at `(j, k)`. -/
theorem ridx_v4 (r : Fin 100000) (k : Fin 240) (j : Fin 32) : ridx_main_v4 (ix2 r k) j = ix2 j k :=
  funext fun a => Fin.ext (by match a with | ⟨0, _⟩ => rfl | ⟨1, _⟩ => rfl)

/-- The first bias, broadcast to a row and then down the rows, is read at `k`. -/
theorem idx_v5_v6 (r : Fin 100000) (k : Fin 240) : idx_main_v5 (idx_main_v6 (ix2 r k)) = ix1 k :=
  funext fun a => Fin.ext (by match a with | ⟨0, _⟩ => rfl)

/-- The second product reads the hidden layer at `(r, k)`. -/
theorem lidx_v9 (r : Fin 100000) (f : Fin 24) (k : Fin 240) : lidx_main_v9 (ix2 r f) k = ix2 r k :=
  funext fun a => Fin.ext (by match a with | ⟨0, _⟩ => rfl | ⟨1, _⟩ => rfl)

/-- The second product reads its weights at `(k, f)`. -/
theorem ridx_v9 (r : Fin 100000) (f : Fin 24) (k : Fin 240) : ridx_main_v9 (ix2 r f) k = ix2 k f :=
  funext fun a => Fin.ext (by match a with | ⟨0, _⟩ => rfl | ⟨1, _⟩ => rfl)

/-- The second bias is read at `f`. -/
theorem idx_v10_v11 (r : Fin 100000) (f : Fin 24) : idx_main_v10 (idx_main_v11 (ix2 r f)) = ix1 f :=
  funext fun a => Fin.ext (by match a with | ⟨0, _⟩ => rfl)

/-- The encoder stage at `(r, f)` is the specification's `enc`. -/
theorem enc_stage
    (x0 : (⟨S100000x32, .f32⟩ : BufTy).Contents (Elt Ideal)) (x2 : (⟨S32x240, .f32⟩ : BufTy).Contents (Elt Ideal))
    (x3 : (⟨S240, .f32⟩ : BufTy).Contents (Elt Ideal)) (x4 : (⟨S240x24, .f32⟩ : BufTy).Contents (Elt Ideal))
    (x5 : (⟨S24, .f32⟩ : BufTy).Contents (Elt Ideal)) (r : Fin 100000) (f : Fin 24) :
    val_main_v13 (F := Ideal) x0 x2 x3 x4 x5 (ix2 r f)
      = Cert.Spec.enc x0 x2 (fun k => x3 (ix1 k)) x4 (fun g => x5 (ix1 g)) r f := by
  rw [val_main_v13_apply, val_main_v12_apply, val_main_v9_apply, val_main_v11_apply, val_main_v10_apply,
    val_main_call1_v0_apply, val_main_call1_cst_apply]
  simp only [lidx_v9, ridx_v9, idx_v10_v11, val_main_v8_apply, val_main_v7_apply, val_main_v4_apply,
    val_main_v6_apply, val_main_v5_apply, val_main_call0_v0_apply, val_main_call0_cst_apply,
    lidx_v4, ridx_v4, idx_v5_v6, Ideal.maximumf_def, Ideal.addf_def, Ideal.ofBits_def]
  unfold Cert.Spec.enc
  rfl

/-! ## The first graph layer -/

/-- The product with the aggregated neighbours reads them at `(r, k)`. -/
theorem lidx_v33 (r : Fin 100000) (f : Fin 24) (k : Fin 24) : lidx_main_v33 (ix2 r f) k = ix2 r k :=
  funext fun a => Fin.ext (by match a with | ⟨0, _⟩ => rfl | ⟨1, _⟩ => rfl)

/-- It reads its weights at `(k, f)`. -/
theorem ridx_v33 (r : Fin 100000) (f : Fin 24) (k : Fin 24) : ridx_main_v33 (ix2 r f) k = ix2 k f :=
  funext fun a => Fin.ext (by match a with | ⟨0, _⟩ => rfl | ⟨1, _⟩ => rfl)

/-- The layer's bias, broadcast to a row and then down the rows, is read at `f`. -/
theorem idx_v34_v35 (r : Fin 100000) (f : Fin 24) : idx_main_v34 (idx_main_v35 (ix2 r f)) = ix1 f :=
  funext fun a => Fin.ext (by match a with | ⟨0, _⟩ => rfl)

/-- The product with the node's own features reads them at `(r, k)`. -/
theorem lidx_v37 (r : Fin 100000) (f : Fin 24) (k : Fin 24) : lidx_main_v37 (ix2 r f) k = ix2 r k :=
  funext fun a => Fin.ext (by match a with | ⟨0, _⟩ => rfl | ⟨1, _⟩ => rfl)

/-- It reads its weights at `(k, f)`. -/
theorem ridx_v37 (r : Fin 100000) (f : Fin 24) (k : Fin 24) : ridx_main_v37 (ix2 r f) k = ix2 k f :=
  funext fun a => Fin.ext (by match a with | ⟨0, _⟩ => rfl | ⟨1, _⟩ => rfl)

/-- The first graph layer at `(r, f)` is the rectified combination of the first mean and the encoder's output. -/
theorem sage1_stage
    (x0 : (⟨S100000x32, .f32⟩ : BufTy).Contents (Elt Ideal)) (x1 : (⟨S2x6400000, .i32⟩ : BufTy).Contents (Elt Ideal))
    (x2 : (⟨S32x240, .f32⟩ : BufTy).Contents (Elt Ideal)) (x3 : (⟨S240, .f32⟩ : BufTy).Contents (Elt Ideal))
    (x4 : (⟨S240x24, .f32⟩ : BufTy).Contents (Elt Ideal)) (x5 : (⟨S24, .f32⟩ : BufTy).Contents (Elt Ideal))
    (x6 : (⟨S24x24, .f32⟩ : BufTy).Contents (Elt Ideal)) (x7 : (⟨S24, .f32⟩ : BufTy).Contents (Elt Ideal))
    (x8 : (⟨S24x24, .f32⟩ : BufTy).Contents (Elt Ideal))
    (r : Fin 100000) (f : Fin 24) :
    val_main_v39 (F := Ideal) x0 x1 x2 x3 x4 x5 x6 x7 x8 (ix2 r f)
      = Cert.Spec.sageRelu (val_main_v32 (F := Ideal) x0 x1 x2 x3 x4 x5)
          (val_main_v13 (F := Ideal) x0 x2 x3 x4 x5) x6 x8 (fun g => x7 (ix1 g)) r f := by
  rw [val_main_v39_apply, val_main_v38_apply, val_main_v36_apply, val_main_v33_apply,
    val_main_v35_apply, val_main_v34_apply, val_main_v37_apply, val_main_call2_v0_apply,
    val_main_call2_cst_apply]
  simp only [lidx_v33, ridx_v33, idx_v34_v35, lidx_v37, ridx_v37,
    Ideal.maximumf_def, Ideal.addf_def, Ideal.ofBits_def]
  unfold Cert.Spec.sageRelu Cert.Spec.sage
  rfl

/-! ## The second graph layer -/

/-- The product with the aggregated neighbours reads them at `(r, k)`. -/
theorem lidx_v59 (r : Fin 100000) (f : Fin 24) (k : Fin 24) : lidx_main_v59 (ix2 r f) k = ix2 r k :=
  funext fun a => Fin.ext (by match a with | ⟨0, _⟩ => rfl | ⟨1, _⟩ => rfl)

/-- It reads its weights at `(k, f)`. -/
theorem ridx_v59 (r : Fin 100000) (f : Fin 24) (k : Fin 24) : ridx_main_v59 (ix2 r f) k = ix2 k f :=
  funext fun a => Fin.ext (by match a with | ⟨0, _⟩ => rfl | ⟨1, _⟩ => rfl)

/-- The layer's bias, broadcast to a row and then down the rows, is read at `f`. -/
theorem idx_v60_v61 (r : Fin 100000) (f : Fin 24) : idx_main_v60 (idx_main_v61 (ix2 r f)) = ix1 f :=
  funext fun a => Fin.ext (by match a with | ⟨0, _⟩ => rfl)

/-- The product with the node's own features reads them at `(r, k)`. -/
theorem lidx_v63 (r : Fin 100000) (f : Fin 24) (k : Fin 24) : lidx_main_v63 (ix2 r f) k = ix2 r k :=
  funext fun a => Fin.ext (by match a with | ⟨0, _⟩ => rfl | ⟨1, _⟩ => rfl)

/-- It reads its weights at `(k, f)`. -/
theorem ridx_v63 (r : Fin 100000) (f : Fin 24) (k : Fin 24) : ridx_main_v63 (ix2 r f) k = ix2 k f :=
  funext fun a => Fin.ext (by match a with | ⟨0, _⟩ => rfl | ⟨1, _⟩ => rfl)

/-- The second graph layer at `(r, f)` is the rectified combination of the second mean and the first layer. -/
theorem sage2_stage
    (x0 : (⟨S100000x32, .f32⟩ : BufTy).Contents (Elt Ideal)) (x1 : (⟨S2x6400000, .i32⟩ : BufTy).Contents (Elt Ideal))
    (x2 : (⟨S32x240, .f32⟩ : BufTy).Contents (Elt Ideal)) (x3 : (⟨S240, .f32⟩ : BufTy).Contents (Elt Ideal))
    (x4 : (⟨S240x24, .f32⟩ : BufTy).Contents (Elt Ideal)) (x5 : (⟨S24, .f32⟩ : BufTy).Contents (Elt Ideal))
    (x6 : (⟨S24x24, .f32⟩ : BufTy).Contents (Elt Ideal)) (x7 : (⟨S24, .f32⟩ : BufTy).Contents (Elt Ideal))
    (x8 : (⟨S24x24, .f32⟩ : BufTy).Contents (Elt Ideal)) (x9 : (⟨S24x24, .f32⟩ : BufTy).Contents (Elt Ideal))
    (x10 : (⟨S24, .f32⟩ : BufTy).Contents (Elt Ideal)) (x11 : (⟨S24x24, .f32⟩ : BufTy).Contents (Elt Ideal))
    (r : Fin 100000) (f : Fin 24) :
    val_main_v65 (F := Ideal) x0 x1 x2 x3 x4 x5 x6 x7 x8 x9 x10 x11 (ix2 r f)
      = Cert.Spec.sageRelu (val_main_v58 (F := Ideal) x0 x1 x2 x3 x4 x5 x6 x7 x8)
          (val_main_v39 (F := Ideal) x0 x1 x2 x3 x4 x5 x6 x7 x8) x9 x11 (fun g => x10 (ix1 g)) r f := by
  rw [val_main_v65_apply, val_main_v64_apply, val_main_v62_apply, val_main_v59_apply,
    val_main_v61_apply, val_main_v60_apply, val_main_v63_apply, val_main_call3_v0_apply,
    val_main_call3_cst_apply]
  simp only [lidx_v59, ridx_v59, idx_v60_v61, lidx_v63, ridx_v63,
    Ideal.maximumf_def, Ideal.addf_def, Ideal.ofBits_def]
  unfold Cert.Spec.sageRelu Cert.Spec.sage
  rfl

/-! ## The third graph layer -/

/-- The product with the aggregated neighbours reads them at `(r, k)`. -/
theorem lidx_v85 (r : Fin 100000) (f : Fin 24) (k : Fin 24) : lidx_main_v85 (ix2 r f) k = ix2 r k :=
  funext fun a => Fin.ext (by match a with | ⟨0, _⟩ => rfl | ⟨1, _⟩ => rfl)

/-- It reads its weights at `(k, f)`. -/
theorem ridx_v85 (r : Fin 100000) (f : Fin 24) (k : Fin 24) : ridx_main_v85 (ix2 r f) k = ix2 k f :=
  funext fun a => Fin.ext (by match a with | ⟨0, _⟩ => rfl | ⟨1, _⟩ => rfl)

/-- The layer's bias, broadcast to a row and then down the rows, is read at `f`. -/
theorem idx_v86_v87 (r : Fin 100000) (f : Fin 24) : idx_main_v86 (idx_main_v87 (ix2 r f)) = ix1 f :=
  funext fun a => Fin.ext (by match a with | ⟨0, _⟩ => rfl)

/-- The product with the node's own features reads them at `(r, k)`. -/
theorem lidx_v89 (r : Fin 100000) (f : Fin 24) (k : Fin 24) : lidx_main_v89 (ix2 r f) k = ix2 r k :=
  funext fun a => Fin.ext (by match a with | ⟨0, _⟩ => rfl | ⟨1, _⟩ => rfl)

/-- It reads its weights at `(k, f)`. -/
theorem ridx_v89 (r : Fin 100000) (f : Fin 24) (k : Fin 24) : ridx_main_v89 (ix2 r f) k = ix2 k f :=
  funext fun a => Fin.ext (by match a with | ⟨0, _⟩ => rfl | ⟨1, _⟩ => rfl)

/-- The third graph layer at `(r, f)` is the combination of the third mean and the second layer, not rectified. -/
theorem sage3_stage
    (x0 : (⟨S100000x32, .f32⟩ : BufTy).Contents (Elt Ideal)) (x1 : (⟨S2x6400000, .i32⟩ : BufTy).Contents (Elt Ideal))
    (x2 : (⟨S32x240, .f32⟩ : BufTy).Contents (Elt Ideal)) (x3 : (⟨S240, .f32⟩ : BufTy).Contents (Elt Ideal))
    (x4 : (⟨S240x24, .f32⟩ : BufTy).Contents (Elt Ideal)) (x5 : (⟨S24, .f32⟩ : BufTy).Contents (Elt Ideal))
    (x6 : (⟨S24x24, .f32⟩ : BufTy).Contents (Elt Ideal)) (x7 : (⟨S24, .f32⟩ : BufTy).Contents (Elt Ideal))
    (x8 : (⟨S24x24, .f32⟩ : BufTy).Contents (Elt Ideal)) (x9 : (⟨S24x24, .f32⟩ : BufTy).Contents (Elt Ideal))
    (x10 : (⟨S24, .f32⟩ : BufTy).Contents (Elt Ideal)) (x11 : (⟨S24x24, .f32⟩ : BufTy).Contents (Elt Ideal))
    (x12 : (⟨S24x24, .f32⟩ : BufTy).Contents (Elt Ideal)) (x13 : (⟨S24, .f32⟩ : BufTy).Contents (Elt Ideal))
    (x14 : (⟨S24x24, .f32⟩ : BufTy).Contents (Elt Ideal))
    (r : Fin 100000) (f : Fin 24) :
    val_main_v90 (F := Ideal) x0 x1 x2 x3 x4 x5 x6 x7 x8 x9 x10 x11 x12 x13 x14 (ix2 r f)
      = Cert.Spec.sage (val_main_v84 (F := Ideal) x0 x1 x2 x3 x4 x5 x6 x7 x8 x9 x10 x11)
          (val_main_v65 (F := Ideal) x0 x1 x2 x3 x4 x5 x6 x7 x8 x9 x10 x11) x12 x14 (fun g => x13 (ix1 g)) r f := by
  rw [val_main_v90_apply, val_main_v88_apply, val_main_v85_apply, val_main_v87_apply,
    val_main_v86_apply, val_main_v89_apply]
  simp only [lidx_v85, ridx_v85, idx_v86_v87, lidx_v89, ridx_v89,
    Ideal.addf_def]
  unfold Cert.Spec.sage
  rfl

/-! ## The decoder -/

/-- The first product reads the third layer at `(r, j)`. -/
theorem lidx_v91 (r : Fin 100000) (f : Fin 120) (k : Fin 24) : lidx_main_v91 (ix2 r f) k = ix2 r k :=
  funext fun a => Fin.ext (by match a with | ⟨0, _⟩ => rfl | ⟨1, _⟩ => rfl)

/-- It reads its weights at `(j, k)`. -/
theorem ridx_v91 (r : Fin 100000) (f : Fin 120) (k : Fin 24) : ridx_main_v91 (ix2 r f) k = ix2 k f :=
  funext fun a => Fin.ext (by match a with | ⟨0, _⟩ => rfl | ⟨1, _⟩ => rfl)

/-- The first bias, broadcast to a row and then down the rows, is read at `k`. -/
theorem idx_v92_v93 (r : Fin 100000) (f : Fin 120) : idx_main_v92 (idx_main_v93 (ix2 r f)) = ix1 f :=
  funext fun a => Fin.ext (by match a with | ⟨0, _⟩ => rfl)

/-- The second product reads the hidden layer at `(r, k)`. -/
theorem lidx_v96 (r : Fin 100000) (f : Fin 12) (k : Fin 120) : lidx_main_v96 (ix2 r f) k = ix2 r k :=
  funext fun a => Fin.ext (by match a with | ⟨0, _⟩ => rfl | ⟨1, _⟩ => rfl)

/-- It reads its weights at `(k, f)`. -/
theorem ridx_v96 (r : Fin 100000) (f : Fin 12) (k : Fin 120) : ridx_main_v96 (ix2 r f) k = ix2 k f :=
  funext fun a => Fin.ext (by match a with | ⟨0, _⟩ => rfl | ⟨1, _⟩ => rfl)

/-- The second bias is read at `f`. -/
theorem idx_v97_v98 (r : Fin 100000) (f : Fin 12) : idx_main_v97 (idx_main_v98 (ix2 r f)) = ix1 f :=
  funext fun a => Fin.ext (by match a with | ⟨0, _⟩ => rfl)

/-- The decoder's hidden layer at `(r, k)`: the rectified first dense layer of the third graph layer. -/
theorem dec_hidden
    (x0 : (⟨S100000x32, .f32⟩ : BufTy).Contents (Elt Ideal)) (x1 : (⟨S2x6400000, .i32⟩ : BufTy).Contents (Elt Ideal))
    (x2 : (⟨S32x240, .f32⟩ : BufTy).Contents (Elt Ideal)) (x3 : (⟨S240, .f32⟩ : BufTy).Contents (Elt Ideal))
    (x4 : (⟨S240x24, .f32⟩ : BufTy).Contents (Elt Ideal)) (x5 : (⟨S24, .f32⟩ : BufTy).Contents (Elt Ideal))
    (x6 : (⟨S24x24, .f32⟩ : BufTy).Contents (Elt Ideal)) (x7 : (⟨S24, .f32⟩ : BufTy).Contents (Elt Ideal))
    (x8 : (⟨S24x24, .f32⟩ : BufTy).Contents (Elt Ideal)) (x9 : (⟨S24x24, .f32⟩ : BufTy).Contents (Elt Ideal))
    (x10 : (⟨S24, .f32⟩ : BufTy).Contents (Elt Ideal)) (x11 : (⟨S24x24, .f32⟩ : BufTy).Contents (Elt Ideal))
    (x12 : (⟨S24x24, .f32⟩ : BufTy).Contents (Elt Ideal)) (x13 : (⟨S24, .f32⟩ : BufTy).Contents (Elt Ideal))
    (x14 : (⟨S24x24, .f32⟩ : BufTy).Contents (Elt Ideal)) (x15 : (⟨S24x120, .f32⟩ : BufTy).Contents (Elt Ideal))
    (x16 : (⟨S120, .f32⟩ : BufTy).Contents (Elt Ideal))
    (r : Fin 100000) (k : Fin 120) :
    val_main_v95 (F := Ideal) x0 x1 x2 x3 x4 x5 x6 x7 x8 x9 x10 x11 x12 x13 x14 x15 x16 (ix2 r k)
      = max ((∑ j : Fin 24, val_main_v90 (F := Ideal) x0 x1 x2 x3 x4 x5 x6 x7 x8 x9 x10 x11 x12 x13 x14 (ix2 r j) * x15 (ix2 j k))
          + x16 (ix1 k)) Cert.Spec.z32 := by
  rw [val_main_v95_apply, val_main_v94_apply, val_main_v91_apply, val_main_v93_apply, val_main_v92_apply,
    val_main_call4_v0_apply, val_main_call4_cst_apply]
  simp only [lidx_v91, ridx_v91, idx_v92_v93, Ideal.maximumf_def, Ideal.addf_def, Ideal.ofBits_def]

/-- The decoder stage at `(r, f)` is the specification's `dec` of the third graph layer. -/
theorem dec_stage
    (x0 : (⟨S100000x32, .f32⟩ : BufTy).Contents (Elt Ideal)) (x1 : (⟨S2x6400000, .i32⟩ : BufTy).Contents (Elt Ideal))
    (x2 : (⟨S32x240, .f32⟩ : BufTy).Contents (Elt Ideal)) (x3 : (⟨S240, .f32⟩ : BufTy).Contents (Elt Ideal))
    (x4 : (⟨S240x24, .f32⟩ : BufTy).Contents (Elt Ideal)) (x5 : (⟨S24, .f32⟩ : BufTy).Contents (Elt Ideal))
    (x6 : (⟨S24x24, .f32⟩ : BufTy).Contents (Elt Ideal)) (x7 : (⟨S24, .f32⟩ : BufTy).Contents (Elt Ideal))
    (x8 : (⟨S24x24, .f32⟩ : BufTy).Contents (Elt Ideal)) (x9 : (⟨S24x24, .f32⟩ : BufTy).Contents (Elt Ideal))
    (x10 : (⟨S24, .f32⟩ : BufTy).Contents (Elt Ideal)) (x11 : (⟨S24x24, .f32⟩ : BufTy).Contents (Elt Ideal))
    (x12 : (⟨S24x24, .f32⟩ : BufTy).Contents (Elt Ideal)) (x13 : (⟨S24, .f32⟩ : BufTy).Contents (Elt Ideal))
    (x14 : (⟨S24x24, .f32⟩ : BufTy).Contents (Elt Ideal)) (x15 : (⟨S24x120, .f32⟩ : BufTy).Contents (Elt Ideal))
    (x16 : (⟨S120, .f32⟩ : BufTy).Contents (Elt Ideal)) (x17 : (⟨S120x12, .f32⟩ : BufTy).Contents (Elt Ideal))
    (x18 : (⟨S12, .f32⟩ : BufTy).Contents (Elt Ideal))
    (r : Fin 100000) (f : Fin 12) :
    val_main_v99 (F := Ideal) x0 x1 x2 x3 x4 x5 x6 x7 x8 x9 x10 x11 x12 x13 x14 x15 x16 x17 x18 (ix2 r f)
      = Cert.Spec.dec (val_main_v90 (F := Ideal) x0 x1 x2 x3 x4 x5 x6 x7 x8 x9 x10 x11 x12 x13 x14)
          x15 (fun k => x16 (ix1 k)) x17 (fun g => x18 (ix1 g)) r f := by
  rw [val_main_v99_apply, val_main_v96_apply, val_main_v98_apply, val_main_v97_apply]
  simp only [lidx_v96, ridx_v96, idx_v97_v98, dec_hidden, Ideal.addf_def]
  unfold Cert.Spec.dec
  rfl

end Cert.ReferenceIdeal.Stage

end
-- ==== Proof.LibRowCast.lean ====
/-
  A vector laid out as a one-row matrix, read at an index.

  Reshaping a vector of length `n` to a `1 × n` matrix moves nothing: both are laid out in row-major order, and the
  row-major position of entry `(0, k)` of the matrix is `0 · n + k = k`, the position of entry `k` of the vector.
-/
import Idealize.ShloMosaic.Lib.Pipeline.Value
import Idealize.ShloMosaic.Lib.ValueIdx

namespace Idealize.ShloMosaic.RowCast

open Idealize.ShloMosaic Idealize.ShloMosaic.ValueIdx

/-- A reshape `[n] → [1, n]` read at `(0, k)` is the vector at `k`. -/
theorem apply {α : Type} {n : Nat} (x : (⟨1, ![n]⟩ : Shape).Idx → α)
    (h : (⟨1, ![n]⟩ : Shape).ShapeCasts ⟨2, ![1, n]⟩) (k : Fin n) :
    shapeCast ⟨2, ![1, n]⟩ x h (ix2 (0 : Fin 1) k) = x (ix1 k) := by
  refine shapeCast_apply x h _ _ ?_
  rw [Shape.rowMajor_val_one, Shape.rowMajor_val_two]
  show k.val = (0 : Fin 1).val * n + k.val
  simp

end Idealize.ShloMosaic.RowCast
-- ==== Proof.SpecCongr.lean ====
/-
  The node-wise maps depend on their operands only through the entries they read.

  `enc x w1 b1 w2 b2 r f` reads row `r` of `x`, all of `w1`, `b1`, `w2`, and entry `f` of `b2`; so two lists of
  operands that agree on those entries — `x` at row `p` against `x'` at row `r`, the others entry by entry —
  give the same value. The same for `sage`, `sageRelu` and `dec`. This is how a block's value is compared
  with the whole array's: the block's row `p` is the array's row `r`, and a weight's block is the weight.
-/
import proofs.«168279_j54984171323620_1_alg».proof.Proof.Spec

noncomputable section

namespace Cert.Spec

open Idealize.ShloMosaic Idealize.ShloMosaic.ValueIdx

variable {R R' : Nat}

theorem enc_congr (x : Mat R 32) (x' : Mat R' 32) (w1 w1' : Mat 32 240) (b1 b1' : Fin 240 → EReal) (w2 w2' : Mat 240 24)
    (b2 b2' : Fin 24 → EReal) (p : Fin R) (r : Fin R') (f f' : Fin 24)
    (hx : ∀ j, x (ix2 p j) = x' (ix2 r j)) (hw1 : ∀ j k, w1 (ix2 j k) = w1' (ix2 j k)) (hb1 : ∀ k, b1 k = b1' k)
    (hw2 : ∀ k g, w2 (ix2 k g) = w2' (ix2 k g)) (hb2 : ∀ g, b2 g = b2' g) (hf : f = f') :
    enc x w1 b1 w2 b2 p f = enc x' w1' b1' w2' b2' r f' := by
  subst hf
  simp only [enc, hx, hw1, hb1, hw2, hb2]

theorem sage_congr (a h : Mat R 24) (a' h' : Mat R' 24) (wl wl' wr wr' : Mat 24 24) (bl bl' : Fin 24 → EReal)
    (p : Fin R) (r : Fin R') (f f' : Fin 24)
    (ha : ∀ k, a (ix2 p k) = a' (ix2 r k)) (hh : ∀ k, h (ix2 p k) = h' (ix2 r k))
    (hwl : ∀ k g, wl (ix2 k g) = wl' (ix2 k g)) (hwr : ∀ k g, wr (ix2 k g) = wr' (ix2 k g)) (hbl : ∀ g, bl g = bl' g)
    (hf : f = f') :
    sage a h wl wr bl p f = sage a' h' wl' wr' bl' r f' := by
  subst hf
  simp only [sage, ha, hh, hwl, hwr, hbl]

theorem sageRelu_congr (a h : Mat R 24) (a' h' : Mat R' 24) (wl wl' wr wr' : Mat 24 24) (bl bl' : Fin 24 → EReal)
    (p : Fin R) (r : Fin R') (f f' : Fin 24)
    (ha : ∀ k, a (ix2 p k) = a' (ix2 r k)) (hh : ∀ k, h (ix2 p k) = h' (ix2 r k))
    (hwl : ∀ k g, wl (ix2 k g) = wl' (ix2 k g)) (hwr : ∀ k g, wr (ix2 k g) = wr' (ix2 k g)) (hbl : ∀ g, bl g = bl' g)
    (hf : f = f') :
    sageRelu a h wl wr bl p f = sageRelu a' h' wl' wr' bl' r f' := by
  unfold sageRelu
  rw [sage_congr a h a' h' wl wl' wr wr' bl bl' p r f f' ha hh hwl hwr hbl hf]

theorem dec_congr (x : Mat R 24) (x' : Mat R' 24) (w1 w1' : Mat 24 120) (b1 b1' : Fin 120 → EReal) (w2 w2' : Mat 120 12)
    (b2 b2' : Fin 12 → EReal) (p : Fin R) (r : Fin R') (f f' : Fin 12)
    (hx : ∀ j, x (ix2 p j) = x' (ix2 r j)) (hw1 : ∀ j k, w1 (ix2 j k) = w1' (ix2 j k)) (hb1 : ∀ k, b1 k = b1' k)
    (hw2 : ∀ k g, w2 (ix2 k g) = w2' (ix2 k g)) (hb2 : ∀ g, b2 g = b2' g) (hf : f = f') :
    dec x w1 b1 w2 b2 p f = dec x' w1' b1' w2' b2' r f' := by
  subst hf
  simp only [dec, hx, hw1, hb1, hw2, hb2]

end Cert.Spec

end
-- ==== Proof.DegreeScale.lean ====
/-
  Scaling by a reciprocal degree against dividing by the degree.

  Let `A` be an array, `D` a vector of extended reals, and `d = max D 1` elementwise. One program forms the
  vector `1 / d` once, stretches it along the feature axis and multiplies `A` by it; the other stretches `d`
  itself the same way and divides `A` by it. Both stretches read the same entry of their operand at every
  index of `A`, whatever that entry is, so at each index the two results are `a * (1 / e)` and `a / e` for
  one and the same `e = max (D _) 1`. Since `1 ≤ e`, `e` is not zero, and division by a divisor that is not
  zero is multiplication by its inverse: `a * (1 / e) = a * (1 * e⁻¹) = a * e⁻¹ = a / e`. Nothing is
  assumed finite: the law holds at the infinities too (`(±∞)⁻¹ = 0` on both sides).
-/
import Idealize.ShloMosaic.Lib.IdealHost

noncomputable section

namespace Cert.DegreeScale

open Idealize.ShloMosaic

/-- A divisor that is at least one is not zero. -/
theorem max_one_ne_zero (a : EReal) : max a 1 ≠ 0 :=
  ne_of_gt (lt_of_lt_of_le zero_lt_one (le_max_right a 1))

/-- `A` times the stretched reciprocal of `max D 1` is `A` divided by the stretched `max D 1`, as whole arrays:
    `S0` is the scalar's shape, `U` the degree vector's, `U1` the column's and `T` the array's. -/
theorem scale_eq_quotient {S0 U U1 T : Shape}
    (d0 : Fin S0.rank → Fin U.rank) (h0 : S0.BroadcastsInDim U d0)
    (d1 : Fin U.rank → Fin U1.rank) (h1 : U.BroadcastsInDim U1 d1)
    (d2 : Fin U1.rank → Fin T.rank) (h2 : U1.BroadcastsInDim T d2)
    (A : FVec Ideal T .f32) (D : FVec Ideal U .f32) :
    mulf A (broadcastInDim T d2 h2 (broadcastInDim U1 d1 h1
        (Host.divf (broadcastInDim U d0 h0 (constant (F := Ideal) S0 .f32 0x3F800000#32))
          (maximumf D (broadcastInDim U d0 h0 (constant (F := Ideal) S0 .f32 0x3F800000#32))))))
      = Host.divf A (broadcastInDim T d2 h2 (broadcastInDim U1 d1 h1
          (maximumf D (broadcastInDim U d0 h0 (constant (F := Ideal) S0 .f32 0x3F800000#32))))) := by
  funext i
  simp only [mulf, Host.divf, maximumf, broadcastInDim, constant, Ideal.mulf_def, Ideal.hostDivf_def,
    Ideal.maximumf_def, Ideal.ofBits_def]
  rw [Ideal.ofBits_one_f32]
  exact Ideal.mul_one_div (max_one_ne_zero _)

end Cert.DegreeScale

end
-- ==== Proof.LibDotRow.lean ====
/-
  A matrix product with ONE contracted axis, read at an index, as a sum over the contracted coordinate.

  For dimension numbers `d` of an [M, K] by [K, N] product into [M, N] — the left operand contracted on its
  second axis, the right one on its first — the sum over the contraction index set of
  `L (d.lhsIdx (p, f) k) * R (d.rhsIdx (p, f) k)` is `∑ k : Fin K, L (p, k) * R (k, f)`: the contraction index
  is its one coordinate, the left operand's row is the output's row and the right operand's column the
  output's column. The matrix unit's product into a zero accumulator and the host's `dot_general`, read at
  the exact values, are both that sum.
-/
import Idealize.ShloMosaic.Lib.ValueIdx
import Idealize.ShloMosaic.PureOps.Ideal.Laws

noncomputable section

namespace Idealize.ShloMosaic.DotRow

open Idealize.ShloMosaic Idealize.ShloMosaic.ValueIdx

variable {M K N : Nat}

/-- The contraction's sum over its index set is the sum over the contracted coordinate. -/
theorem sum_contr (d : DotDims ⟨2, ![M, K]⟩ ⟨2, ![K, N]⟩ ⟨2, ![M, N]⟩)
    (hl : d.lhsContracting = [1]) (hr : d.rhsContracting = [0])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 1).val = (j 1).val)
    (L : (⟨2, ![M, K]⟩ : Shape).Idx → EReal) (R : (⟨2, ![K, N]⟩ : Shape).Idx → EReal) (p : Fin M) (f : Fin N) :
    ∑ k : d.contr.Idx, L (d.lhsIdx (ix2 p f) k) * R (d.rhsIdx (ix2 p f) k) = ∑ k : Fin K, L (ix2 p k) * R (ix2 k f) := by
  rw [← Equiv.sum_comp (contrEquiv1 d K hrank hsize).symm]
  refine Finset.sum_congr rfl fun k _ => ?_
  have el : d.lhsIdx (ix2 p f) ((contrEquiv1 d K hrank hsize).symm k) = ix2 p k := by
    funext a; apply Fin.ext
    match a with
    | ⟨0, _⟩ => exact h0 _ _
    | ⟨1, _⟩ =>
      show (d.lhsIdx (ix2 p f) ((contrEquiv1 d K hrank hsize).symm k) 1).val = k.val
      rw [d.lhsIdx_val_of_single hl]
      exact contrEquiv1_symm_val d K hrank hsize k
  have er : d.rhsIdx (ix2 p f) ((contrEquiv1 d K hrank hsize).symm k) = ix2 k f := by
    funext a; apply Fin.ext
    match a with
    | ⟨0, _⟩ =>
      show (d.rhsIdx (ix2 p f) ((contrEquiv1 d K hrank hsize).symm k) 0).val = k.val
      rw [d.rhsIdx_val_of_single hr]
      exact contrEquiv1_symm_val d K hrank hsize k
    | ⟨1, _⟩ => exact h1 _ _
  rw [el, er]

end Idealize.ShloMosaic.DotRow

end
-- ==== Proof.KernelPay.lean ====
/-
  The five stored values of the node-wise stages, read at an index of a block, at the exact values.

  Each stored value is built from matrix products into a zero accumulator, a bias row repeated over the
  rows, sums, and the rectifier `max · 0`; the changes of number format are the identity at the exact
  values. A product with one contracted axis read at `(p, f)` is `∑ k, L (p, k) * R (k, f)`; a repeated
  bias row read at `(p, f)` is the row at `f`. Layer by layer this gives
    * the encoder's block:  `max ((∑ k, max ((∑ j, x[p,j]·w1[j,k]) + b1[k]) 0 · w2[k,f]) + b2[f]) 0`,
    * a graph layer's block: `((∑ k, a[p,k]·wl[k,f]) + bl[f]) + ∑ k, h[p,k]·wr[k,f]`, rectified in the
      first two graph layers and plain in the third,
    * the decoder's block:  `(∑ k, max ((∑ j, x[p,j]·w1[j,k]) + b1[k]) 0 · w2[k,f]) + b2[f]`.
-/
import proofs.«168279_j54984171323620_1_alg».proof.Proof.Gen.KernelIdeal.Skeleton
import proofs.«168279_j54984171323620_1_alg».proof.Proof.Spec
import proofs.«168279_j54984171323620_1_alg».proof.Proof.LibDotRow
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## One layer, for any extents -/

section Layer
variable {M K N : Nat}

/-- A product with one contracted axis into the zero accumulator, read at `(p, f)`: the sum over the
    contracted coordinate of the left operand's row `p` times the right operand's column `f`. -/
theorem mm_ix2 (d : DotDims ⟨2, ![M, K]⟩ ⟨2, ![K, N]⟩ ⟨2, ![M, N]⟩)
    (hl : d.lhsContracting = [1]) (hr : d.rhsContracting = [0])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 1).val = (j 1).val)
    (hb : FTy.bits .bf16 < FTy.bits .f32)
    (X : FVec Ideal ⟨2, ![M, K]⟩ .f32) (W : FVec Ideal ⟨2, ![K, N]⟩ .f32) (p : Fin M) (f : Fin N) :
    matmul d none (truncf .bf16 X hb) (truncf .bf16 W hb) (constant (F := Ideal) ⟨2, ![M, N]⟩ .f32 0x00000000#32) (ix2 p f)
      = ∑ k : Fin K, X (ix2 p k) * W (ix2 k f) :=
  (Ideal.matmul_constant_zero_apply d none (truncf .bf16 X hb) (truncf .bf16 W hb) (ix2 p f)).trans
    (DotRow.sum_contr d hl hr hrank hsize h0 h1 X W p f)

/-- A dense layer: the product plus the bias row. -/
theorem dense_ix2 (d : DotDims ⟨2, ![M, K]⟩ ⟨2, ![K, N]⟩ ⟨2, ![M, N]⟩)
    (hl : d.lhsContracting = [1]) (hr : d.rhsContracting = [0])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 1).val = (j 1).val)
    (hb : FTy.bits .bf16 < FTy.bits .f32)
    (X : FVec Ideal ⟨2, ![M, K]⟩ .f32) (W : FVec Ideal ⟨2, ![K, N]⟩ .f32) (b : FVec Ideal ⟨2, ![1, N]⟩ .f32)
    (hc : (⟨2, ![1, N]⟩ : Shape).ShapeCasts ⟨2, ![1, N]⟩) (hbc : (⟨2, ![1, N]⟩ : Shape).Broadcasts ⟨2, ![M, N]⟩)
    (p : Fin M) (f : Fin N) :
    addf (matmul d none (truncf .bf16 X hb) (truncf .bf16 W hb) (constant (F := Ideal) ⟨2, ![M, N]⟩ .f32 0x00000000#32))
        (broadcastTo ⟨2, ![M, N]⟩ (shapeCast ⟨2, ![1, N]⟩ b hc) hbc) (ix2 p f)
      = (∑ k : Fin K, X (ix2 p k) * W (ix2 k f)) + b (ix2 0 f) :=
  (addf_apply _ _ _).trans (congrArg₂ (· + ·)
    (mm_ix2 d hl hr hrank hsize h0 h1 hb X W p f)
    ((broadcastTo_1b_ab_apply _ hbc p f).trans (congrFun (shapeCast_self b hc) (ix2 0 f))))

/-- A dense layer followed by the rectifier. -/
theorem denseRelu_ix2 (d : DotDims ⟨2, ![M, K]⟩ ⟨2, ![K, N]⟩ ⟨2, ![M, N]⟩)
    (hl : d.lhsContracting = [1]) (hr : d.rhsContracting = [0])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 1).val = (j 1).val)
    (hb : FTy.bits .bf16 < FTy.bits .f32)
    (X : FVec Ideal ⟨2, ![M, K]⟩ .f32) (W : FVec Ideal ⟨2, ![K, N]⟩ .f32) (b : FVec Ideal ⟨2, ![1, N]⟩ .f32)
    (hc : (⟨2, ![1, N]⟩ : Shape).ShapeCasts ⟨2, ![1, N]⟩) (hbc : (⟨2, ![1, N]⟩ : Shape).Broadcasts ⟨2, ![M, N]⟩)
    (p : Fin M) (f : Fin N) :
    maximumf (addf (matmul d none (truncf .bf16 X hb) (truncf .bf16 W hb) (constant (F := Ideal) ⟨2, ![M, N]⟩ .f32 0x00000000#32))
        (broadcastTo ⟨2, ![M, N]⟩ (shapeCast ⟨2, ![1, N]⟩ b hc) hbc))
        (broadcast ⟨2, ![M, N]⟩ (Scalar.ofBits (F := Ideal) .f32 0x00000000#32)) (ix2 p f)
      = max ((∑ k : Fin K, X (ix2 p k) * W (ix2 k f)) + b (ix2 0 f)) Cert.Spec.z32 :=
  (maximumf_apply _ _ _).trans (congrArg (max · Cert.Spec.z32) (dense_ix2 d hl hr hrank hsize h0 h1 hb X W b hc hbc p f))

end Layer

/-! ## The products' index maps: the left operand's row is the output's row, the right operand's column the output's column -/

theorem lhs0_32_240 (i : S10000x240.Idx) (q : dot_S10000x32_S32x240_S10000x240_1_0_0_1_n_n.contr.Idx) :
    (dot_S10000x32_S32x240_S10000x240_1_0_0_1_n_n.lhsIdx i q 0).val = (i 0).val := by
  unfold DotDims.lhsIdx
  rw [dif_neg (show ¬(0 : Fin S10000x32.rank) ∈ dot_S10000x32_S32x240_S10000x240_1_0_0_1_n_n.lhsBatch by decide), dif_pos (show (0 : Fin S10000x32.rank) ∈ dot_S10000x32_S32x240_S10000x240_1_0_0_1_n_n.lhsNonContracting by decide)]
  rfl
theorem rhs1_32_240 (i : S10000x240.Idx) (q : dot_S10000x32_S32x240_S10000x240_1_0_0_1_n_n.contr.Idx) :
    (dot_S10000x32_S32x240_S10000x240_1_0_0_1_n_n.rhsIdx i q 1).val = (i 1).val := by
  unfold DotDims.rhsIdx
  rw [dif_neg (show ¬(1 : Fin S32x240.rank) ∈ dot_S10000x32_S32x240_S10000x240_1_0_0_1_n_n.rhsBatch by decide), dif_pos (show (1 : Fin S32x240.rank) ∈ dot_S10000x32_S32x240_S10000x240_1_0_0_1_n_n.rhsNonContracting by decide)]
  rfl

theorem lhs0_240_24 (i : S10000x24.Idx) (q : dot_S10000x240_S240x24_S10000x24_1_0_0_1_n_n.contr.Idx) :
    (dot_S10000x240_S240x24_S10000x24_1_0_0_1_n_n.lhsIdx i q 0).val = (i 0).val := by
  unfold DotDims.lhsIdx
  rw [dif_neg (show ¬(0 : Fin S10000x240.rank) ∈ dot_S10000x240_S240x24_S10000x24_1_0_0_1_n_n.lhsBatch by decide), dif_pos (show (0 : Fin S10000x240.rank) ∈ dot_S10000x240_S240x24_S10000x24_1_0_0_1_n_n.lhsNonContracting by decide)]
  rfl
theorem rhs1_240_24 (i : S10000x24.Idx) (q : dot_S10000x240_S240x24_S10000x24_1_0_0_1_n_n.contr.Idx) :
    (dot_S10000x240_S240x24_S10000x24_1_0_0_1_n_n.rhsIdx i q 1).val = (i 1).val := by
  unfold DotDims.rhsIdx
  rw [dif_neg (show ¬(1 : Fin S240x24.rank) ∈ dot_S10000x240_S240x24_S10000x24_1_0_0_1_n_n.rhsBatch by decide), dif_pos (show (1 : Fin S240x24.rank) ∈ dot_S10000x240_S240x24_S10000x24_1_0_0_1_n_n.rhsNonContracting by decide)]
  rfl

theorem lhs0_24_24 (i : S10000x24.Idx) (q : dot_S10000x24_S24x24_S10000x24_1_0_0_1_n_n.contr.Idx) :
    (dot_S10000x24_S24x24_S10000x24_1_0_0_1_n_n.lhsIdx i q 0).val = (i 0).val := by
  unfold DotDims.lhsIdx
  rw [dif_neg (show ¬(0 : Fin S10000x24.rank) ∈ dot_S10000x24_S24x24_S10000x24_1_0_0_1_n_n.lhsBatch by decide), dif_pos (show (0 : Fin S10000x24.rank) ∈ dot_S10000x24_S24x24_S10000x24_1_0_0_1_n_n.lhsNonContracting by decide)]
  rfl
theorem rhs1_24_24 (i : S10000x24.Idx) (q : dot_S10000x24_S24x24_S10000x24_1_0_0_1_n_n.contr.Idx) :
    (dot_S10000x24_S24x24_S10000x24_1_0_0_1_n_n.rhsIdx i q 1).val = (i 1).val := by
  unfold DotDims.rhsIdx
  rw [dif_neg (show ¬(1 : Fin S24x24.rank) ∈ dot_S10000x24_S24x24_S10000x24_1_0_0_1_n_n.rhsBatch by decide), dif_pos (show (1 : Fin S24x24.rank) ∈ dot_S10000x24_S24x24_S10000x24_1_0_0_1_n_n.rhsNonContracting by decide)]
  rfl

theorem lhs0_24_120 (i : S10000x120.Idx) (q : dot_S10000x24_S24x120_S10000x120_1_0_0_1_n_n.contr.Idx) :
    (dot_S10000x24_S24x120_S10000x120_1_0_0_1_n_n.lhsIdx i q 0).val = (i 0).val := by
  unfold DotDims.lhsIdx
  rw [dif_neg (show ¬(0 : Fin S10000x24.rank) ∈ dot_S10000x24_S24x120_S10000x120_1_0_0_1_n_n.lhsBatch by decide), dif_pos (show (0 : Fin S10000x24.rank) ∈ dot_S10000x24_S24x120_S10000x120_1_0_0_1_n_n.lhsNonContracting by decide)]
  rfl
theorem rhs1_24_120 (i : S10000x120.Idx) (q : dot_S10000x24_S24x120_S10000x120_1_0_0_1_n_n.contr.Idx) :
    (dot_S10000x24_S24x120_S10000x120_1_0_0_1_n_n.rhsIdx i q 1).val = (i 1).val := by
  unfold DotDims.rhsIdx
  rw [dif_neg (show ¬(1 : Fin S24x120.rank) ∈ dot_S10000x24_S24x120_S10000x120_1_0_0_1_n_n.rhsBatch by decide), dif_pos (show (1 : Fin S24x120.rank) ∈ dot_S10000x24_S24x120_S10000x120_1_0_0_1_n_n.rhsNonContracting by decide)]
  rfl

theorem lhs0_120_12 (i : S10000x12.Idx) (q : dot_S10000x120_S120x12_S10000x12_1_0_0_1_n_n.contr.Idx) :
    (dot_S10000x120_S120x12_S10000x12_1_0_0_1_n_n.lhsIdx i q 0).val = (i 0).val := by
  unfold DotDims.lhsIdx
  rw [dif_neg (show ¬(0 : Fin S10000x120.rank) ∈ dot_S10000x120_S120x12_S10000x12_1_0_0_1_n_n.lhsBatch by decide), dif_pos (show (0 : Fin S10000x120.rank) ∈ dot_S10000x120_S120x12_S10000x12_1_0_0_1_n_n.lhsNonContracting by decide)]
  rfl
theorem rhs1_120_12 (i : S10000x12.Idx) (q : dot_S10000x120_S120x12_S10000x12_1_0_0_1_n_n.contr.Idx) :
    (dot_S10000x120_S120x12_S10000x12_1_0_0_1_n_n.rhsIdx i q 1).val = (i 1).val := by
  unfold DotDims.rhsIdx
  rw [dif_neg (show ¬(1 : Fin S120x12.rank) ∈ dot_S10000x120_S120x12_S10000x12_1_0_0_1_n_n.rhsBatch by decide), dif_pos (show (1 : Fin S120x12.rank) ∈ dot_S10000x120_S120x12_S10000x12_1_0_0_1_n_n.rhsNonContracting by decide)]
  rfl

/-! ## The five blocks -/

/-- The encoder's block. -/
theorem enc_pay (x0 : Vec Ideal S10000x32 .f32) (x1 : Vec Ideal S32x240 .f32) (x2 : Vec Ideal S1x240 .f32)
    (x3 : Vec Ideal S240x24 .f32) (x4 : Vec Ideal S1x24 .f32) (p : Fin 10000) (f : Fin 24) :
    k0_pay1 (F := Ideal) x0 x1 x2 x3 x4 (ix2 p f)
      = Cert.Spec.enc x0 x1 (fun k => x2 (ix2 0 k)) x3 (fun g => x4 (ix2 0 g)) p f := by
  unfold k0_pay1
  refine (denseRelu_ix2 dot_S10000x240_S240x24_S10000x24_1_0_0_1_n_n rfl rfl rfl rfl lhs0_240_24 rhs1_240_24 _ _ x3 x4 _ _ p f).trans ?_
  unfold Cert.Spec.enc
  refine congrArg (fun t => max (t + x4 (ix2 0 f)) Cert.Spec.z32) (Finset.sum_congr rfl fun k _ => congrArg (· * x3 (ix2 k f)) ?_)
  exact denseRelu_ix2 dot_S10000x32_S32x240_S10000x240_1_0_0_1_n_n rfl rfl rfl rfl lhs0_32_240 rhs1_32_240 _ x0 x1 x2 _ _ p k

/-- A graph layer's block for any extents: the aggregated neighbours through `wl` with the bias, plus the node's own
    features through `wr`. -/
theorem sage_ix2 {M K N : Nat} (d : DotDims ⟨2, ![M, K]⟩ ⟨2, ![K, N]⟩ ⟨2, ![M, N]⟩)
    (hl : d.lhsContracting = [1]) (hr : d.rhsContracting = [0])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 1).val = (j 1).val)
    (hb : FTy.bits .bf16 < FTy.bits .f32)
    (A H : FVec Ideal ⟨2, ![M, K]⟩ .f32) (Wl Wr : FVec Ideal ⟨2, ![K, N]⟩ .f32) (b : FVec Ideal ⟨2, ![1, N]⟩ .f32)
    (hs : (⟨2, ![M, K]⟩ : Shape).ShapeCasts ⟨2, ![M, K]⟩)
    (hc : (⟨2, ![1, N]⟩ : Shape).ShapeCasts ⟨2, ![1, N]⟩) (hbc : (⟨2, ![1, N]⟩ : Shape).Broadcasts ⟨2, ![M, N]⟩)
    (p : Fin M) (f : Fin N) :
    addf (addf (matmul d none (truncf .bf16 (shapeCast ⟨2, ![M, K]⟩ A hs) hb) (truncf .bf16 Wl hb) (constant (F := Ideal) ⟨2, ![M, N]⟩ .f32 0x00000000#32))
          (broadcastTo ⟨2, ![M, N]⟩ (shapeCast ⟨2, ![1, N]⟩ b hc) hbc))
        (matmul d none (truncf .bf16 (shapeCast ⟨2, ![M, K]⟩ H hs) hb) (truncf .bf16 Wr hb) (constant (F := Ideal) ⟨2, ![M, N]⟩ .f32 0x00000000#32)) (ix2 p f)
      = ((∑ k : Fin K, A (ix2 p k) * Wl (ix2 k f)) + b (ix2 0 f)) + ∑ k : Fin K, H (ix2 p k) * Wr (ix2 k f) := by
  rw [shapeCast_self A hs, shapeCast_self H hs]
  exact (addf_apply _ _ _).trans (congrArg₂ (· + ·)
    (dense_ix2 d hl hr hrank hsize h0 h1 hb A Wl b hc hbc p f)
    (mm_ix2 d hl hr hrank hsize h0 h1 hb H Wr p f))

/-- The first graph layer's block, rectified. -/
theorem sage1_pay (v0 v3 : Vec Ideal S10000x24 .f32) (v6 v8 : Vec Ideal S24x24 .f32) (v11 : Vec Ideal S1x24 .f32)
    (p : Fin 10000) (f : Fin 24) :
    k1_pay1 (F := Ideal) v0 v3 v6 v8 v11 (ix2 p f)
      = Cert.Spec.sageRelu v0 v3 v6 v8 (fun g => v11 (ix2 0 g)) p f := by
  unfold k1_pay1
  refine (maximumf_apply _ _ _).trans ?_
  unfold Cert.Spec.sageRelu Cert.Spec.sage
  exact congrArg (max · Cert.Spec.z32)
    (sage_ix2 dot_S10000x24_S24x24_S10000x24_1_0_0_1_n_n rfl rfl rfl rfl lhs0_24_24 rhs1_24_24 _ v0 v3 v6 v8 v11 _ _ _ p f)

/-- The second graph layer's block, rectified. -/
theorem sage2_pay (v0 v3 : Vec Ideal S10000x24 .f32) (v6 v8 : Vec Ideal S24x24 .f32) (v11 : Vec Ideal S1x24 .f32)
    (p : Fin 10000) (f : Fin 24) :
    k2_pay1 (F := Ideal) v0 v3 v6 v8 v11 (ix2 p f)
      = Cert.Spec.sageRelu v0 v3 v6 v8 (fun g => v11 (ix2 0 g)) p f := by
  unfold k2_pay1
  refine (maximumf_apply _ _ _).trans ?_
  unfold Cert.Spec.sageRelu Cert.Spec.sage
  exact congrArg (max · Cert.Spec.z32)
    (sage_ix2 dot_S10000x24_S24x24_S10000x24_1_0_0_1_n_n rfl rfl rfl rfl lhs0_24_24 rhs1_24_24 _ v0 v3 v6 v8 v11 _ _ _ p f)

/-- The third graph layer's block: no rectifier. -/
theorem sage3_pay (v0 v3 : Vec Ideal S10000x24 .f32) (v6 v8 : Vec Ideal S24x24 .f32) (v11 : Vec Ideal S1x24 .f32)
    (p : Fin 10000) (f : Fin 24) :
    k3_pay1 (F := Ideal) v0 v3 v6 v8 v11 (ix2 p f)
      = Cert.Spec.sage v0 v3 v6 v8 (fun g => v11 (ix2 0 g)) p f := by
  unfold k3_pay1 Cert.Spec.sage
  exact sage_ix2 dot_S10000x24_S24x24_S10000x24_1_0_0_1_n_n rfl rfl rfl rfl lhs0_24_24 rhs1_24_24 _ v0 v3 v6 v8 v11 _ _ _ p f

/-- The decoder's block. -/
theorem dec_pay (v0 : Vec Ideal S10000x24 .f32) (v3 : Vec Ideal S24x120 .f32) (v6 : Vec Ideal S1x120 .f32)
    (v13 : Vec Ideal S120x12 .f32) (v16 : Vec Ideal S1x12 .f32) (p : Fin 10000) (f : Fin 12) :
    k4_pay1 (F := Ideal) v0 v3 v6 v13 v16 (ix2 p f)
      = Cert.Spec.dec v0 v3 (fun k => v6 (ix2 0 k)) v13 (fun g => v16 (ix2 0 g)) p f := by
  unfold k4_pay1
  refine (dense_ix2 dot_S10000x120_S120x12_S10000x12_1_0_0_1_n_n rfl rfl rfl rfl lhs0_120_12 rhs1_120_12 _ _ v13 v16 _ _ p f).trans ?_
  unfold Cert.Spec.dec
  refine congrArg (· + v16 (ix2 0 f)) (Finset.sum_congr rfl fun k _ => congrArg (· * v13 (ix2 k f)) ?_)
  refine (denseRelu_ix2 dot_S10000x24_S24x120_S10000x120_1_0_0_1_n_n rfl rfl rfl rfl lhs0_24_120 rhs1_24_120 _ _ v3 v6 _ _ p k).trans ?_
  rw [shapeCast_self v0]

end Cert.KernelIdeal.Pay

end
-- ==== Proof.Region0.lean ====
/-
  The encoder region, from blocks to the array.

  The region runs the encoder on ten blocks of 10000 rows. At grid point `t` the activation window holds rows
  `10000·t … 10000·t + 9999` of the input array, the two weight matrices and the two bias rows are whole, and the
  output window is written back to the same rows of the output array. What the body stores at block row `p`,
  feature `f`, is the encoder's value of the block at `(p, f)`; the encoder reads only row `p` of the block, which
  is row `10000·t + p` of the array, so the stored value is the encoder's value of the WHOLE arrays at
  `(10000·t + p, f)`. The ten blocks tile the output array (row `r` lies in block `r / 10000`), so the array ends
  holding the encoder's map of the region's input arrays at every index.
-/
import proofs.«168279_j54984171323620_1_alg».proof.Proof.Gen.KernelIdeal.Frame
import proofs.«168279_j54984171323620_1_alg».proof.Proof.Spec
import proofs.«168279_j54984171323620_1_alg».proof.Proof.SpecCongr
import proofs.«168279_j54984171323620_1_alg».proof.Proof.KernelPay
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Pay
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

private theorem hz : (![0, 0] : Fin 2 → Nat) = fun _ => 0 := funext fun a => by fin_cases a <;> rfl

/-- What the region's output array ends holding: the encoder's map of the arrays the region finds, index by index. -/
def G0 (c : Dev nD) : S100000x24.Idx → EReal := fun i =>
  Cert.Spec.enc (V c (Pipeline.arrRef spec0 0)) (V c (Pipeline.arrRef spec0 1)) (fun k => V c (Pipeline.arrRef spec0 2) (ix2 0 k))
    (V c (Pipeline.arrRef spec0 3)) (fun g => V c (Pipeline.arrRef spec0 4) (ix2 0 g)) (i 0) (i 1)

/-- The printed index maps, decided over the ten grid points: a row-indexed window moves with the output window along
    the rows; every other window, and every window along the features, sits at block 0. -/
theorem idx0 : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every one of the ten row blocks is some point's. -/
theorem onto0 : ∀ q : Fin 10, ∃ t : Fin cfg0.N, win0_5.index t = ![q.val, 0] :=
  (by decide +kernel : ∀ q : Fin 10, ∃ t : Fin grid0.N, win0_5.index t = ![q.val, 0])

/-- What point `t` writes back is block `t` of `G0`. -/
theorem flushed0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S10000x32) hz, View.ld_unit_zero (S := S32x240) hz, View.ld_unit_zero (S := S1x240) hz, View.ld_unit_zero (S := S240x24) hz, View.ld_unit_zero (S := S1x24) hz]
  funext j
  show k0_pay1 (iblk0 V c 0 t) (iblk0 V c 1 t) (iblk0 V c 2 t) (iblk0 V c 3 t) (iblk0 V c 4 t) j
      = G0 V c (((cfg0.win 5).blk t).view.emb j)
  have hj : (j : S10000x24.Idx) = ix2 (j 0) (j 1) := eq_ix2 j
  obtain ⟨e00, e01, e10, e11, e20, e21, e30, e31, e40, e41, e51, -⟩ := idx0 t
  refine (congrArg (k0_pay1 (F := Ideal) (iblk0 V c 0 t) (iblk0 V c 1 t) (iblk0 V c 2 t) (iblk0 V c 3 t) (iblk0 V c 4 t)) hj).trans
    ((enc_pay (iblk0 V c 0 t) (iblk0 V c 1 t) (iblk0 V c 2 t) (iblk0 V c 3 t) (iblk0 V c 4 t) (j 0) (j 1)).trans ?_)
  unfold G0
  refine Cert.Spec.enc_congr _ _ _ _ _ _ _ _ _ _ _ _ _ _ (fun jj => ?_) (fun jj k => ?_) (fun k => ?_) (fun k g => ?_) (fun g => ?_) ?_
  · show V c (Pipeline.arrRef spec0 0) (((cfg0.win 0).blk t).view.emb (ix2 (j 0) jj)) = _
    refine congrArg (V c (Pipeline.arrRef spec0 0)) ?_
    funext a; apply Fin.ext
    match a with
    | ⟨0, _⟩ => show win0_0.index t (0 : Fin 2) * 10000 + 1 * (j 0).val = win0_5.index t (0 : Fin 2) * 10000 + 1 * (j 0).val; omega
    | ⟨1, _⟩ => show win0_0.index t (1 : Fin 2) * 32 + 1 * jj.val = jj.val; omega
  · show V c (Pipeline.arrRef spec0 1) (((cfg0.win 1).blk t).view.emb (ix2 jj k)) = _
    refine congrArg (V c (Pipeline.arrRef spec0 1)) ?_
    funext a; apply Fin.ext
    match a with
    | ⟨0, _⟩ => show win0_1.index t (0 : Fin 2) * 32 + 1 * jj.val = jj.val; omega
    | ⟨1, _⟩ => show win0_1.index t (1 : Fin 2) * 240 + 1 * k.val = k.val; omega
  · show V c (Pipeline.arrRef spec0 2) (((cfg0.win 2).blk t).view.emb (ix2 0 k)) = _
    refine congrArg (V c (Pipeline.arrRef spec0 2)) ?_
    funext a; apply Fin.ext
    match a with
    | ⟨0, _⟩ => show win0_2.index t (0 : Fin 2) * 1 + 1 * 0 = 0; omega
    | ⟨1, _⟩ => show win0_2.index t (1 : Fin 2) * 240 + 1 * k.val = k.val; omega
  · show V c (Pipeline.arrRef spec0 3) (((cfg0.win 3).blk t).view.emb (ix2 k g)) = _
    refine congrArg (V c (Pipeline.arrRef spec0 3)) ?_
    funext a; apply Fin.ext
    match a with
    | ⟨0, _⟩ => show win0_3.index t (0 : Fin 2) * 240 + 1 * k.val = k.val; omega
    | ⟨1, _⟩ => show win0_3.index t (1 : Fin 2) * 24 + 1 * g.val = g.val; omega
  · show V c (Pipeline.arrRef spec0 4) (((cfg0.win 4).blk t).view.emb (ix2 0 g)) = _
    refine congrArg (V c (Pipeline.arrRef spec0 4)) ?_
    funext a; apply Fin.ext
    match a with
    | ⟨0, _⟩ => show win0_4.index t (0 : Fin 2) * 1 + 1 * 0 = 0; omega
    | ⟨1, _⟩ => show win0_4.index t (1 : Fin 2) * 24 + 1 * g.val = g.val; omega
  · apply Fin.ext
    show (j 1).val = win0_5.index t (1 : Fin 2) * 24 + 1 * (j 1).val
    omega

/-- An index of the array is in point `t`'s block iff each coordinate is in the block's range on its axis. -/
theorem mem_blk0 (t : Fin cfg0.N) (i : S100000x24.Idx) :
    i ∈ ((cfg0.win 5).blk t).view.set ↔ ∀ a : Fin 2, win0_5.index t a * S10000x24.size a ≤ (i a).val ∧ (i a).val < win0_5.index t a * S10000x24.size a + S10000x24.size a := by
  show i ∈ ((View.whole main_v14).slice (win0_5.rect t)).set ↔ _
  rw [View.set_slice_whole, Rect.mem_set_unit]
  exact Iff.rfl

/-- The ten row blocks cover the array: row `r` is in block `r / 10000`. -/
theorem cover0 (i : S100000x24.Idx) : ∃ t : Fin cfg0.N, (cfg0.win 5).flush t = true ∧ i ∈ ((cfg0.win 5).blk t).view.set := by
  have hi0 : (i 0).val < 100000 := (i 0).isLt
  have hi1 : (i 1).val < 24 := (i 1).isLt
  obtain ⟨t, ht⟩ := onto0 ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 24 ≤ (i 1).val ∧ (i 1).val < win0_5.index t (1 : Fin 2) * 24 + 24; omega

/-- The array the region leaves. -/
theorem final0 (c : Dev nD) : (dat0 V c).arrAt 5 cfg0.N = G0 V c :=
  (dat0 V c).arrAt_eq_of_cover 5 (G0 V c) (fun t _ => flushed0 V c t) (cover0)

end Cert.KernelIdeal.Blocks

end
-- ==== Proof.Region1.lean ====
/-
  Graph layer 1's combining region, from blocks to the array.

  The region combines, on ten blocks of 10000 rows, the aggregated neighbour features (window 0) and the nodes' own
  features (window 1), both moving with the output block along the rows, through the two 24×24 weights and the bias
  row, which are whole, and rectifies. The body's stored value at block row `p` reads only row `p` of the two row-indexed
  blocks, which is row `10000·t + p` of their arrays; the ten blocks tile the output array. So the array ends holding
  the layer's map of the region's input arrays at every index.
-/
import proofs.«168279_j54984171323620_1_alg».proof.Proof.Gen.KernelIdeal.Frame
import proofs.«168279_j54984171323620_1_alg».proof.Proof.Spec
import proofs.«168279_j54984171323620_1_alg».proof.Proof.SpecCongr
import proofs.«168279_j54984171323620_1_alg».proof.Proof.KernelPay
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Pay
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

private theorem hz : (![0, 0] : Fin 2 → Nat) = fun _ => 0 := funext fun a => by fin_cases a <;> rfl

/-- What the region's output array ends holding: the layer's map of the arrays the region finds, index by index. -/
def G1 (c : Dev nD) : S100000x24.Idx → EReal := fun i =>
  Cert.Spec.sageRelu (V c (Pipeline.arrRef spec1 0)) (V c (Pipeline.arrRef spec1 1)) (V c (Pipeline.arrRef spec1 2))
    (V c (Pipeline.arrRef spec1 4)) (fun g => V c (Pipeline.arrRef spec1 3) (ix2 0 g)) (i 0) (i 1)

/-- The printed index maps, decided over the ten grid points: a row-indexed window moves with the output window along
    the rows; every other window, and every window along the features, sits at block 0. -/
theorem idx1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every one of the ten row blocks is some point's. -/
theorem onto1 : ∀ q : Fin 10, ∃ t : Fin cfg1.N, win1_5.index t = ![q.val, 0] :=
  (by decide +kernel : ∀ q : Fin 10, ∃ t : Fin grid1.N, win1_5.index t = ![q.val, 0])

/-- What point `t` writes back is block `t` of `G1`. -/
theorem flushed1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S10000x24) hz, View.ld_unit_zero (S := S24x24) hz, View.ld_unit_zero (S := S1x24) hz]
  funext j
  show k1_pay1 (iblk1 V c 0 t) (iblk1 V c 1 t) (iblk1 V c 2 t) (iblk1 V c 4 t) (iblk1 V c 3 t) j
      = G1 V c (((cfg1.win 5).blk t).view.emb j)
  have hj : (j : S10000x24.Idx) = ix2 (j 0) (j 1) := eq_ix2 j
  obtain ⟨e00, e01, e10, e11, e20, e21, e30, e31, e40, e41, e51, -⟩ := idx1 t
  refine (congrArg (k1_pay1 (F := Ideal) (iblk1 V c 0 t) (iblk1 V c 1 t) (iblk1 V c 2 t) (iblk1 V c 4 t) (iblk1 V c 3 t)) hj).trans
    ((sage1_pay (iblk1 V c 0 t) (iblk1 V c 1 t) (iblk1 V c 2 t) (iblk1 V c 4 t) (iblk1 V c 3 t) (j 0) (j 1)).trans ?_)
  unfold G1
  refine Cert.Spec.sageRelu_congr _ _ _ _ _ _ _ _ _ _ _ _ _ _ (fun kk => ?_) (fun kk => ?_) (fun kk g => ?_) (fun kk g => ?_) (fun g => ?_) ?_
  · show V c (Pipeline.arrRef spec1 0) (((cfg1.win 0).blk t).view.emb (ix2 (j 0) kk)) = _
    refine congrArg (V c (Pipeline.arrRef spec1 0)) ?_
    funext a; apply Fin.ext
    match a with
    | ⟨0, _⟩ => show win1_0.index t (0 : Fin 2) * 10000 + 1 * (j 0).val = win1_5.index t (0 : Fin 2) * 10000 + 1 * (j 0).val; omega
    | ⟨1, _⟩ => show win1_0.index t (1 : Fin 2) * 24 + 1 * kk.val = kk.val; omega
  · show V c (Pipeline.arrRef spec1 1) (((cfg1.win 1).blk t).view.emb (ix2 (j 0) kk)) = _
    refine congrArg (V c (Pipeline.arrRef spec1 1)) ?_
    funext a; apply Fin.ext
    match a with
    | ⟨0, _⟩ => show win1_1.index t (0 : Fin 2) * 10000 + 1 * (j 0).val = win1_5.index t (0 : Fin 2) * 10000 + 1 * (j 0).val; omega
    | ⟨1, _⟩ => show win1_1.index t (1 : Fin 2) * 24 + 1 * kk.val = kk.val; omega
  · show V c (Pipeline.arrRef spec1 2) (((cfg1.win 2).blk t).view.emb (ix2 kk g)) = _
    refine congrArg (V c (Pipeline.arrRef spec1 2)) ?_
    funext a; apply Fin.ext
    match a with
    | ⟨0, _⟩ => show win1_2.index t (0 : Fin 2) * 24 + 1 * kk.val = kk.val; omega
    | ⟨1, _⟩ => show win1_2.index t (1 : Fin 2) * 24 + 1 * g.val = g.val; omega
  · show V c (Pipeline.arrRef spec1 4) (((cfg1.win 4).blk t).view.emb (ix2 kk g)) = _
    refine congrArg (V c (Pipeline.arrRef spec1 4)) ?_
    funext a; apply Fin.ext
    match a with
    | ⟨0, _⟩ => show win1_4.index t (0 : Fin 2) * 24 + 1 * kk.val = kk.val; omega
    | ⟨1, _⟩ => show win1_4.index t (1 : Fin 2) * 24 + 1 * g.val = g.val; omega
  · show V c (Pipeline.arrRef spec1 3) (((cfg1.win 3).blk t).view.emb (ix2 0 g)) = _
    refine congrArg (V c (Pipeline.arrRef spec1 3)) ?_
    funext a; apply Fin.ext
    match a with
    | ⟨0, _⟩ => show win1_3.index t (0 : Fin 2) * 1 + 1 * 0 = 0; omega
    | ⟨1, _⟩ => show win1_3.index t (1 : Fin 2) * 24 + 1 * g.val = g.val; omega
  · apply Fin.ext
    show (j 1).val = win1_5.index t (1 : Fin 2) * 24 + 1 * (j 1).val
    omega

/-- An index of the array is in point `t`'s block iff each coordinate is in the block's range on its axis. -/
theorem mem_blk1 (t : Fin cfg1.N) (i : S100000x24.Idx) :
    i ∈ ((cfg1.win 5).blk t).view.set ↔ ∀ a : Fin 2, win1_5.index t a * S10000x24.size a ≤ (i a).val ∧ (i a).val < win1_5.index t a * S10000x24.size a + S10000x24.size a := by
  show i ∈ ((View.whole main_v29).slice (win1_5.rect t)).set ↔ _
  rw [View.set_slice_whole, Rect.mem_set_unit]
  exact Iff.rfl

/-- The ten row blocks cover the array: row `r` is in block `r / 10000`. -/
theorem cover1 (i : S100000x24.Idx) : ∃ t : Fin cfg1.N, (cfg1.win 5).flush t = true ∧ i ∈ ((cfg1.win 5).blk t).view.set := by
  have hi0 : (i 0).val < 100000 := (i 0).isLt
  have hi1 : (i 1).val < 24 := (i 1).isLt
  obtain ⟨t, ht⟩ := onto1 ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 24 ≤ (i 1).val ∧ (i 1).val < win1_5.index t (1 : Fin 2) * 24 + 24; omega

/-- The array the region leaves. -/
theorem final1 (c : Dev nD) : (dat1 V c).arrAt 5 cfg1.N = G1 V c :=
  (dat1 V c).arrAt_eq_of_cover 5 (G1 V c) (fun t _ => flushed1 V c t) (cover1)

end Cert.KernelIdeal.Blocks

end
-- ==== Proof.Region2.lean ====
/-
  Graph layer 2's combining region, from blocks to the array.

  The region combines, on ten blocks of 10000 rows, the aggregated neighbour features (window 0) and the nodes' own
  features (window 1), both moving with the output block along the rows, through the two 24×24 weights and the bias
  row, which are whole, and rectifies. The body's stored value at block row `p` reads only row `p` of the two row-indexed
  blocks, which is row `10000·t + p` of their arrays; the ten blocks tile the output array. So the array ends holding
  the layer's map of the region's input arrays at every index.
-/
import proofs.«168279_j54984171323620_1_alg».proof.Proof.Gen.KernelIdeal.Frame
import proofs.«168279_j54984171323620_1_alg».proof.Proof.Spec
import proofs.«168279_j54984171323620_1_alg».proof.Proof.SpecCongr
import proofs.«168279_j54984171323620_1_alg».proof.Proof.KernelPay
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Pay
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

private theorem hz : (![0, 0] : Fin 2 → Nat) = fun _ => 0 := funext fun a => by fin_cases a <;> rfl

/-- What the region's output array ends holding: the layer's map of the arrays the region finds, index by index. -/
def G2 (c : Dev nD) : S100000x24.Idx → EReal := fun i =>
  Cert.Spec.sageRelu (V c (Pipeline.arrRef spec2 0)) (V c (Pipeline.arrRef spec2 1)) (V c (Pipeline.arrRef spec2 2))
    (V c (Pipeline.arrRef spec2 4)) (fun g => V c (Pipeline.arrRef spec2 3) (ix2 0 g)) (i 0) (i 1)

/-- The printed index maps, decided over the ten grid points: a row-indexed window moves with the output window along
    the rows; every other window, and every window along the features, sits at block 0. -/
theorem idx2 : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 9 :=
  (by decide +kernel : ∀ t : Fin grid2.N, _)

/-- Every one of the ten row blocks is some point's. -/
theorem onto2 : ∀ q : Fin 10, ∃ t : Fin cfg2.N, win2_5.index t = ![q.val, 0] :=
  (by decide +kernel : ∀ q : Fin 10, ∃ t : Fin grid2.N, win2_5.index t = ![q.val, 0])

/-- What point `t` writes back is block `t` of `G2`. -/
theorem flushed2 (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hz]
  simp only [View.ld_unit_zero (S := S10000x24) hz, View.ld_unit_zero (S := S24x24) hz, View.ld_unit_zero (S := S1x24) hz]
  funext j
  show k2_pay1 (iblk2 V c 0 t) (iblk2 V c 1 t) (iblk2 V c 2 t) (iblk2 V c 4 t) (iblk2 V c 3 t) j
      = G2 V c (((cfg2.win 5).blk t).view.emb j)
  have hj : (j : S10000x24.Idx) = ix2 (j 0) (j 1) := eq_ix2 j
  obtain ⟨e00, e01, e10, e11, e20, e21, e30, e31, e40, e41, e51, -⟩ := idx2 t
  refine (congrArg (k2_pay1 (F := Ideal) (iblk2 V c 0 t) (iblk2 V c 1 t) (iblk2 V c 2 t) (iblk2 V c 4 t) (iblk2 V c 3 t)) hj).trans
    ((sage2_pay (iblk2 V c 0 t) (iblk2 V c 1 t) (iblk2 V c 2 t) (iblk2 V c 4 t) (iblk2 V c 3 t) (j 0) (j 1)).trans ?_)
  unfold G2
  refine Cert.Spec.sageRelu_congr _ _ _ _ _ _ _ _ _ _ _ _ _ _ (fun kk => ?_) (fun kk => ?_) (fun kk g => ?_) (fun kk g => ?_) (fun g => ?_) ?_
  · show V c (Pipeline.arrRef spec2 0) (((cfg2.win 0).blk t).view.emb (ix2 (j 0) kk)) = _
    refine congrArg (V c (Pipeline.arrRef spec2 0)) ?_
    funext a; apply Fin.ext
    match a with
    | ⟨0, _⟩ => show win2_0.index t (0 : Fin 2) * 10000 + 1 * (j 0).val = win2_5.index t (0 : Fin 2) * 10000 + 1 * (j 0).val; omega
    | ⟨1, _⟩ => show win2_0.index t (1 : Fin 2) * 24 + 1 * kk.val = kk.val; omega
  · show V c (Pipeline.arrRef spec2 1) (((cfg2.win 1).blk t).view.emb (ix2 (j 0) kk)) = _
    refine congrArg (V c (Pipeline.arrRef spec2 1)) ?_
    funext a; apply Fin.ext
    match a with
    | ⟨0, _⟩ => show win2_1.index t (0 : Fin 2) * 10000 + 1 * (j 0).val = win2_5.index t (0 : Fin 2) * 10000 + 1 * (j 0).val; omega
    | ⟨1, _⟩ => show win2_1.index t (1 : Fin 2) * 24 + 1 * kk.val = kk.val; omega
  · show V c (Pipeline.arrRef spec2 2) (((cfg2.win 2).blk t).view.emb (ix2 kk g)) = _
    refine congrArg (V c (Pipeline.arrRef spec2 2)) ?_
    funext a; apply Fin.ext
    match a with
    | ⟨0, _⟩ => show win2_2.index t (0 : Fin 2) * 24 + 1 * kk.val = kk.val; omega
    | ⟨1, _⟩ => show win2_2.index t (1 : Fin 2) * 24 + 1 * g.val = g.val; omega
  · show V c (Pipeline.arrRef spec2 4) (((cfg2.win 4).blk t).view.emb (ix2 kk g)) = _
    refine congrArg (V c (Pipeline.arrRef spec2 4)) ?_
    funext a; apply Fin.ext
    match a with
    | ⟨0, _⟩ => show win2_4.index t (0 : Fin 2) * 24 + 1 * kk.val = kk.val; omega
    | ⟨1, _⟩ => show win2_4.index t (1 : Fin 2) * 24 + 1 * g.val = g.val; omega
  · show V c (Pipeline.arrRef spec2 3) (((cfg2.win 3).blk t).view.emb (ix2 0 g)) = _
    refine congrArg (V c (Pipeline.arrRef spec2 3)) ?_
    funext a; apply Fin.ext
    match a with
    | ⟨0, _⟩ => show win2_3.index t (0 : Fin 2) * 1 + 1 * 0 = 0; omega
    | ⟨1, _⟩ => show win2_3.index t (1 : Fin 2) * 24 + 1 * g.val = g.val; omega
  · apply Fin.ext
    show (j 1).val = win2_5.index t (1 : Fin 2) * 24 + 1 * (j 1).val
    omega

/-- An index of the array is in point `t`'s block iff each coordinate is in the block's range on its axis. -/
theorem mem_blk2 (t : Fin cfg2.N) (i : S100000x24.Idx) :
    i ∈ ((cfg2.win 5).blk t).view.set ↔ ∀ a : Fin 2, win2_5.index t a * S10000x24.size a ≤ (i a).val ∧ (i a).val < win2_5.index t a * S10000x24.size a + S10000x24.size a := by
  show i ∈ ((View.whole main_v44).slice (win2_5.rect t)).set ↔ _
  rw [View.set_slice_whole, Rect.mem_set_unit]
  exact Iff.rfl

/-- The ten row blocks cover the array: row `r` is in block `r / 10000`. -/
theorem cover2 (i : S100000x24.Idx) : ∃ t : Fin cfg2.N, (cfg2.win 5).flush t = true ∧ i ∈ ((cfg2.win 5).blk t).view.set := by
  have hi0 : (i 0).val < 100000 := (i 0).isLt
  have hi1 : (i 1).val < 24 := (i 1).isLt
  obtain ⟨t, ht⟩ := onto2 ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 24 ≤ (i 1).val ∧ (i 1).val < win2_5.index t (1 : Fin 2) * 24 + 24; omega

/-- The array the region leaves. -/
theorem final2 (c : Dev nD) : (dat2 V c).arrAt 5 cfg2.N = G2 V c :=
  (dat2 V c).arrAt_eq_of_cover 5 (G2 V c) (fun t _ => flushed2 V c t) (cover2)

end Cert.KernelIdeal.Blocks

end
-- ==== Proof.BridgeA.lean ====
/-
  The idealized kernel's buffers against the idealized reference's stages: the encoder and the first two graph layers.

  Each equation says that a buffer of the kernel's run, at a segment boundary, holds the value the reference computes
  at the corresponding point of its own program, as a function of the launch arguments. A REGION's output: the region
  leaves the node-wise map of its input arrays (the blocks-to-array step); its input arrays are launch arguments, a bias
  vector laid out as one row, or buffers already identified; and the reference's stage is the same node-wise map of the
  same arrays, index by index. An AGGREGATE: the kernel gathers the previous layer's rows at the edge sources, adds them
  up at the edge targets and scales each row by the reciprocal of `max (in-degree) 1`; the reference divides by
  `max (in-degree) 1`; a scaling by the reciprocal of a divisor that is at least one is the division by it, and what is
  left is the same expression in both programs' spelling.
-/
import proofs.«168279_j54984171323620_1_alg».proof.Proof.Gen.KernelIdeal.Frame
import proofs.«168279_j54984171323620_1_alg».proof.Proof.Gen.ReferenceIdeal.Read
import proofs.«168279_j54984171323620_1_alg».proof.Proof.Carry
import proofs.«168279_j54984171323620_1_alg».proof.Proof.RefStage
import proofs.«168279_j54984171323620_1_alg».proof.Proof.LibRowCast
import proofs.«168279_j54984171323620_1_alg».proof.Proof.SpecCongr
import proofs.«168279_j54984171323620_1_alg».proof.Proof.DegreeScale
import proofs.«168279_j54984171323620_1_alg».proof.Proof.Region0
import proofs.«168279_j54984171323620_1_alg».proof.Proof.Region1
import proofs.«168279_j54984171323620_1_alg».proof.Proof.Region2

set_option maxRecDepth 16384

noncomputable section

/-! ## The aggregate as a quotient -/

namespace Cert.KernelIdeal.Carry

open Cert.KernelIdeal Cert.KernelIdeal.Gen Idealize.ShloMosaic Idealize.ShloMosaic.TcCoe Idealize.SL.Sem

variable {F : FTy → Type} [FloatOps F]

/-- The in-degrees raised to at least one: the sum of ones over the edges into each node, then `max · 1`. -/
def degreeOf (d : (⟨S6400000, .i32⟩ : BufTy).Contents (Elt F)) : (⟨S100000, .f32⟩ : BufTy).Contents (Elt F) :=
  maximumf
    (Host.scatterAdd scatter_S100000_S6400000x1_S6400000_n_0_0_1
      (broadcastInDim S100000 ![] bcast_S_S100000 (constant S_ .f32 0x00000000#32))
      (broadcastInDim S6400000x1 ![0] bcast_S6400000_S6400000x1_0 d)
      (broadcastInDim S6400000 ![] bcast_S_S6400000 (constant S_ .f32 0x3F800000#32)))
    (broadcastInDim S100000 ![] bcast_S_S100000 (constant S_ .f32 0x3F800000#32))

/-- Their reciprocals. -/
def recipOf (d : (⟨S6400000, .i32⟩ : BufTy).Contents (Elt F)) : (⟨S100000, .f32⟩ : BufTy).Contents (Elt F) :=
  Host.divf (broadcastInDim S100000 ![] bcast_S_S100000 (constant S_ .f32 0x3F800000#32)) (degreeOf d)

/-- The neighbour sums DIVIDED by the raised in-degrees: the rows of `h` at the edge sources, added up at the edge
    targets, each row divided by its node's `max (in-degree) 1`. -/
def quotientOf (s d : (⟨S6400000, .i32⟩ : BufTy).Contents (Elt F)) (h : (⟨S100000x24, .f32⟩ : BufTy).Contents (Elt F)) :
    (⟨S100000x24, .f32⟩ : BufTy).Contents (Elt F) :=
  Host.divf (Host.scatterAdd scatter_S100000x24_S6400000x1_S6400000x24_1_0_0_1
        (broadcastInDim S100000x24 ![] bcast_S_S100000x24 (constant S_ .f32 0x00000000#32))
        (broadcastInDim S6400000x1 ![0] bcast_S6400000_S6400000x1_0 d)
        (Host.gather gather_S100000x24_S6400000x1_S6400000x24_1_0_n_n_0_1_124 h
          (broadcastInDim S6400000x1 ![0] bcast_S6400000_S6400000x1_0
            (select (cmpi .slt s (broadcastInDim S6400000 ![] bcast_S_S6400000 (constantI S_ 32 0#32)))
              (addi s (broadcastInDim S6400000 ![] bcast_S_S6400000 (constantI S_ 32 100000#32)))
              s))))
      (broadcastInDim S100000x24 ![0, 1] bcast_S100000x1_S100000x24_0_1
        (broadcastInDim S100000x1 ![0] bcast_S100000_S100000x1_0 (degreeOf d)))

variable (m : (ℓ : Loc nD τ sig) → Buf (Elt F) ℓ) (ρ : Dev nD → PrngReg) (c : Dev nD)

/-- The reciprocal in-degrees the first stretch computes are the reciprocals of the raised in-degrees. -/
theorem rdeg_is : rdeg m ρ c = recipOf (dst m ρ c) := (rdeg_eq_of_dst m ρ c).trans rfl

/-- Scaling the neighbour sums by the reciprocals is dividing them by the raised in-degrees: a divisor that is at
    least one is not zero. -/
theorem aggregate_quotient (s d : (⟨S6400000, .i32⟩ : BufTy).Contents (Elt Ideal))
    (h : (⟨S100000x24, .f32⟩ : BufTy).Contents (Elt Ideal)) :
    aggregateOf s d (recipOf d) h = quotientOf s d h := by
  unfold aggregateOf recipOf quotientOf degreeOf
  exact Cert.DegreeScale.scale_eq_quotient _ _ _ _ _ _ _ _

end Cert.KernelIdeal.Carry

namespace Cert.Bridge

open Cert.KernelIdeal Cert.KernelIdeal.Gen Cert.KernelIdeal.Carry
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The encoder region's output is the reference's encoder stage. -/
theorem enc_out : W2 m ρ c (Proc.devRef .tc main_v14)
    = Cert.ReferenceIdeal.Read.val_main_v13 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  refine (W2_arr m ρ c 5).trans ((Cert.KernelIdeal.Blocks.final0 (V1 m ρ) c).trans ?_)
  funext i
  refine Eq.trans ?_ (congrArg (Cert.ReferenceIdeal.Read.val_main_v13 (F := Ideal) _ _ _ _ _) (eq_ix2 i).symm)
  refine Eq.trans ?_ (Cert.ReferenceIdeal.Stage.enc_stage _ _ _ _ _ (i 0) (i 1)).symm
  unfold Cert.KernelIdeal.Blocks.G0
  refine Cert.Spec.enc_congr _ _ _ _ _ _ _ _ _ _ _ _ _ _ (fun jj => ?_) (fun jj k => ?_) (fun k => ?_) (fun k g => ?_) (fun g => ?_) rfl
  · exact congrFun (arg0_at_entry0 m ρ c) _
  · exact congrFun (arg2_at_entry0 m ρ c) _
  · exact (congrFun (bias_enc1 m ρ c) _).trans (RowCast.apply _ _ k)
  · exact congrFun (arg4_at_entry0 m ρ c) _
  · exact (congrFun (bias_enc2 m ρ c) _).trans (RowCast.apply _ _ g)

/-- The first aggregate is the reference's first mean. -/
theorem agg1_out : W3 m ρ c (Proc.devRef .tc main_v27)
    = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [aggregate1_named, rdeg_is, enc_out, aggregate_quotient, src_eq, dst_eq]
  rfl

/-- Graph layer 1's output is the reference's. -/
theorem sage1_out : W4 m ρ c (Proc.devRef .tc main_v29)
    = Cert.ReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ((Cert.KernelIdeal.Blocks.final1 (V3 m ρ) c).trans ?_)
  funext i
  refine Eq.trans ?_ (congrArg (Cert.ReferenceIdeal.Read.val_main_v39 (F := Ideal) _ _ _ _ _ _ _ _ _) (eq_ix2 i).symm)
  refine Eq.trans ?_ (Cert.ReferenceIdeal.Stage.sage1_stage _ _ _ _ _ _ _ _ _ (i 0) (i 1)).symm
  unfold Cert.KernelIdeal.Blocks.G1
  refine Cert.Spec.sageRelu_congr _ _ _ _ _ _ _ _ _ _ _ _ _ _ (fun kk => ?_) (fun kk => ?_) (fun kk g => ?_) (fun kk g => ?_) (fun g => ?_) rfl
  · exact congrFun (agg1_out m ρ c) _
  · exact congrFun ((own1_kept m ρ c).trans (enc_out m ρ c)) _
  · exact congrFun (arg6_at_entry1 m ρ c) _
  · exact congrFun (arg8_at_entry1 m ρ c) _
  · exact (congrFun (bias_sage1 m ρ c) _).trans (RowCast.apply _ _ g)

/-- The second aggregate is the reference's second mean. -/
theorem agg2_out : W5 m ρ c (Proc.devRef .tc main_v42)
    = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [aggregate2_named, rdeg_is, sage1_out, aggregate_quotient, src_eq, dst_eq]
  rfl

/-- Graph layer 2's output is the reference's. -/
theorem sage2_out : W6 m ρ c (Proc.devRef .tc main_v44)
    = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 5).trans ((Cert.KernelIdeal.Blocks.final2 (V5 m ρ) c).trans ?_)
  funext i
  refine Eq.trans ?_ (congrArg (Cert.ReferenceIdeal.Read.val_main_v65 (F := Ideal) _ _ _ _ _ _ _ _ _ _ _ _) (eq_ix2 i).symm)
  refine Eq.trans ?_ (Cert.ReferenceIdeal.Stage.sage2_stage _ _ _ _ _ _ _ _ _ _ _ _ (i 0) (i 1)).symm
  unfold Cert.KernelIdeal.Blocks.G2
  refine Cert.Spec.sageRelu_congr _ _ _ _ _ _ _ _ _ _ _ _ _ _ (fun kk => ?_) (fun kk => ?_) (fun kk g => ?_) (fun kk g => ?_) (fun g => ?_) rfl
  · exact congrFun (agg2_out m ρ c) _
  · exact congrFun ((own2_kept m ρ c).trans (sage1_out m ρ c)) _
  · exact congrFun (arg9_at_entry2 m ρ c) _
  · exact congrFun (arg11_at_entry2 m ρ c) _
  · exact (congrFun (bias_sage2 m ρ c) _).trans (RowCast.apply _ _ g)

end Cert.Bridge

end
-- ==== Proof.Region3.lean ====
/-
  Graph layer 3's combining region, from blocks to the array.

  The region combines, on ten blocks of 10000 rows, the aggregated neighbour features (window 0) and the nodes' own
  features (window 1), both moving with the output block along the rows, through the two 24×24 weights and the bias
  row, which are whole (this layer is not rectified). The body's stored value at block row `p` reads only row `p` of the two row-indexed
  blocks, which is row `10000·t + p` of their arrays; the ten blocks tile the output array. So the array ends holding
  the layer's map of the region's input arrays at every index.
-/
import proofs.«168279_j54984171323620_1_alg».proof.Proof.Gen.KernelIdeal.Frame
import proofs.«168279_j54984171323620_1_alg».proof.Proof.Spec
import proofs.«168279_j54984171323620_1_alg».proof.Proof.SpecCongr
import proofs.«168279_j54984171323620_1_alg».proof.Proof.KernelPay
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Pay
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

private theorem hz : (![0, 0] : Fin 2 → Nat) = fun _ => 0 := funext fun a => by fin_cases a <;> rfl

/-- What the region's output array ends holding: the layer's map of the arrays the region finds, index by index. -/
def G3 (c : Dev nD) : S100000x24.Idx → EReal := fun i =>
  Cert.Spec.sage (V c (Pipeline.arrRef spec3 0)) (V c (Pipeline.arrRef spec3 1)) (V c (Pipeline.arrRef spec3 2))
    (V c (Pipeline.arrRef spec3 4)) (fun g => V c (Pipeline.arrRef spec3 3) (ix2 0 g)) (i 0) (i 1)

/-- The printed index maps, decided over the ten grid points: a row-indexed window moves with the output window along
    the rows; every other window, and every window along the features, sits at block 0. -/
theorem idx3 : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0 ∧ win3_5.index t (0 : Fin 2) ≤ 9 :=
  (by decide +kernel : ∀ t : Fin grid3.N, _)

/-- Every one of the ten row blocks is some point's. -/
theorem onto3 : ∀ q : Fin 10, ∃ t : Fin cfg3.N, win3_5.index t = ![q.val, 0] :=
  (by decide +kernel : ∀ q : Fin 10, ∃ t : Fin grid3.N, win3_5.index t = ![q.val, 0])

/-- What point `t` writes back is block `t` of `G3`. -/
theorem flushed3 (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  unfold out3_5
  rw [View.canon_unit_zero hz]
  simp only [View.ld_unit_zero (S := S10000x24) hz, View.ld_unit_zero (S := S24x24) hz, View.ld_unit_zero (S := S1x24) hz]
  funext j
  show k3_pay1 (iblk3 V c 0 t) (iblk3 V c 1 t) (iblk3 V c 2 t) (iblk3 V c 4 t) (iblk3 V c 3 t) j
      = G3 V c (((cfg3.win 5).blk t).view.emb j)
  have hj : (j : S10000x24.Idx) = ix2 (j 0) (j 1) := eq_ix2 j
  obtain ⟨e00, e01, e10, e11, e20, e21, e30, e31, e40, e41, e51, -⟩ := idx3 t
  refine (congrArg (k3_pay1 (F := Ideal) (iblk3 V c 0 t) (iblk3 V c 1 t) (iblk3 V c 2 t) (iblk3 V c 4 t) (iblk3 V c 3 t)) hj).trans
    ((sage3_pay (iblk3 V c 0 t) (iblk3 V c 1 t) (iblk3 V c 2 t) (iblk3 V c 4 t) (iblk3 V c 3 t) (j 0) (j 1)).trans ?_)
  unfold G3
  refine Cert.Spec.sage_congr _ _ _ _ _ _ _ _ _ _ _ _ _ _ (fun kk => ?_) (fun kk => ?_) (fun kk g => ?_) (fun kk g => ?_) (fun g => ?_) ?_
  · show V c (Pipeline.arrRef spec3 0) (((cfg3.win 0).blk t).view.emb (ix2 (j 0) kk)) = _
    refine congrArg (V c (Pipeline.arrRef spec3 0)) ?_
    funext a; apply Fin.ext
    match a with
    | ⟨0, _⟩ => show win3_0.index t (0 : Fin 2) * 10000 + 1 * (j 0).val = win3_5.index t (0 : Fin 2) * 10000 + 1 * (j 0).val; omega
    | ⟨1, _⟩ => show win3_0.index t (1 : Fin 2) * 24 + 1 * kk.val = kk.val; omega
  · show V c (Pipeline.arrRef spec3 1) (((cfg3.win 1).blk t).view.emb (ix2 (j 0) kk)) = _
    refine congrArg (V c (Pipeline.arrRef spec3 1)) ?_
    funext a; apply Fin.ext
    match a with
    | ⟨0, _⟩ => show win3_1.index t (0 : Fin 2) * 10000 + 1 * (j 0).val = win3_5.index t (0 : Fin 2) * 10000 + 1 * (j 0).val; omega
    | ⟨1, _⟩ => show win3_1.index t (1 : Fin 2) * 24 + 1 * kk.val = kk.val; omega
  · show V c (Pipeline.arrRef spec3 2) (((cfg3.win 2).blk t).view.emb (ix2 kk g)) = _
    refine congrArg (V c (Pipeline.arrRef spec3 2)) ?_
    funext a; apply Fin.ext
    match a with
    | ⟨0, _⟩ => show win3_2.index t (0 : Fin 2) * 24 + 1 * kk.val = kk.val; omega
    | ⟨1, _⟩ => show win3_2.index t (1 : Fin 2) * 24 + 1 * g.val = g.val; omega
  · show V c (Pipeline.arrRef spec3 4) (((cfg3.win 4).blk t).view.emb (ix2 kk g)) = _
    refine congrArg (V c (Pipeline.arrRef spec3 4)) ?_
    funext a; apply Fin.ext
    match a with
    | ⟨0, _⟩ => show win3_4.index t (0 : Fin 2) * 24 + 1 * kk.val = kk.val; omega
    | ⟨1, _⟩ => show win3_4.index t (1 : Fin 2) * 24 + 1 * g.val = g.val; omega
  · show V c (Pipeline.arrRef spec3 3) (((cfg3.win 3).blk t).view.emb (ix2 0 g)) = _
    refine congrArg (V c (Pipeline.arrRef spec3 3)) ?_
    funext a; apply Fin.ext
    match a with
    | ⟨0, _⟩ => show win3_3.index t (0 : Fin 2) * 1 + 1 * 0 = 0; omega
    | ⟨1, _⟩ => show win3_3.index t (1 : Fin 2) * 24 + 1 * g.val = g.val; omega
  · apply Fin.ext
    show (j 1).val = win3_5.index t (1 : Fin 2) * 24 + 1 * (j 1).val
    omega

/-- An index of the array is in point `t`'s block iff each coordinate is in the block's range on its axis. -/
theorem mem_blk3 (t : Fin cfg3.N) (i : S100000x24.Idx) :
    i ∈ ((cfg3.win 5).blk t).view.set ↔ ∀ a : Fin 2, win3_5.index t a * S10000x24.size a ≤ (i a).val ∧ (i a).val < win3_5.index t a * S10000x24.size a + S10000x24.size a := by
  show i ∈ ((View.whole main_v59).slice (win3_5.rect t)).set ↔ _
  rw [View.set_slice_whole, Rect.mem_set_unit]
  exact Iff.rfl

/-- The ten row blocks cover the array: row `r` is in block `r / 10000`. -/
theorem cover3 (i : S100000x24.Idx) : ∃ t : Fin cfg3.N, (cfg3.win 5).flush t = true ∧ i ∈ ((cfg3.win 5).blk t).view.set := by
  have hi0 : (i 0).val < 100000 := (i 0).isLt
  have hi1 : (i 1).val < 24 := (i 1).isLt
  obtain ⟨t, ht⟩ := onto3 ⟨(i 0).val / 10000, by omega⟩
  have q0 : win3_5.index t (0 : Fin 2) = (i 0).val / 10000 := congrFun ht 0
  have q1 : win3_5.index t (1 : Fin 2) = 0 := congrFun ht 1
  refine ⟨t, flush3_5 t, ?_⟩
  rw [mem_blk3]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 24 ≤ (i 1).val ∧ (i 1).val < win3_5.index t (1 : Fin 2) * 24 + 24; omega

/-- The array the region leaves. -/
theorem final3 (c : Dev nD) : (dat3 V c).arrAt 5 cfg3.N = G3 V c :=
  (dat3 V c).arrAt_eq_of_cover 5 (G3 V c) (fun t _ => flushed3 V c t) (cover3)

end Cert.KernelIdeal.Blocks

end
-- ==== Proof.Region4.lean ====
/-
  The decoder region, from blocks to the array.

  As for the encoder: ten blocks of 10000 rows, the weights and bias rows whole, each output block written back to
  its own rows. The body stores the decoder's value of the block; the decoder reads only the block's own row, which
  is the array's row `10000·t + p`; the blocks tile the output array. So the result array ends holding the
  decoder's map of the region's input arrays at every index.
-/
import proofs.«168279_j54984171323620_1_alg».proof.Proof.Gen.KernelIdeal.Frame
import proofs.«168279_j54984171323620_1_alg».proof.Proof.Spec
import proofs.«168279_j54984171323620_1_alg».proof.Proof.SpecCongr
import proofs.«168279_j54984171323620_1_alg».proof.Proof.KernelPay
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Pay
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

private theorem hz : (![0, 0] : Fin 2 → Nat) = fun _ => 0 := funext fun a => by fin_cases a <;> rfl

/-- What the region's output array ends holding: the decoder's map of the arrays the region finds, index by index. -/
def G4 (c : Dev nD) : S100000x12.Idx → EReal := fun i =>
  Cert.Spec.dec (V c (Pipeline.arrRef spec4 0)) (V c (Pipeline.arrRef spec4 1)) (fun k => V c (Pipeline.arrRef spec4 2) (ix2 0 k))
    (V c (Pipeline.arrRef spec4 3)) (fun g => V c (Pipeline.arrRef spec4 4) (ix2 0 g)) (i 0) (i 1)

/-- The printed index maps, decided over the ten grid points: a row-indexed window moves with the output window along
    the rows; every other window, and every window along the features, sits at block 0. -/
theorem idx4 : ∀ t : Fin cfg4.N,
    win4_0.index t (0 : Fin 2) = win4_5.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (1 : Fin 2) = 0 ∧ win4_5.index t (0 : Fin 2) ≤ 9 :=
  (by decide +kernel : ∀ t : Fin grid4.N, _)

/-- Every one of the ten row blocks is some point's. -/
theorem onto4 : ∀ q : Fin 10, ∃ t : Fin cfg4.N, win4_5.index t = ![q.val, 0] :=
  (by decide +kernel : ∀ q : Fin 10, ∃ t : Fin grid4.N, win4_5.index t = ![q.val, 0])

/-- What point `t` writes back is block `t` of `G4`. -/
theorem flushed4 (c : Dev nD) (t : Fin cfg4.N) :
    (dat4 V c).flushed 5 t = ((cfg4.win 5).blk t).view.read (Elt Ideal) (G4 V c) := by
  show (cfg4.win 5).cut (grid4.coords t) ((dat4 V c).after 5 t) = _
  rw [after4_5]
  unfold out4_5
  rw [View.canon_unit_zero hz]
  simp only [View.ld_unit_zero (S := S10000x24) hz, View.ld_unit_zero (S := S24x120) hz, View.ld_unit_zero (S := S1x120) hz, View.ld_unit_zero (S := S120x12) hz, View.ld_unit_zero (S := S1x12) hz]
  funext j
  show k4_pay1 (iblk4 V c 0 t) (iblk4 V c 1 t) (iblk4 V c 2 t) (iblk4 V c 3 t) (iblk4 V c 4 t) j
      = G4 V c (((cfg4.win 5).blk t).view.emb j)
  have hj : (j : S10000x12.Idx) = ix2 (j 0) (j 1) := eq_ix2 j
  obtain ⟨e00, e01, e10, e11, e20, e21, e30, e31, e40, e41, e51, -⟩ := idx4 t
  refine (congrArg (k4_pay1 (F := Ideal) (iblk4 V c 0 t) (iblk4 V c 1 t) (iblk4 V c 2 t) (iblk4 V c 3 t) (iblk4 V c 4 t)) hj).trans
    ((dec_pay (iblk4 V c 0 t) (iblk4 V c 1 t) (iblk4 V c 2 t) (iblk4 V c 3 t) (iblk4 V c 4 t) (j 0) (j 1)).trans ?_)
  unfold G4
  refine Cert.Spec.dec_congr _ _ _ _ _ _ _ _ _ _ _ _ _ _ (fun jj => ?_) (fun jj k => ?_) (fun k => ?_) (fun k g => ?_) (fun g => ?_) ?_
  · show V c (Pipeline.arrRef spec4 0) (((cfg4.win 0).blk t).view.emb (ix2 (j 0) jj)) = _
    refine congrArg (V c (Pipeline.arrRef spec4 0)) ?_
    funext a; apply Fin.ext
    match a with
    | ⟨0, _⟩ => show win4_0.index t (0 : Fin 2) * 10000 + 1 * (j 0).val = win4_5.index t (0 : Fin 2) * 10000 + 1 * (j 0).val; omega
    | ⟨1, _⟩ => show win4_0.index t (1 : Fin 2) * 24 + 1 * jj.val = jj.val; omega
  · show V c (Pipeline.arrRef spec4 1) (((cfg4.win 1).blk t).view.emb (ix2 jj k)) = _
    refine congrArg (V c (Pipeline.arrRef spec4 1)) ?_
    funext a; apply Fin.ext
    match a with
    | ⟨0, _⟩ => show win4_1.index t (0 : Fin 2) * 24 + 1 * jj.val = jj.val; omega
    | ⟨1, _⟩ => show win4_1.index t (1 : Fin 2) * 120 + 1 * k.val = k.val; omega
  · show V c (Pipeline.arrRef spec4 2) (((cfg4.win 2).blk t).view.emb (ix2 0 k)) = _
    refine congrArg (V c (Pipeline.arrRef spec4 2)) ?_
    funext a; apply Fin.ext
    match a with
    | ⟨0, _⟩ => show win4_2.index t (0 : Fin 2) * 1 + 1 * 0 = 0; omega
    | ⟨1, _⟩ => show win4_2.index t (1 : Fin 2) * 120 + 1 * k.val = k.val; omega
  · show V c (Pipeline.arrRef spec4 3) (((cfg4.win 3).blk t).view.emb (ix2 k g)) = _
    refine congrArg (V c (Pipeline.arrRef spec4 3)) ?_
    funext a; apply Fin.ext
    match a with
    | ⟨0, _⟩ => show win4_3.index t (0 : Fin 2) * 120 + 1 * k.val = k.val; omega
    | ⟨1, _⟩ => show win4_3.index t (1 : Fin 2) * 12 + 1 * g.val = g.val; omega
  · show V c (Pipeline.arrRef spec4 4) (((cfg4.win 4).blk t).view.emb (ix2 0 g)) = _
    refine congrArg (V c (Pipeline.arrRef spec4 4)) ?_
    funext a; apply Fin.ext
    match a with
    | ⟨0, _⟩ => show win4_4.index t (0 : Fin 2) * 1 + 1 * 0 = 0; omega
    | ⟨1, _⟩ => show win4_4.index t (1 : Fin 2) * 12 + 1 * g.val = g.val; omega
  · apply Fin.ext
    show (j 1).val = win4_5.index t (1 : Fin 2) * 12 + 1 * (j 1).val
    omega

/-- An index of the array is in point `t`'s block iff each coordinate is in the block's range on its axis. -/
theorem mem_blk4 (t : Fin cfg4.N) (i : S100000x12.Idx) :
    i ∈ ((cfg4.win 5).blk t).view.set ↔ ∀ a : Fin 2, win4_5.index t a * S10000x12.size a ≤ (i a).val ∧ (i a).val < win4_5.index t a * S10000x12.size a + S10000x12.size a := by
  show i ∈ ((View.whole main_v62).slice (win4_5.rect t)).set ↔ _
  rw [View.set_slice_whole, Rect.mem_set_unit]
  exact Iff.rfl

/-- The ten row blocks cover the array: row `r` is in block `r / 10000`. -/
theorem cover4 (i : S100000x12.Idx) : ∃ t : Fin cfg4.N, (cfg4.win 5).flush t = true ∧ i ∈ ((cfg4.win 5).blk t).view.set := by
  have hi0 : (i 0).val < 100000 := (i 0).isLt
  have hi1 : (i 1).val < 12 := (i 1).isLt
  obtain ⟨t, ht⟩ := onto4 ⟨(i 0).val / 10000, by omega⟩
  have q0 : win4_5.index t (0 : Fin 2) = (i 0).val / 10000 := congrFun ht 0
  have q1 : win4_5.index t (1 : Fin 2) = 0 := congrFun ht 1
  refine ⟨t, flush4_5 t, ?_⟩
  rw [mem_blk4]
  intro a
  match a with
  | ⟨0, _⟩ => show win4_5.index t (0 : Fin 2) * 10000 ≤ (i 0).val ∧ (i 0).val < win4_5.index t (0 : Fin 2) * 10000 + 10000; omega
  | ⟨1, _⟩ => show win4_5.index t (1 : Fin 2) * 12 ≤ (i 1).val ∧ (i 1).val < win4_5.index t (1 : Fin 2) * 12 + 12; omega

/-- The array the region leaves. -/
theorem final4 (c : Dev nD) : (dat4 V c).arrAt 5 cfg4.N = G4 V c :=
  (dat4 V c).arrAt_eq_of_cover 5 (G4 V c) (fun t _ => flushed4 V c t) (cover4)

end Cert.KernelIdeal.Blocks

end
-- ==== Proof.BridgeB.lean ====
/-
  The idealized kernel's buffers against the idealized reference's stages: the third graph layer and the decoder.

  The same two kinds of equation as for the earlier layers: an aggregate is the reference's mean because scaling by
  the reciprocal of a divisor that is at least one is dividing by it; a region's output is the reference's stage because
  both are one node-wise map of the same arrays. The last equation is the result: the kernel's result buffer holds the
  reference's result, as a function of the nineteen launch arguments.
-/
import proofs.«168279_j54984171323620_1_alg».proof.Proof.Gen.KernelIdeal.Frame
import proofs.«168279_j54984171323620_1_alg».proof.Proof.Gen.ReferenceIdeal.Read
import proofs.«168279_j54984171323620_1_alg».proof.Proof.Carry
import proofs.«168279_j54984171323620_1_alg».proof.Proof.RefStage
import proofs.«168279_j54984171323620_1_alg».proof.Proof.LibRowCast
import proofs.«168279_j54984171323620_1_alg».proof.Proof.SpecCongr
import proofs.«168279_j54984171323620_1_alg».proof.Proof.DegreeScale
import proofs.«168279_j54984171323620_1_alg».proof.Proof.BridgeA
import proofs.«168279_j54984171323620_1_alg».proof.Proof.Region3
import proofs.«168279_j54984171323620_1_alg».proof.Proof.Region4

set_option maxRecDepth 16384

noncomputable section

namespace Cert.Bridge

open Cert.KernelIdeal Cert.KernelIdeal.Gen Cert.KernelIdeal.Carry
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The third aggregate is the reference's third mean. -/
theorem agg3_out : W7 m ρ c (Proc.devRef .tc main_v57)
    = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [aggregate3_named, rdeg_is, sage2_out, aggregate_quotient, src_eq, dst_eq]
  rfl

/-- Graph layer 3's output (not rectified) is the reference's. -/
theorem sage3_out : W8 m ρ c (Proc.devRef .tc main_v59)
    = Cert.ReferenceIdeal.Read.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W8_arr m ρ c 5).trans ((Cert.KernelIdeal.Blocks.final3 (V7 m ρ) c).trans ?_)
  funext i
  refine Eq.trans ?_ (congrArg (Cert.ReferenceIdeal.Read.val_main_v90 (F := Ideal) _ _ _ _ _ _ _ _ _ _ _ _ _ _ _) (eq_ix2 i).symm)
  refine Eq.trans ?_ (Cert.ReferenceIdeal.Stage.sage3_stage _ _ _ _ _ _ _ _ _ _ _ _ _ _ _ (i 0) (i 1)).symm
  unfold Cert.KernelIdeal.Blocks.G3
  refine Cert.Spec.sage_congr _ _ _ _ _ _ _ _ _ _ _ _ _ _ (fun kk => ?_) (fun kk => ?_) (fun kk g => ?_) (fun kk g => ?_) (fun g => ?_) rfl
  · exact congrFun (agg3_out m ρ c) _
  · exact congrFun ((own3_kept m ρ c).trans (sage2_out m ρ c)) _
  · exact congrFun (arg12_at_entry3 m ρ c) _
  · exact congrFun (arg14_at_entry3 m ρ c) _
  · exact (congrFun (bias_sage3 m ρ c) _).trans (RowCast.apply _ _ g)

/-- THE RESULT: the kernel's result buffer holds the reference's result of the launch arguments. -/
theorem result : W10 m ρ c (Proc.devRef .tc main_v62)
    = Cert.ReferenceIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W10_arr m ρ c 5).trans ((Cert.KernelIdeal.Blocks.final4 (V9 m ρ) c).trans ?_)
  funext i
  refine Eq.trans ?_ (congrArg (Cert.ReferenceIdeal.Read.val_main_v99 (F := Ideal) _ _ _ _ _ _ _ _ _ _ _ _ _ _ _ _ _ _ _) (eq_ix2 i).symm)
  refine Eq.trans ?_ (Cert.ReferenceIdeal.Stage.dec_stage _ _ _ _ _ _ _ _ _ _ _ _ _ _ _ _ _ _ _ (i 0) (i 1)).symm
  unfold Cert.KernelIdeal.Blocks.G4
  refine Cert.Spec.dec_congr _ _ _ _ _ _ _ _ _ _ _ _ _ _ (fun jj => ?_) (fun jj k => ?_) (fun k => ?_) (fun k g => ?_) (fun g => ?_) rfl
  · exact congrFun ((own4_kept m ρ c).trans (sage3_out m ρ c)) _
  · exact congrFun (arg15_at_entry4 m ρ c) _
  · exact (congrFun (bias_dec1 m ρ c) _).trans (RowCast.apply _ _ k)
  · exact congrFun (arg17_at_entry4 m ρ c) _
  · exact (congrFun (bias_dec2 m ρ c) _).trans (RowCast.apply _ _ g)

end Cert.Bridge

end
-- ==== Proof.lean ====
/-
  A three-layer graph network on 100000 nodes and 6400000 edges, computed two ways, gives one result.

  Both programs run an encoder (two dense layers with rectifiers) on the node features, then three graph layers, then a
  decoder (a rectified dense layer and a plain one). A graph layer sums, for every node, the previous layer's rows over
  the edges into the node, turns the sum into a mean over `max (in-degree) 1`, and combines the mean and the node's own
  row through two 24×24 weights and a bias; the first two layers are rectified. The reference does every dense step as
  one whole-array product on the host and DIVIDES each neighbour sum by `max (in-degree) 1`. The kernel computes the
  reciprocals `1 / max (in-degree) 1` once, MULTIPLIES each neighbour sum by them, and runs the dense steps in five
  tiled regions of ten blocks of 10000 rows, the matrix products taken with operands narrowed to bf16.

  At the exact values a change of float format is the identity, a matrix product is the plain sum of products whatever
  the tiling, and a divisor that is at least one is not zero, so multiplying by its reciprocal is dividing by it — at
  the infinities too; no input needs to be finite for the two results to agree. Hence, index by index, the kernel's
  result buffer holds what the reference's program computes from the same nineteen arguments (`Cert.Bridge.result`):
  each tiled region leaves the node-wise map of its input arrays (a block's rows are the array's rows, and the ten
  blocks tile the array), each stretch of host operations between regions is the reference's neighbour mean, and the
  reference's stages are the same node-wise maps.

  The three runs terminate without a fault and leave their arguments as launched; the idealized kernel is the printed
  kernel's own text read at the exact values, with no rewrite to account for.
-/
import proofs.«168279_j54984171323620_1_alg».proof.Defs
import proofs.«168279_j54984171323620_1_alg».proof.Proof.Gen.Kernel
import proofs.«168279_j54984171323620_1_alg».proof.Proof.Gen.Kernel.Skeleton
import proofs.«168279_j54984171323620_1_alg».proof.Proof.Gen.Kernel.Launch
import proofs.«168279_j54984171323620_1_alg».proof.Proof.Gen.Kernel.Points
import proofs.«168279_j54984171323620_1_alg».proof.Proof.Gen.Kernel.Frame
import proofs.«168279_j54984171323620_1_alg».proof.Proof.Gen.KernelIdeal
import proofs.«168279_j54984171323620_1_alg».proof.Proof.Gen.KernelIdeal.Skeleton
import proofs.«168279_j54984171323620_1_alg».proof.Proof.Gen.KernelIdeal.Launch
import proofs.«168279_j54984171323620_1_alg».proof.Proof.Gen.KernelIdeal.Points
import proofs.«168279_j54984171323620_1_alg».proof.Proof.Gen.KernelIdeal.Frame
import proofs.«168279_j54984171323620_1_alg».proof.Proof.Gen.ReferenceIdeal
import proofs.«168279_j54984171323620_1_alg».proof.Proof.Gen.ReferenceIdeal.Run
import proofs.«168279_j54984171323620_1_alg».proof.Proof.Gen.ReferenceIdeal.Read
import proofs.«168279_j54984171323620_1_alg».proof.Proof.Gen.Pre_finite_inputs
import proofs.«168279_j54984171323620_1_alg».proof.Proof.WholeRun
import proofs.«168279_j54984171323620_1_alg».proof.Proof.BridgeB
import Idealize.ShloMosaic.Adequacy
import Idealize.ShloMosaic.Init

set_option maxRecDepth 16384

noncomputable section

namespace Cert.Proof

open Idealize.ShloMosaic Idealize.ShloMosaic.TcCoe Idealize.SL.Sem

/-- The printed kernel runs and leaves its arguments as launched. -/
theorem frame_k : Cert.frame_Kernel := fun m ρ _ => Cert.Kernel.Gen.frame m ρ

/-- So does its reading at the exact values. -/
theorem frame_ki : Cert.frame_KernelIdeal := fun m ρ _ => Cert.KernelIdeal.Gen.frame m ρ

/-- The reference runs and leaves its arguments as launched: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the nineteen arguments both programs run, the arguments end as launched, and the two
    result arrays are equal as extended reals, element by element: the kernel's result buffer holds the reference's
    result of the kernel's arguments, which are the reference's arguments. -/
theorem algebraic : Cert.algebraic_KernelIdeal_ReferenceIdeal := by
  intro m ρ m' ρ' _ hagree
  refine ⟨fun c => Cert.KernelIdeal.Gen.W10 m ρ c (Proc.devRef .tc Cert.KernelIdeal.main_v62), ?_, ?_⟩
  · exact (θ_run Cert.KernelIdeal.defs _ _).mono (fun r h c =>
      ⟨h c Cert.KernelIdeal.main_v62 (by decide),
        (h c Cert.KernelIdeal.main_arg0 (by decide)).trans (Cert.KernelIdeal.Gen.W10_main_arg0 m ρ c),
        (h c Cert.KernelIdeal.main_arg1 (by decide)).trans (Cert.KernelIdeal.Gen.W10_main_arg1 m ρ c),
        (h c Cert.KernelIdeal.main_arg2 (by decide)).trans (Cert.KernelIdeal.Gen.W10_main_arg2 m ρ c),
        (h c Cert.KernelIdeal.main_arg3 (by decide)).trans (Cert.KernelIdeal.Gen.W10_main_arg3 m ρ c),
        (h c Cert.KernelIdeal.main_arg4 (by decide)).trans (Cert.KernelIdeal.Gen.W10_main_arg4 m ρ c),
        (h c Cert.KernelIdeal.main_arg5 (by decide)).trans (Cert.KernelIdeal.Gen.W10_main_arg5 m ρ c),
        (h c Cert.KernelIdeal.main_arg6 (by decide)).trans (Cert.KernelIdeal.Gen.W10_main_arg6 m ρ c),
        (h c Cert.KernelIdeal.main_arg7 (by decide)).trans (Cert.KernelIdeal.Gen.W10_main_arg7 m ρ c),
        (h c Cert.KernelIdeal.main_arg8 (by decide)).trans (Cert.KernelIdeal.Gen.W10_main_arg8 m ρ c),
        (h c Cert.KernelIdeal.main_arg9 (by decide)).trans (Cert.KernelIdeal.Gen.W10_main_arg9 m ρ c),
        (h c Cert.KernelIdeal.main_arg10 (by decide)).trans (Cert.KernelIdeal.Gen.W10_main_arg10 m ρ c),
        (h c Cert.KernelIdeal.main_arg11 (by decide)).trans (Cert.KernelIdeal.Gen.W10_main_arg11 m ρ c),
        (h c Cert.KernelIdeal.main_arg12 (by decide)).trans (Cert.KernelIdeal.Gen.W10_main_arg12 m ρ c),
        (h c Cert.KernelIdeal.main_arg13 (by decide)).trans (Cert.KernelIdeal.Gen.W10_main_arg13 m ρ c),
        (h c Cert.KernelIdeal.main_arg14 (by decide)).trans (Cert.KernelIdeal.Gen.W10_main_arg14 m ρ c),
        (h c Cert.KernelIdeal.main_arg15 (by decide)).trans (Cert.KernelIdeal.Gen.W10_main_arg15 m ρ c),
        (h c Cert.KernelIdeal.main_arg16 (by decide)).trans (Cert.KernelIdeal.Gen.W10_main_arg16 m ρ c),
        (h c Cert.KernelIdeal.main_arg17 (by decide)).trans (Cert.KernelIdeal.Gen.W10_main_arg17 m ρ c),
        (h c Cert.KernelIdeal.main_arg18 (by decide)).trans (Cert.KernelIdeal.Gen.W10_main_arg18 m ρ c)⟩)
      (Cert.KernelIdeal.Whole.run_last m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v99_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]
    exact (Cert.Bridge.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
